-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S512x128 : Shape := ⟨2, ![512, 128]⟩
abbrev S128x512 : Shape := ⟨2, ![128, 512]⟩
abbrev S512 : Shape := ⟨1, ![512]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x128 : S_.BroadcastsInDim S512x128 (![] : Fin 0 → Fin S512x128.rank)
  reducesTo_S512x128_S_d0_1 : S512x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S128x512 .f32) (main_arg5 : FVec F S512 .f32) (main_arg6 : FVec F S512 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8192x128 .f32) (main_arg1 : FVec F S8192x8192 .f32) (main_arg2 : FVec F S512x128 .f32) (main_arg3 : FVec F S128x512 .f32) (main_arg4 : FVec F S128x512 .f32) (main_arg5 : FVec F S512 .f32) (main_arg6 : FVec F S512 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_v13 main_v16
-- ==== Kernel.lean ====
abbrev S8192x128 : Shape := ⟨2, ![8192, 128]⟩
abbrev S8192x8192 : Shape := ⟨2, ![8192, 8192]⟩
abbrev S512x128 : Shape := ⟨2, ![512, 128]⟩
abbrev S128x512 : Shape := ⟨2, ![128, 512]⟩
abbrev S512 : Shape := ⟨1, ![512]⟩
abbrev S8192x512 : Shape := ⟨2, ![8192, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S1024x1024 : Shape := ⟨2, ![1024, 1024]⟩
abbrev S_ : Shape := ⟨0, ![]⟩
abbrev S1x512 : Shape := ⟨2, ![1, 512]⟩

abbrev nBuf : Space → Nat
  | .hbm => 42
  | .vmem => 23
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S512x128, .f32⟩
  | .hbm, ⟨3, _⟩ => ⟨S128x512, .f32⟩
  | .hbm, ⟨4, _⟩ => ⟨S128x512, .f32⟩
  | .hbm, ⟨5, _⟩ => ⟨S512, .f32⟩
  | .hbm, ⟨6, _⟩ => ⟨S512, .f32⟩
  | .hbm, ⟨7, _⟩ => ⟨S8192x512, .bf16⟩
  | .hbm, ⟨8, _⟩ => ⟨S8192x512, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S_, .i32⟩
  | .hbm, ⟨15, _⟩ => ⟨S_, .f32⟩
  | .hbm, ⟨16, _⟩ => ⟨S512, .f32⟩
  | .hbm, ⟨17, _⟩ => ⟨S1x512, .f32⟩
  | .hbm, ⟨18, _⟩ => ⟨S_, .f32⟩
  | .hbm, ⟨19, _⟩ => ⟨S1x512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S128x512, .f32⟩
  | .local _ .vmem, ⟨4, _⟩ => ⟨S128x512, .f32⟩
  | .local _ .vmem, ⟨5, _⟩ => ⟨S1024x512, .bf16⟩
  | .local _ .vmem, ⟨6, _⟩ => ⟨S1024x512, .bf16⟩
  | .local _ .vmem, ⟨7, _⟩ => ⟨S1024x1024, .f32⟩
  | .local _ .vmem, ⟨8, _⟩ => ⟨S1024x1024, .f32⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1024x1024, .f32⟩
  | .local _ .vmem, ⟨22, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_cst_3 : Ref sig .tc := ⟨.hbm, 31, rfl⟩
abbrev main_call0_v12 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1024x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S128x512_S128x512_0_0 : ∀ a, (![0, 0] : Fin 2 → Nat) a + S128x512.size a ≤ S128x512.size a
  h_S128x512 : 0 < S128x512.numel
  reduces_S1024x128_S1024 : S1024x128.Reduces [1] S1024
  shapeCasts_S1024_S1024x1 : S1024.ShapeCasts S1024x1
  broadcasts_S1024x1_S1024x128 : S1024x1.Broadcasts S1024x128
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x512_S1024x512 : S1024x512.ShapeCasts S1024x512
  reducesTo_S8192x512_S512_d0 : S8192x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S8192x512_0_1 : S1x512.BroadcastsInDim S8192x512 (![0, 1] : Fin 2 → Fin S8192x512.rank)
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x128_S512x128_S1024x512_1_1_0_0_n_n_wf : DotDims.WF S1024x128 S512x128 S1024x512 [1] [1] [0] [0] [] []
  dot_S1024x512_S128x512_S1024x128_1_1_0_0_n_n_wf : DotDims.WF S1024x512 S128x512 S1024x128 [1] [1] [0] [0] [] []
  dot_S1024x128_S128x512_S1024x512_1_0_0_1_n_n_wf : DotDims.WF S1024x128 S128x512 S1024x512 [1] [0] [0] [1] [] []
  dot_S1024x1024_S1024x512_S1024x512_1_0_0_1_n_n_wf : DotDims.WF S1024x1024 S1024x512 S1024x512 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .bf16 = 32 ∨ (Rect.block (s := S8192x512) S1024x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .f32 = 32 ∨ (Rect.block (s := S8192x512) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x512.size a
  hwx2_1 : ∀ i : grid2.Coords, EltTy.bits .f32 = 32 ∨ (Rect.block (s := S8192x512) S1024x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x1024.size a ≤ S8192x8192.size a
  hwx2_6 : ∀ i : grid2.Coords, EltTy.bits .f32 = 32 ∨ (Rect.block (s := S8192x8192) S1024x1024.size (cc2_transform_6 i) (hinb2_6 i)).WholeWords (EltTy.packing .f32)

variable [Facts₀]

def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf
def dot_S1024x512_S128x512_S1024x128_1_1_0_0_n_n : DotDims S1024x512 S128x512 S1024x128 where
  lhsContracting := [1]
  rhsContracting := [1]
  lhsNonContracting := [0]
  rhsNonContracting := [0]
  lhsBatch := []
  rhsBatch := []
  wf := dot_S1024x512_S128x512_S1024x128_1_1_0_0_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1024x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S512x128 : Shape := ⟨2, ![512, 128]⟩
abbrev S128x512 : Shape := ⟨2, ![128, 512]⟩
abbrev S512 : Shape := ⟨1, ![512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S512x8192 : Shape := ⟨2, ![512, 8192]⟩

abbrev nBuf : Space → Nat
  | .hbm => 78
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S512x128, .f32⟩
  | .hbm, ⟨3, _⟩ => ⟨S128x512, .f32⟩
  | .hbm, ⟨4, _⟩ => ⟨S128x512, .f32⟩
  | .hbm, ⟨5, _⟩ => ⟨S512, .f32⟩
  | .hbm, ⟨6, _⟩ => ⟨S512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x128, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S_, .i32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S_, .f32⟩
  | .hbm, ⟨42, _⟩ => ⟨S1x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S512, .f32⟩
  | .hbm, ⟨52, _⟩ => ⟨S512, .f32⟩
  | .hbm, ⟨53, _⟩ => ⟨S512, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S1x512, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S512, .f32⟩
  | .hbm, ⟨65, _⟩ => ⟨S512, .f32⟩
  | .hbm, ⟨66, _⟩ => ⟨S512, .f32⟩
  | .hbm, ⟨67, _⟩ => ⟨S1x512, .f32⟩
  | .hbm, ⟨68, _⟩ => ⟨S8192x512, .f32⟩
  | .hbm, ⟨69, _⟩ => ⟨S8192x512, .f32⟩
  | .hbm, ⟨70, _⟩ => ⟨S1x512, .f32⟩
  | .hbm, ⟨71, _⟩ => ⟨S8192x512, .f32⟩
  | .hbm, ⟨72, _⟩ => ⟨S8192x512, .f32⟩
  | .hbm, ⟨73, _⟩ => ⟨S1x512, .f32⟩
  | .hbm, ⟨74, _⟩ => ⟨S8192x512, .f32⟩
  | .hbm, ⟨75, _⟩ => ⟨S8192x512, .f32⟩
  | .hbm, ⟨76, _⟩ => ⟨S512x8192, .f32⟩
  | .hbm, ⟨77, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_call2_cst : Ref sig .tc := ⟨.hbm, 38, rfl⟩
abbrev main_call2_v0 : Ref sig .tc := ⟨.hbm, 39, rfl⟩
abbrev main_call2_v1 : Ref sig .tc := ⟨.hbm, 40, rfl⟩
abbrev main_call2_cst_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_cst_1 : Ref sig .tc := ⟨.hbm, 48, rfl⟩
abbrev main_call2_v8 : Ref sig .tc := ⟨.hbm, 49, rfl⟩
abbrev main_call2_cst_2 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_cst_3 : Ref sig .tc := ⟨.hbm, 54, rfl⟩
abbrev main_call2_v12 : Ref sig .tc := ⟨.hbm, 55, rfl⟩
abbrev main_call2_cst_4 : Ref sig .tc := ⟨.hbm, 56, rfl⟩
abbrev main_call2_call0_v0 : Ref sig .tc := ⟨.hbm, 57, rfl⟩
abbrev main_call2_call0_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_4 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩

abbrev nD : Nat := 1
abbrev τ : Topo := Topo.v7x

variable {F : FTy → Type} [FloatOps F]

class Facts₀ : Prop where
  bcast_S_S8192x512 : S_.BroadcastsInDim S8192x512 (![] : Fin 0 → Fin S8192x512.rank)
  reducesTo_S8192x128_S8192_d1 : S8192x128.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  reducesTo_S8192x512_S512_d0 : S8192x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S8192x512_0_1 : S1x512.BroadcastsInDim S8192x512 (![0, 1] : Fin 2 → Fin S8192x512.rank)
  transposes_S8192x512_S512x8192_1_0 : S8192x512.Transposes [1, 0] S512x8192
  dot_S8192x128_S512x128_S8192x512_1_1_0_0_n_n_wf : DotDims.WF S8192x128 S512x128 S8192x512 [1] [1] [0] [0] [] []
  dot_S8192x512_S128x512_S8192x128_1_1_0_0_n_n_wf : DotDims.WF S8192x512 S128x512 S8192x128 [1] [1] [0] [0] [] []
  dot_S8192x128_S128x512_S8192x512_1_0_0_1_n_n_wf : DotDims.WF S8192x128 S128x512 S8192x512 [1] [0] [0] [1] [] []
  dot_S8192x8192_S8192x512_S8192x512_1_0_0_1_n_n_wf : DotDims.WF S8192x8192 S8192x512 S8192x512 [1] [0] [0] [1] [] []
  dot_S8192x512_S512x8192_S8192x8192_1_0_0_1_n_n_wf : DotDims.WF S8192x512 S512x8192 S8192x8192 [1] [0] [0] [1] [] []

variable [Facts₀]

def dot_S8192x128_S512x128_S8192x512_1_1_0_0_n_n : DotDims S8192x128 S512x128 S8192x512 where
  lhsContracting := [1]
  rhsContracting := [1]
  lhsNonContracting := [0]
  rhsNonContracting := [0]
  lhsBatch := []
  rhsBatch := []
  wf := dot_S8192x128_S512x128_S8192x512_1_1_0_0_n_n_wf
def dot_S8192x512_S128x512_S8192x128_1_1_0_0_n_n : DotDims S8192x512 S128x512 S8192x128 where
  lhsContracting := [1]
  rhsContracting := [1]
  lhsNonContracting := [0]
  rhsNonContracting := [0]
  lhsBatch := []
  rhsBatch := []
  wf := dot_S8192x512_S128x512_S8192x128_1_1_0_0_n_n_wf
def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.WordLevel.Region0.lean ====
/-
  The first region: the feature attention and the support product, one block of 1024 rows per grid point.

  At grid point t the region's body reads rows [1024 t, 1024 t + 1024) of x and the three weight arrays whole, and
  writes the 1024 × 512 block of the support it computes from them into the output window's buffer, which the
  pipeline then writes back to rows [1024 t, 1024 t + 1024) of the support array. Here: what each window's buffer
  holds before and after the body at each point, the body's run on any buffers, and the resulting per-point
  obligation of the pipeline, for any reading of the float operations.
-/
import proofs.«118833_j481036337863_2_alg».proof.Proof.Gen.Kernel.Launch
import proofs.«118833_j481036337863_2_alg».proof.Proof.Gen.Kernel.Skeleton
import proofs.«118833_j481036337863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block of the array at every point, whether or not the block was fetched
    there: where it was not, the block index has not moved since the point before. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block of the array at every point, whether or not the block was fetched
    there: where it was not, the block index has not moved since the point before. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block of the array at every point, whether or not the block was fetched
    there: where it was not, the block index has not moved since the point before. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block of the array at every point, whether or not the block was fetched
    there: where it was not, the block index has not moved since the point before. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rX : Rect S1024x128 := Rect.unit (s := S1024x128) ![0, 0] S1024x128.size inb_S1024x128_S1024x128_0_0
abbrev rW1 : Rect S512x128 := Rect.unit (s := S512x128) ![0, 0] S512x128.size inb_S512x128_S512x128_0_0
abbrev rW : Rect S128x512 := Rect.unit (s := S128x512) ![0, 0] S128x512.size inb_S128x512_S128x512_0_0
abbrev rO : Rect S1024x512 := Rect.unit (s := S1024x512) ![0, 0] S1024x512.size inb_S1024x512_S1024x512_0_0

/-- The output window's buffer after the body: its one store, of the support block computed from the four loads. -/
def out0_4 (x0 : Vec F S1024x128 .f32) (x1 : Vec F S512x128 .f32) (x2 x3 : Vec F S128x512 .f32) : Vec F S1024x512 .bf16 :=
  View.canon [⟨rO, k0_pay1 (View.ld x0 rX) (View.ld x1 rW1) (View.ld x2 rW) (View.ld x3 rW)⟩]

/-- The one store covers the buffer. -/
theorem cover0_4 (p0 : Vec F S1024x512 .bf16) (y : S1024x512.Idx) :
    ∃ pc ∈ ([⟨rO, p0⟩] : List (View.Piece (Elt F) S1024x512 .bf16)), y ∈ pc.1.set :=
  View.cover_of_tiled [⟨rO, p0⟩] S1024x512.size (by rfl) y

set_option maxHeartbeats 1000000 in
/-- The body on whole buffers: the four inputs' at read contents and the output's at anything run to the inputs' as
    they were and the output's at the support block of the inputs'. -/
theorem sound_kernel0 (c : Dev nD) (E : Set ℕ) (i : grid0.Coords)
    (arg1 : Memref sig .tc .vmem S1024x128 .f32) (harg1 : arg1.IsWhole) (arg2 : Memref sig .tc .vmem S512x128 .f32) (harg2 : arg2.IsWhole)
    (arg3 : Memref sig .tc .vmem S128x512 .f32) (harg3 : arg3.IsWhole) (arg4 : Memref sig .tc .vmem S128x512 .f32) (harg4 : arg4.IsWhole)
    (arg5 : Memref sig .tc .vmem S1024x512 .bf16) (harg5 : arg5.IsWhole)
    (x0 : Vec F S1024x128 .f32) (x1 : Vec F S512x128 .f32) (x2 x3 : Vec F S128x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__attn_gcn_kernel i arg1 harg1 arg2 harg2 arg3 harg3 arg4 harg4 arg5 harg5) K := by
  simp only [cc0__attn_gcn_kernel_eq_skeleton]; unfold cc0__attn_gcn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The arrays as the region finds them; after the body at point t each input's buffer at its block and the output's at
    the support block of the input blocks; the invariant the scoped rest and the pseudo-random register, untouched;
    nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the run on whole buffers applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.WordLevel.Region1Runs.lean ====
/-
  The second launch of the kernel: h = relu (adj · support), one row block of 1024 rows at a time, the
  contraction over the 8192 columns of adj cut into 8 column blocks of 1024.

  The grid is 8 × 8; point t has row block i = t / 8 and column block k = t % 8.  The body keeps the running
  sum in the output window's staging buffer: at k = 0 it first stores zeros there, at every k it loads the
  buffer and stores (buffer + adj block · support block), at k = 7 it then stores max (buffer, 0).  The buffer
  is written back to the array only after k = 7.

  This module holds what the three control cases share: each window's block at a point read off the array as
  the launch finds it, the fact that an input window's staging buffer holds that block whenever the body runs,
  and the two branch conditions as predicates of the grid coordinates, in closed form over the grid.
-/
import proofs.«118833_j481036337863_2_alg».proof.Proof.Gen.Kernel.Launch
import proofs.«118833_j481036337863_2_alg».proof.Proof.Gen.Kernel.Skeleton
import proofs.«118833_j481036337863_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adj window's staging buffer holds the point's block whenever the body runs, for any proof data whose
    array is the entry contents and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the support window. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions -/

/-- "This is the first column block" (k = 0), as the body computes it from the grid coordinates. -/
abbrev cond1_0 (i : grid1.Coords) : Prop := (Scalar.cmpi .ne (Scalar.extui (Scalar.cmpi .eq (BitVec.ofNat 32 (i 1).val) 0#32)) 0#32) = 1#1
/-- "This is the last column block" (k = 7). -/
abbrev cond1_1 (i : grid1.Coords) : Prop := (Scalar.cmpi .ne (Scalar.extui (Scalar.cmpi .eq (BitVec.ofNat 32 (i 1).val) 7#32)) 0#32) = 1#1

/-- The first holds exactly at the points t with t % 8 = 0, -/
theorem hcond1_0 : ∀ t : Fin cfg1.N, cond1_0 (grid1.coords t) ↔ t.val % 8 = 0 :=
  (by decide +kernel : ∀ t : Fin grid1.N, cond1_0 (grid1.coords t) ↔ t.val % 8 = 0)
/-- the second exactly at those with t % 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## The staging memrefs the body is called with -/

/-- One staging buffer of the output window, through which its contents are stated (the choice does not matter). -/
abbrev VO1_2 : View sig .tc .vmem S1024x512 .f32 := (Memref.whole cc1_stg2_0 : Memref sig .tc .vmem S1024x512 .f32).view
/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)

end Cert.Kernel.R1

end
-- ==== Proof.WordLevel.Region1RunA.lean ====
/-
  The body at a point of the first column block (k = 0): zeros are stored into the output window's staging
  buffer, then the buffer is loaded and (buffer + adj block · support block) is stored; the last branch is not taken.
-/
import proofs.«118833_j481036337863_2_alg».proof.Proof.WordLevel.Region1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The pieces the body's stores leave in the output window's staging buffer in this case (last store first),
    with the proof that the body, run on whole staging memrefs holding the adj block `x0`, the support block
    `x1` and anything in the output buffer, reaches its continuation with the two inputs untouched and the output buffer
    overwritten by those pieces: the body's memory operations are followed one at a time, each `scf.if` decided
    by the case's hypotheses. -/
noncomputable def kernelRun1_A (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : cond1_0 i) (hc1 : ¬cond1_1 i)
    (x0 : Vec F S1024x1024 .f32) (x1 : Vec F S1024x512 .bf16) :
    { L2 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__matmul_relu_kernel i arg2 harg2 arg3 harg3 arg4 harg4) K } := by
  refine ⟨?_, fun E K => ?run⟩
  case run =>
    simp only [cc1__matmul_relu_kernel_eq_skeleton]; unfold cc1__matmul_relu_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.R1

end
-- ==== Proof.WordLevel.Region1RunB.lean ====
/-
  The body at a point of a middle column block (0 < k < 7): neither branch is taken; the output window's staging
  buffer, holding the running sum the point before left, is loaded and (buffer + adj block · support block) is stored.
-/
import proofs.«118833_j481036337863_2_alg».proof.Proof.WordLevel.Region1RunA

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The pieces the body's stores leave in the output window's staging buffer in this case (last store first),
    with the proof that the body, run on whole staging memrefs holding the adj block `x0`, the support block
    `x1` and the running sum `xo2`, reaches its continuation with the two inputs untouched and the output buffer
    overwritten by those pieces: the body's memory operations are followed one at a time, each `scf.if` decided
    by the case's hypotheses. -/
noncomputable def kernelRun1_B (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : ¬cond1_0 i) (hc1 : ¬cond1_1 i)
    (x0 : Vec F S1024x1024 .f32) (x1 : Vec F S1024x512 .bf16) (xo2 : Vec F S1024x512 .f32) :
    { L2 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__matmul_relu_kernel i arg2 harg2 arg3 harg3 arg4 harg4) K } := by
  refine ⟨?_, fun E K => ?run⟩
  case run =>
    simp only [cc1__matmul_relu_kernel_eq_skeleton]; unfold cc1__matmul_relu_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.R1

end
-- ==== Proof.WordLevel.Region1RunC.lean ====
/-
  The body at a point of the last column block (k = 7): the running sum is loaded and (sum + adj block · support
  block) is stored, then the last branch loads the buffer again and stores its maximum with zero.
-/
import proofs.«118833_j481036337863_2_alg».proof.Proof.WordLevel.Region1RunB

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The pieces the body's stores leave in the output window's staging buffer in this case (last store first),
    with the proof that the body, run on whole staging memrefs holding the adj block `x0`, the support block
    `x1` and the running sum `xo2`, reaches its continuation with the two inputs untouched and the output buffer
    overwritten by those pieces: the body's memory operations are followed one at a time, each `scf.if` decided
    by the case's hypotheses. -/
noncomputable def kernelRun1_C (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : ¬cond1_0 i) (hc1 : cond1_1 i)
    (x0 : Vec F S1024x1024 .f32) (x1 : Vec F S1024x512 .bf16) (xo2 : Vec F S1024x512 .f32) :
    { L2 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__matmul_relu_kernel i arg2 harg2 arg3 harg3 arg4 harg4) K } := by
  refine ⟨?_, fun E K => ?run⟩
  case run =>
    simp only [cc1__matmul_relu_kernel_eq_skeleton]; unfold cc1__matmul_relu_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.R1

end
-- ==== Proof.WordLevel.Region1.lean ====
/-
  The frame half of the second launch (h = relu (adj · support)): what the output window's staging buffer holds
  after each grid point, the launch's proof data, and the body's obligation at every point.

  Point t = 8·i + k works on row block i and column block k.  At k = 0 the buffer is reset and holds
  0 + adj(i,0)·support(0); at 0 < k < 7 it holds what the point before left plus adj(i,k)·support(k); at k = 7 it
  holds the maximum of that sum with 0, and only then is it written back to rows 1024·i … 1024·i + 1023 of the
  array.  Between write-backs the buffer is carried from point to point, which is why its contents are defined
  by recursion on the point.
-/
import proofs.«118833_j481036337863_2_alg».proof.Proof.WordLevel.Region1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-! ## What each case leaves in the output window's staging buffer -/

/-- The pieces stored at a point of the first column block tile the output block, so they cover it. -/
theorem cover1_A_2 (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : cond1_0 i) (hc1 : ¬cond1_1 i)
    (x0 : Vec F S1024x1024 .f32) (x1 : Vec F S1024x512 .bf16) (y : S1024x512.Idx) :
    ∃ pc ∈ (kernelRun1_A c i arg2 harg2 arg3 harg3 arg4 harg4 hc0 hc1 x0 x1).1, y ∈ pc.1.set :=
  View.cover_of_tiledL (kernelRun1_A c i arg2 harg2 arg3 harg3 arg4 harg4 hc0 hc1 x0 x1).1 S1024x512.size (by sl_kernel_rfl) y

/-- What such a point leaves in the output window's staging buffer: its pieces read back. -/
def out1_A_2 (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : cond1_0 i) (hc1 : ¬cond1_1 i)
    (x0 : Vec F S1024x1024 .f32) (x1 : Vec F S1024x512 .bf16) : Vec F S1024x512 .f32 :=
  VO1_2.read (Elt F) (VO1_2.writes (Elt F) VO1_2.junk (kernelRun1_A c i arg2 harg2 arg3 harg3 arg4 harg4 hc0 hc1 x0 x1).1)

/-- The pieces stored at a point of a middle column block tile the output block, so they cover it. -/
theorem cover1_B_2 (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : ¬cond1_0 i) (hc1 : ¬cond1_1 i)
    (x0 : Vec F S1024x1024 .f32) (x1 : Vec F S1024x512 .bf16) (xo2 : Vec F S1024x512 .f32) (y : S1024x512.Idx) :
    ∃ pc ∈ (kernelRun1_B c i arg2 harg2 arg3 harg3 arg4 harg4 hc0 hc1 x0 x1 xo2).1, y ∈ pc.1.set :=
  View.cover_of_tiledL (kernelRun1_B c i arg2 harg2 arg3 harg3 arg4 harg4 hc0 hc1 x0 x1 xo2).1 S1024x512.size (by sl_kernel_rfl) y

/-- What such a point leaves in the output window's staging buffer: its pieces read back. -/
def out1_B_2 (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : ¬cond1_0 i) (hc1 : ¬cond1_1 i)
    (x0 : Vec F S1024x1024 .f32) (x1 : Vec F S1024x512 .bf16) (xo2 : Vec F S1024x512 .f32) : Vec F S1024x512 .f32 :=
  VO1_2.read (Elt F) (VO1_2.writes (Elt F) VO1_2.junk (kernelRun1_B c i arg2 harg2 arg3 harg3 arg4 harg4 hc0 hc1 x0 x1 xo2).1)

/-- The pieces stored at a point of the last column block tile the output block, so they cover it. -/
theorem cover1_C_2 (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : ¬cond1_0 i) (hc1 : cond1_1 i)
    (x0 : Vec F S1024x1024 .f32) (x1 : Vec F S1024x512 .bf16) (xo2 : Vec F S1024x512 .f32) (y : S1024x512.Idx) :
    ∃ pc ∈ (kernelRun1_C c i arg2 harg2 arg3 harg3 arg4 harg4 hc0 hc1 x0 x1 xo2).1, y ∈ pc.1.set :=
  View.cover_of_tiledL (kernelRun1_C c i arg2 harg2 arg3 harg3 arg4 harg4 hc0 hc1 x0 x1 xo2).1 S1024x512.size (by sl_kernel_rfl) y

/-- What such a point leaves in the output window's staging buffer: its pieces read back. -/
def out1_C_2 (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : ¬cond1_0 i) (hc1 : cond1_1 i)
    (x0 : Vec F S1024x1024 .f32) (x1 : Vec F S1024x512 .bf16) (xo2 : Vec F S1024x512 .f32) : Vec F S1024x512 .f32 :=
  VO1_2.read (Elt F) (VO1_2.writes (Elt F) VO1_2.junk (kernelRun1_C c i arg2 harg2 arg3 harg3 arg4 harg4 hc0 hc1 x0 x1 xo2).1)

/-! ## The case of a point, from its number -/

theorem c0_of (t : Fin cfg1.N) (h0 : t.val % 8 = 0) : cond1_0 (grid1.coords t) := (hcond1_0 t).mpr h0
theorem not_c0_of (t : Fin cfg1.N) (h0 : ¬t.val % 8 = 0) : ¬cond1_0 (grid1.coords t) := fun h => h0 ((hcond1_0 t).mp h)
theorem c1_of (t : Fin cfg1.N) (h1 : t.val % 8 = 7) : cond1_1 (grid1.coords t) := (hcond1_1 t).mpr h1
theorem not_c1_of (t : Fin cfg1.N) (h1 : ¬t.val % 8 = 7) : ¬cond1_1 (grid1.coords t) := fun h => h1 ((hcond1_1 t).mp h)
/-- A first column block is not a last one. -/
theorem not_c1_of_first (t : Fin cfg1.N) (h0 : t.val % 8 = 0) : ¬cond1_1 (grid1.coords t) := fun h => by
  have := (hcond1_1 t).mp h; omega

/-- The buffer after a point of the first column block, at the point's memrefs and input blocks, -/
def outA (c : Dev nD) (t : Fin cfg1.N) (h0 : t.val % 8 = 0) : Vec F S1024x512 .f32 :=
  out1_A_2 c (grid1.coords t) (ms1_0 t) (hs1_0 t) (ms1_1 t) (hs1_1 t) (ms1_2 t) (hs1_2 t) (c0_of t h0) (not_c1_of_first t h0) (iblk1 V c 0 t) (iblk1 V c 1 t)
/-- after a point of a middle column block entered with the running sum `xo`, -/
def outB (c : Dev nD) (t : Fin cfg1.N) (h0 : ¬t.val % 8 = 0) (h1 : ¬t.val % 8 = 7) (xo : Vec F S1024x512 .f32) : Vec F S1024x512 .f32 :=
  out1_B_2 c (grid1.coords t) (ms1_0 t) (hs1_0 t) (ms1_1 t) (hs1_1 t) (ms1_2 t) (hs1_2 t) (not_c0_of t h0) (not_c1_of t h1) (iblk1 V c 0 t) (iblk1 V c 1 t) xo
/-- and after a point of the last column block entered with the running sum `xo`. -/
def outC (c : Dev nD) (t : Fin cfg1.N) (h0 : ¬t.val % 8 = 0) (h1 : t.val % 8 = 7) (xo : Vec F S1024x512 .f32) : Vec F S1024x512 .f32 :=
  out1_C_2 c (grid1.coords t) (ms1_0 t) (hs1_0 t) (ms1_1 t) (hs1_1 t) (ms1_2 t) (hs1_2 t) (not_c0_of t h0) (c1_of t h1) (iblk1 V c 0 t) (iblk1 V c 1 t) xo

/-! ## The accumulation -/

/-- What the output window's staging buffer holds after the body at position `n`: the case `n % 8` selects, run
    at the point's memrefs and input blocks, and, off the first column block, over what position `n - 1` left
    (the buffer is not written back in between). -/
def outsAt1 (c : Dev nD) : (n : ℕ) → n < cfg1.N → Vec F S1024x512 .f32
  | 0, hn => outA V c ⟨0, hn⟩ (Nat.zero_mod _)
  | n + 1, hn =>
    if h0 : (n + 1) % 8 = 0 then outA V c ⟨n + 1, hn⟩ h0
    else if h1 : (n + 1) % 8 = 7 then outC V c ⟨n + 1, hn⟩ h0 h1 (outsAt1 c n (Nat.lt_of_succ_lt hn))
    else outB V c ⟨n + 1, hn⟩ h0 h1 (outsAt1 c n (Nat.lt_of_succ_lt hn))

theorem prev_lt (t : Fin cfg1.N) : t.val - 1 < cfg1.N := Nat.lt_of_le_of_lt (Nat.sub_le _ _) t.isLt

theorem outsAt1_A (c : Dev nD) (t : Fin cfg1.N) (h0 : t.val % 8 = 0) :
    outsAt1 V c t.val t.isLt = outA V c t h0 := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = outB V c t h0 h1 (outsAt1 V c (t.val - 1) (prev_lt t)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = outC V c t h0 h1 (outsAt1 V c (t.val - 1) (prev_lt t)) := by
  obtain ⟨n, hn⟩ := t
  cases n with
  | zero => exact absurd (Nat.zero_mod _) h0
  | succ n => exact (dif_neg h0).trans ((dif_pos h1).trans rfl)

/-! ## The launch's proof data -/

/-- The arrays as the launch finds them; after the body at point `t` each input window's buffer at its block and
    the output window's at `outsAt1`; the invariant that of a body touching only its windows (the scoped rest
    and the pseudo-random register ride along); nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

/-- Each input window's staging buffer holds its block whenever the body runs. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- Off the first column block the output window's staging buffer holds what the point before left: the
    buffer is written back only after a last column block, and the point after one is a first column block. -/
theorem before1_2_kept (c : Dev nD) (t : Fin cfg1.N) (h0 : ¬t.val % 8 = 0) (d) :
    (dat1 V c).before 2 t d = outsAt1 V c (t.val - 1) (prev_lt t) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body's obligation at a point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1000000 in
/-- The body at any point: the inputs' memrefs hold their blocks; `t % 8` says which case the point is in; off
    the first column block the output buffer holds what the point before left; so that case's run applies.  The
    invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [outsAt1_A V c t h0]
    unfold outA out1_A_2
    iintro ⟨HΦ, Ho, ⟨%d0, H0⟩, ⟨%d1, H1⟩, ⟨%d2, H2⟩⟩
    iapply ((kernelRun1_A c (grid1.coords t) _ _ _ _ _ _ (c0_of t h0) (not_c1_of_first t h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _ _)
  · simp only [before1_2_kept V c t h0]
    by_cases h1 : t.val % 8 = 7
    · rw [outsAt1_C V c t h0 h1]
      unfold outC out1_C_2
      iintro ⟨HΦ, Ho, ⟨%d0, H0⟩, ⟨%d1, H1⟩, ⟨%d2, H2⟩⟩
      iapply ((kernelRun1_C c (grid1.coords t) _ _ _ _ _ _ (not_c0_of t h0) (c1_of t h1) (iblk1 V c 0 t) (iblk1 V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _)
    · rw [outsAt1_B V c t h0 h1]
      unfold outB out1_B_2
      iintro ⟨HΦ, Ho, ⟨%d0, H0⟩, ⟨%d1, H1⟩, ⟨%d2, H2⟩⟩
      iapply ((kernelRun1_B c (grid1.coords t) _ _ _ _ _ _ (not_c0_of t h0) (not_c1_of t h1) (iblk1 V c 0 t) (iblk1 V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover1_B_2 c _ _ _ _ _ _ _ _ _ _ _ _)

/-- The body's obligation at every point, in the form the launch theorems take. -/
theorem body_obligation1 (c : Dev nD) : BodyObligation (dat1 (F := F) V c) (defs₀ (F := F)) Variants.none () Set.univ := fun t => by
  rw [bigSep_W1, bigSep_W1]
  exact sound_body1 V c t

end

end Cert.Kernel.R1

end
-- ==== Proof.WordLevel.Region2.lean ====
/-
  The third launch: batch normalisation of the hidden array followed by the Gram matrix of the normalised rows.

  The launch walks an 8 × 8 grid, point t = 8·i + j. Its first two windows both read the hidden array h, the
  first at row block i and the second at row block j; four more windows bring the four column vectors γ, β, mean and
  variance, each a single block [1, 512] fetched once; the last window is the result, whose block (i, j) is written
  back at every point. At a point the body reads the six input blocks whole, forms
      z_i = (h_i − mean) · rsqrt(var + ε) · γ + β   and   z_j likewise,
  multiplies z_i by the transpose of z_j into a zero accumulator, and stores the 1024 × 1024 product over the whole
  output block. This module states that behaviour against the staging buffers: what each buffer holds before and after
  the body at every point, with the buffer contents at the launch's entry as a parameter V.

  Because two windows name one array, the array's points-to cannot be held twice at the full share: the first window
  holds the left half of the full share and the second the right half. Neither window is ever written back, so a half
  share (read access) is all either needs.
-/
import proofs.«118833_j481036337863_2_alg».proof.Proof.Gen.Kernel.Launch
import proofs.«118833_j481036337863_2_alg».proof.Proof.Gen.Kernel.Skeleton
import proofs.«118833_j481036337863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents of the core when the launch is entered
variable (V : (c : Dev nD) → (b : Ref sig .tc) → Buf (Elt F) ((c : Thread nD τ).loc b))

/-! ## The blocks the windows read -/

/-- The block of window w at point t, cut out of the window's array as the launch finds it. For the first two
    windows this is a block of 1024 rows of h (rows 1024·i … for the first, rows 1024·j … for the second). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds the window's block at every point, whether or not the block was
    fetched at that very point: when it was not, the window's block index has not moved since the last fetch and the
    body leaves input buffers as it finds them. One statement per input window. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body touches -/

/-- The whole of a [1024, 512] buffer, of a [1, 512] buffer and of a [1024, 1024] buffer: every access of the body is
    one of these. -/
abbrev r2_a : Rect S1024x512 := Rect.unit (s := S1024x512) ![0, 0] S1024x512.size inb_S1024x512_S1024x512_0_0
abbrev r2_b : Rect S1x512 := Rect.unit (s := S1x512) ![0, 0] S1x512.size inb_S1x512_S1x512_0_0
abbrev r2_o : Rect S1024x1024 := Rect.unit (s := S1024x1024) ![0, 0] S1024x1024.size inb_S1024x1024_S1024x1024_0_0

/-- What the body leaves in the output window's buffer, as a function of the six input blocks: its single store,
    of the product z_i · z_jᵀ, over the whole buffer. -/
def out2_6 (x0 : Vec F S1024x512 .f32) (x1 : Vec F S1024x512 .f32) (x2 : Vec F S1x512 .f32) (x3 : Vec F S1x512 .f32) (x4 : Vec F S1x512 .f32) (x5 : Vec F S1x512 .f32) : Vec F S1024x1024 .f32 :=
  View.canon [⟨r2_o, k2_pay1 (View.ld x0 r2_a) (View.ld x1 r2_a) (View.ld x2 r2_b) (View.ld x3 r2_b) (View.ld x4 r2_b) (View.ld x5 r2_b)⟩]

/-- The single store covers the buffer. -/
theorem cover2_6 (p0 : Vec F S1024x1024 .f32) (y : S1024x1024.Idx) :
    ∃ pc ∈ ([⟨r2_o, p0⟩] : List (View.Piece (Elt F) S1024x1024 .f32)), y ∈ pc.1.set :=
  View.cover_of_tiled [⟨r2_o, p0⟩] S1024x1024.size (by rfl) y

/-! ## The body on any seven whole buffers -/

set_option maxHeartbeats 1000000 in
/-- Run on seven whole buffers, the six inputs at contents x₀ … x₅ and the output at anything, the body ends with the
    inputs as they were and the output at `out2_6` of the inputs. -/
theorem sound_kernel2 (c : Dev nD) (E : Set ℕ) (i : grid2.Coords) (a0 : Memref sig .tc .vmem S1024x512 .f32) (h0 : a0.IsWhole) (a1 : Memref sig .tc .vmem S1024x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S1024x1024 .f32) (h6 : a6.IsWhole)
    (x0 : Vec F S1024x512 .f32) (x1 : Vec F S1024x512 .f32) (x2 : Vec F S1x512 .f32) (x3 : Vec F S1x512 .f32) (x4 : Vec F S1x512 .f32) (x5 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out2_6 x0 x1 x2 x3 x4 x5)) -∗ K ⟨⟩))
      ⊢ wp frame (wpE (defs₀ (F := F)) Variants.none c none) E (cc2__bn_innerprod_kernel i a0 h0 a1 h1 a2 h2 a3 h3 a4 h4 a5 h5 a6 h6) K := by
  simp only [cc2__bn_innerprod_kernel_eq_skeleton]; unfold cc2__bn_innerprod_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The launch's proof data -/

/-- The data of the launch on core c. The arrays are as the launch finds them; after the body at point t every input
    buffer still holds its block and the output buffer holds `out2_6` of the six blocks; the invariant is the untouched
    rest of the core; nothing is owed. The shares: h is read through two windows, so the first holds the left half of
    the full share of h's buffer and the second the right half; every other input is held whole. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Every input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body at a grid point -/

/-- What the body is entered with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the input buffers hold their blocks, so the run on whole buffers applies; the invariant and what
    the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch rule's obligation on the body, at every point. -/
theorem body_obligation2 (c : Dev nD) : BodyObligation (dat2 (F := F) V c) (defs₀ (F := F)) Variants.none () Set.univ := fun t => by
  rw [bigSep_W2, bigSep_W2]
  exact sound_body2 V c t

end Cert.Kernel.R2

end
-- ==== Proof.LibSharedWindows.lean ====
/-
  Two input windows on one array.

  A pipeline's entry takes the buffers behind its windows' arrays, each held whole at the full share, and must produce
  one points-to per WINDOW at that window's share. When the map from windows to buffers is injective the two
  collections correspond term by term. Here it is injective except that one window w₂ names the buffer another window w₁
  already names: the buffer's full-share points-to is then cut into two shares, one per window, and at the exit
  the two are joined again. Stated over an abstract iterated separating conjunction, so that it applies to any
  pipeline configuration.
-/
import Idealize.ShloMosaic.Lib.Pipeline.Launch

noncomputable section

namespace Idealize.ShloMosaic.SharedWindows

open Idealize.SL Idealize.SL.BI
open scoped Idealize.SL.BI
open Idealize.SL.BI.BIBase Idealize.SL.BI.Laws Idealize.SL.ProofMode

variable {M : Type} [Idealize.SL.RA.URA M]
variable {I : Type} [Fintype I] [DecidableEq I] {J : Type} [DecidableEq J]

/-- The iterated conjunction over an image, when the map is injective on the index set. -/
theorem bigSep_image_of_injOn (s : Finset I) (r : I → J) (Ψ : J → sProp M)
    (hinj : ∀ x ∈ s, ∀ y ∈ s, r x = r y → x = y) :
    bigSep (s.image r) Ψ = bigSep s (fun i => Ψ (r i)) :=
  Finset.fold_image hinj

/-- The windows' image is unchanged by dropping a window whose buffer another window names. -/
theorem image_erase_dup (r : I → J) {w₁ w₂ : I} (hne : w₁ ≠ w₂) (hdup : r w₁ = r w₂) :
    Finset.univ.image r = (Finset.univ.erase w₂).image r := by
  ext b
  simp only [Finset.mem_image, Finset.mem_univ, true_and, Finset.mem_erase]
  constructor
  · rintro ⟨w, rfl⟩
    by_cases h : w = w₂
    · exact ⟨w₁, ⟨hne, trivial⟩, by rw [h, hdup]⟩
    · exact ⟨w, ⟨h, trivial⟩, rfl⟩
  · rintro ⟨w, -, rfl⟩; exact ⟨w, rfl⟩

/-- ENTRY and EXIT at once: the buffers behind the windows (Ψ over the image of r) are the per-window terms (Φ over
    all windows), when r is injective off the duplicate w₂, every other window's term is its buffer's, and the shared
    buffer's term is cut into the two windows' terms. -/
theorem buffers_iff_windows (r : I → J) (Ψ : J → sProp M) (Φ : I → sProp M) {w₁ w₂ : I} (hne : w₁ ≠ w₂) (hdup : r w₁ = r w₂)
    (hinj : ∀ x, x ≠ w₂ → ∀ y, y ≠ w₂ → r x = r y → x = y)
    (hΦ : ∀ w, w ≠ w₁ → w ≠ w₂ → Φ w = Ψ (r w))
    (hcut : Ψ (r w₁) ⊣⊢ iprop(Φ w₁ ∗ Φ w₂)) :
    bigSep (Finset.univ.image r) Ψ ⊣⊢ bigSep Finset.univ Φ := by
  have h1 : w₁ ∈ Finset.univ.erase w₂ := Finset.mem_erase.mpr ⟨hne, Finset.mem_univ _⟩
  rw [image_erase_dup r hne hdup,
    bigSep_image_of_injOn _ r Ψ (fun x hx y hy => hinj x (Finset.mem_erase.mp hx).1 y (Finset.mem_erase.mp hy).1),
    bigSep_erase h1, bigSep_erase (Finset.mem_univ w₂) (Φ := Φ), bigSep_erase h1 (Φ := Φ),
    bigSep_congr (Φ := fun i => Ψ (r i)) (Ψ := Φ) (s := (Finset.univ.erase w₂).erase w₁) (fun w hw => by
      have h := Finset.mem_erase.mp hw
      exact (hΦ w h.1 (Finset.mem_erase.mp h.2).1).symm)]
  exact (Laws.sep_congr_left hcut).trans (Laws.sep_assoc.trans Laws.sep_left_comm)

end Idealize.ShloMosaic.SharedWindows

end
-- ==== Proof.WordLevel.Region2Share.lean ====
/-
  One array behind two windows: sharing the hidden array at the launch's entry and putting it back at its exit.

  When the third launch is entered the core holds every buffer that outlives a launch whole, at the full share. The
  launch rule wants one points-to per WINDOW. Five of the seven windows name a buffer of their own and take that
  buffer's points-to as it is. The first two both name the hidden array h: its full-share points-to is cut into its
  left and right halves, one per window. At the exit the two halves, still at the contents h had at the entry because
  neither window is ever written back, are joined into the full share again, and the result window's buffer comes
  back at what the 64 write-backs left in it. The second part reads the buffer contents after the launch: the
  result's buffer at the folded write-backs, every other buffer as it was.
-/
import proofs.«118833_j481036337863_2_alg».proof.Proof.WordLevel.Region2
import proofs.«118833_j481036337863_2_alg».proof.Proof.LibSharedWindows

set_option maxRecDepth 16384

noncomputable section

namespace Cert.Kernel.R2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The shares the windows hold their arrays at -/

theorem share2_0 (c : Dev nD) : (dat2 V c).share 0 = fullShare.left := rfl
theorem share2_1 (c : Dev nD) : (dat2 V c).share 1 = fullShare.right := rfl
/-- Every window but the two on h holds its array whole. -/
theorem share2_rest (c : Dev nD) : ∀ w : Fin cfg2.W, w ≠ 0 → w ≠ 1 → (dat2 V c).share w = fullShare
  | ⟨0, _⟩, h, _ => absurd rfl h
  | ⟨1, _⟩, _, h => absurd rfl h
  | ⟨2, _⟩, _, _ => rfl
  | ⟨3, _⟩, _, _ => rfl
  | ⟨4, _⟩, _, _ => rfl
  | ⟨5, _⟩, _, _ => rfl
  | ⟨6, _⟩, _, _ => rfl

/-- A window's array is a whole buffer: its points-to over the array's elements is the buffer's. -/
theorem arr_pt (c : Dev nD) (w : Fin cfg2.W) (q : PosShare TreeShare) (g : Buf (Elt F) ((cfg2.win w).arr.view.loc (c : Thread nD τ))) :
    ((cfg2.win w).arr.view.loc (c : Thread nD τ) ↦[(cfg2.win w).arr.view.set]{q} g : sProp 𝕄)
      = (((c : Thread nD τ).loc (Pipeline.arrRef spec2 w)) ↦{q} g) := by
  rw [(arr_whole2 w).set_eq_univ]

/-! ## The buffers behind the windows against the windows' points-tos -/

/-- The distinct buffers behind the seven windows, each whole at the full share at contents W, are the seven windows'
    points-tos at the launch's shares at contents G, whenever G reads W at each window's buffer: h's buffer is cut in
    two halves, the other five buffers go to their windows unchanged. Used in both directions. -/
theorem bufs_iff_arrays (c : Dev nD) (W : (b : Ref sig .tc) → Buf (Elt F) ((c : Thread nD τ).loc b))
    (G : (w : Fin cfg2.W) → Buf (Elt F) ((cfg2.win w).arr.view.loc (c : Thread nD τ)))
    (hG : ∀ w, G w = W (Pipeline.arrRef spec2 w)) :
    (bigSep (Finset.univ.image (Pipeline.arrRef spec2)) (fun b => (((c : Thread nD τ).loc b) ↦{fullShare} W b)) : sProp 𝕄)
      ⊣⊢ (dat2 V c).arrays G := by
  unfold Dat.arrays
  refine SharedWindows.buffers_iff_windows (Pipeline.arrRef spec2)
    (fun b => (((c : Thread nD τ).loc b) ↦{fullShare} W b : sProp 𝕄)) _ (w₁ := 0) (w₂ := 1) (by decide) rfl (by decide) ?_ ?_
  · intro w h0 h1
    rw [arr_pt, share2_rest V c w h0 h1, hG w]
  · rw [arr_pt, arr_pt, share2_0, share2_1, hG 0, hG 1]
    exact pointsTo_share (PosShare.mem_left_op_right fullShare)

/-- The buffers that outlive a launch are the buffers behind this launch's windows and the rest. -/
theorem unscopedBufs_split2 (c : Dev nD) (W : (b : Ref sig .tc) → Buf (Elt F) ((c : Thread nD τ).loc b)) :
    (unscopedBufs (Ix := Unit) (Name := ℕ) (U := Pipeline.UD sig nD τ) (Lvl := ℕ) c W : sProp 𝕄)
      = iprop((bigSep (Finset.univ.image (Pipeline.arrRef spec2)) (fun b => (((c : Thread nD τ).loc b) ↦{fullShare} W b)))
          ∗ Pipeline.unscopedRest spec2 c W) := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest
  rw [bigSep_sdiff_split hA]
  rfl

/-- ENTRY: out of all the long-lived buffers at the entry contents, the launch's arrays at its shares, and the rest. -/
theorem entry2 (c : Dev nD) :
    (unscopedBufs (Ix := Unit) (Name := ℕ) (U := Pipeline.UD sig nD τ) (Lvl := ℕ) c (V c) : sProp 𝕄)
      ⊢ iprop((dat2 V c).arrays ((dat2 V c).arrAt · 0) ∗ Pipeline.unscopedRest spec2 c (V c)) := by
  rw [unscopedBufs_split2]
  exact sep_mono (bufs_iff_arrays V c (V c) _ (fun w => (show (dat2 V c).arrAt w 0 = (dat2 V c).A w from rfl).trans (A_eq2 V c w))).1 .rfl

/-- EXIT: the launch's arrays at what it leaves and the untouched rest are all the long-lived buffers at any contents
    V' that has each window's array at what the launch leaves and agrees with the entry contents elsewhere. -/
theorem exit2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N) ∗ Pipeline.unscopedRest spec2 c (V c))
      ⊢ (unscopedBufs (Ix := Unit) (Name := ℕ) (U := Pipeline.UD sig nD τ) (Lvl := ℕ) c V' : sProp 𝕄) := by
  rw [unscopedBufs_split2]
  refine sep_mono (bufs_iff_arrays V c V' _ hF).2 (Entails.of_eq ?_)
  unfold Pipeline.unscopedRest
  exact bigSep_congr fun b hb => by rw [hrest b (Finset.mem_sdiff.mp hb).2]

/-! ## The input arrays end as entered -/

/-- An input window's array is never written back. -/
theorem arrAt2_in (c : Dev nD) : ∀ (w : Fin cfg2.W), w ≠ 6 → ∀ n, (dat2 V c).arrAt w n = V c (Pipeline.arrRef spec2 w)
  | ⟨0, _⟩, _, n => ((dat2 V c).arrAt_in 0 rfl n).trans (A_eq2 V c 0)
  | ⟨1, _⟩, _, n => ((dat2 V c).arrAt_in 1 rfl n).trans (A_eq2 V c 1)
  | ⟨2, _⟩, _, n => ((dat2 V c).arrAt_in 2 rfl n).trans (A_eq2 V c 2)
  | ⟨3, _⟩, _, n => ((dat2 V c).arrAt_in 3 rfl n).trans (A_eq2 V c 3)
  | ⟨4, _⟩, _, n => ((dat2 V c).arrAt_in 4 rfl n).trans (A_eq2 V c 4)
  | ⟨5, _⟩, _, n => ((dat2 V c).arrAt_in 5 rfl n).trans (A_eq2 V c 5)
  | ⟨6, _⟩, h, _ => absurd rfl h

/-! ## The buffer contents after the launch

After the launch the result's buffer holds the fold of the 64 write-backs and every other buffer what it held at the
entry. The contents are written by overriding the entry contents at the windows' buffers; where two windows name one
buffer the override picks one of them, which is harmless because both carry the buffer's entry contents. -/

/-- Contents transported along an equality of references are the contents at the other reference. -/
theorem cast_valuation (W : Valuation τ sig (Elt F)) {b₁ b₂ : DevRef τ sig} (e : b₁ = b₂) :
    cast (congrArg (fun b' : DevRef τ sig => b'.ty.Contents (Elt F)) e) (W b₁) = W b₂ := by subst e; rfl

/-- The override read at window w's buffer is A w, provided every window naming that buffer carries the same contents. -/
theorem withArrays_at (c : Dev nD) (W : Valuation τ sig (Elt F)) (A : (w : Fin 7) → Buf (Elt F) ((spec2 w).arr.view.loc (c : Thread nD τ))) (w : Fin 7)
    (h : ∀ w' (e : Proc.devRef .tc (Pipeline.arrRef spec2 w') = Proc.devRef (τ := τ) .tc (Pipeline.arrRef spec2 w)),
      cast (congrArg (fun b' : DevRef τ sig => b'.ty.Contents (Elt F)) e) (A w') = A w) :
    Pipeline.withArrays spec2 c W A (Proc.devRef .tc (Pipeline.arrRef spec2 w)) = A w := by
  unfold Pipeline.withArrays
  have hex : ∃ w', Proc.devRef .tc (Pipeline.arrRef spec2 w') = Proc.devRef (τ := τ) .tc (Pipeline.arrRef spec2 w) := ⟨w, rfl⟩
  rw [dif_pos hex]
  exact h _ hex.choose_spec

section After

-- the core's buffer contents when the launch is entered, over all device references
variable (W : Dev nD → Valuation τ sig (Elt F))

/-- The same contents read at the TensorCore's references: the parameter the launch's data is taken at. -/
abbrev atRefs : (c : Dev nD) → (b : Ref sig .tc) → Buf (Elt F) ((c : Thread nD τ).loc b) := fun c b => W c b

/-- The contents after the launch: each window's buffer at what the launch leaves in the window's array, every
    other buffer as entered. -/
def after2 (c : Dev nD) : Valuation τ sig (Elt F) :=
  Pipeline.withArrays spec2 c (W c) fun w => (dat2 (atRefs W) c).arrAt w cfg2.N

/-- The result's buffer holds the fold of the write-backs. -/
theorem after2_out (c : Dev nD) : after2 W c (Proc.devRef .tc main_v10) = (dat2 (atRefs W) c).arrAt 6 cfg2.N := by
  unfold after2
  refine withArrays_at c _ _ 6 fun w' e => ?_
  obtain rfl : w' = 6 := (by decide : ∀ w' : Fin 7, Pipeline.arrRef spec2 w' = Pipeline.arrRef spec2 6 → w' = 6) w' (Proc.devRef_injective _ e)
  rfl

/-- Every other buffer holds what it held at the entry. -/
theorem after2_other (c : Dev nD) (b : Ref sig .tc) (hb : b ≠ main_v10) : after2 W c (Proc.devRef .tc b) = W c (Proc.devRef .tc b) := by
  unfold after2
  by_cases hex : ∃ w, Pipeline.arrRef spec2 w = b
  · obtain ⟨w, rfl⟩ := hex
    have hin : ∀ w' : Fin 7, w' ≠ 6 → (dat2 (atRefs W) c).arrAt w' cfg2.N = W c (Proc.devRef .tc (Pipeline.arrRef spec2 w')) :=
      fun w' h' => arrAt2_in (atRefs W) c w' h' _
    have hw : w ≠ 6 := fun h => hb (by rw [h])
    refine (withArrays_at c _ _ w fun w' e => ?_).trans (hin w hw)
    have hw' : w' ≠ 6 := fun h => hb ((Proc.devRef_injective _ e).symm.trans (by rw [h]))
    rw [hin w' hw', hin w hw]
    exact cast_valuation (W c) e
  · exact Pipeline.withArrays_of_ne spec2 c _ _ b fun w e => hex ⟨w, e⟩

/-- Each window's buffer holds, after the launch, what the launch leaves in the window's array, -/
theorem hF2 (c : Dev nD) (w : Fin cfg2.W) : (dat2 (atRefs W) c).arrAt w cfg2.N = atRefs (after2 W) c (Pipeline.arrRef spec2 w) := by
  by_cases h : w = 6
  · subst h; exact (after2_out W c).symm
  · exact (arrAt2_in (atRefs W) c w h _).trans
      (after2_other W c _ ((by decide : ∀ w : Fin 7, w ≠ 6 → Pipeline.arrRef spec2 w ≠ main_v10) w h)).symm

/-- and every buffer that is no window's what it held at the entry. -/
theorem hrest2 (c : Dev nD) : ∀ b, b ∉ Finset.univ.image (Pipeline.arrRef spec2) → atRefs (after2 W) c b = atRefs W c b :=
  fun b hb => Pipeline.withArrays_of_ne spec2 c _ _ b fun w e => hb (Finset.mem_image.mpr ⟨w, Finset.mem_univ _, e⟩)

/-- EXIT at those contents. -/
theorem exit2_after (c : Dev nD) :
    iprop((dat2 (atRefs W) c).arrays ((dat2 (atRefs W) c).arrAt · cfg2.N) ∗ Pipeline.unscopedRest spec2 c (atRefs W c))
      ⊢ (unscopedBufs (Ix := Unit) (Name := ℕ) (U := Pipeline.UD sig nD τ) (Lvl := ℕ) c (atRefs (after2 W) c) : sProp 𝕄) :=
  exit2 (atRefs W) c _ (hF2 W c) (hrest2 W c)

end After

end Cert.Kernel.R2

end
-- ==== Proof.WordLevel.Run.lean ====
/-
  The whole program, region after region.

  The contents of the core's unscoped buffers are followed through the program: at launch they are the memory's; a
  region replaces each of its windows' arrays by what its write-backs leave and touches nothing else; a stretch of host
  operations replaces the buffers it writes by their values. Each region is entered from the contents the item before it
  left, so the three regions' per-point obligations, each stated at its own entry contents, compose, and every execution
  of the program terminates with every unscoped buffer at the last contents of this chain. For any reading of the float
  operations.
-/
import proofs.«118833_j481036337863_2_alg».proof.Proof.Gen.Kernel.Launch
import proofs.«118833_j481036337863_2_alg».proof.Proof.Gen.Kernel.Skeleton
import proofs.«118833_j481036337863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«118833_j481036337863_2_alg».proof.Proof.Gen.Kernel.Regions
import proofs.«118833_j481036337863_2_alg».proof.Proof.WordLevel.Region0
import proofs.«118833_j481036337863_2_alg».proof.Proof.WordLevel.Region1
import proofs.«118833_j481036337863_2_alg».proof.Proof.WordLevel.Region2Share

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Kernel.R0 Cert.Kernel.R1 Cert.Kernel.R2

variable (m : (ℓ : Loc nD τ sig) → Buf (Elt F) ℓ) (ρ : Dev nD → PrngReg)

/-! ## The buffer contents between the program's items -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the three stretches of host operations between the second and the third region. -/
def W3 (c : Dev nD) : Valuation τ sig (Elt F) := StableHlo.after hostOps2 (W2 m c)
def W4 (c : Dev nD) : Valuation τ sig (Elt F) := StableHlo.after hostOps2_1 (W3 m c)
def W5 (c : Dev nD) : Valuation τ sig (Elt F) := StableHlo.after hostOps2_2 (W4 m c)
abbrev V5 : (c : Dev nD) → (b : Ref sig .tc) → Buf (Elt F) ((c : Thread nD τ).loc b) := fun c b => W5 m c b

/-- After the third region: its result array at what the pipeline leaves, every other buffer as entered (two of its windows
    read the same array, which ends as entered). -/
abbrev W6 (c : Dev nD) : Valuation τ sig (Elt F) := after2 (W5 m) c
abbrev V6 : (c : Dev nD) → (b : Ref sig .tc) → Buf (Elt F) ((c : Thread nD τ).loc b) := fun c b => W6 m c b

/-! ## The proof data of the three pipelines, each at its region's entry contents -/

abbrev adm : (p : Fin 3) → (pcfgs (F := F) p).Adm := fun p => (cfgs p).toPCfg_adm

def pdats : (p : Fin 3) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V1 m) c
  | ⟨2, _⟩ => fun c => dat2 (V5 m) c

abbrev 𝒱₀ : Variants := Variants.none
abbrev L : GSem nD τ sig → Finset Unit := fun _ => ∅
abbrev lv : GSem nD τ sig → Unit → ℕ := fun _ _ => 0

/-- What rides beside the buffers through every item: the pseudo-random register at some state, and nothing owed. -/
abbrev R (c : Dev nD) : sProp 𝕄 := iprop((∃ r, prngReg c r) ∗ ∃ W, owes (c : Thread nD τ) (0 : CellTallies nD τ sig Unit) W)

/-- A stretch of host operations as an item: from the unscoped buffers at W to them at the stretch's result. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without what the core owes. -/
abbrev Tₙ (c : Dev nD) : sProp 𝕄 := iprop(StableHlo.held (c : Thread nD τ) (Pipeline.ucRefs τ sig) (W6 m c) ∗ ∃ r, prngReg c r)

/-! ## The regions as items -/

-- the configuration the library's statement names is the printed one once plain definitions are unfolded
set_option backward.isDefEq.respectTransparency.types false in
/-- Region 0 over the thread state: entered with every unscoped buffer at W0, left with them at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Cert.Kernel.R0.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the configuration the library's statement names is the printed one once plain definitions are unfolded
set_option backward.isDefEq.respectTransparency.types false in
/-- Region 1 over the thread state: entered with every unscoped buffer at W1, left with them at W2. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Cert.Kernel.R1.body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the configuration the library's statement names is the printed one once plain definitions are unfolded
set_option backward.isDefEq.respectTransparency.types false in
/-- The third region over the thread state: entered with every unscoped buffer at W5, left with them at W6. The buffer two
    of its windows share enters cut into two shares and leaves joined again. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Cert.Kernel.R2.body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V5 m c)
  hentry c := by
    rw [Pipeline.ownSems0_none]
    have hsplit := entry2 (V5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2_after (W5 m) c
    rw [Pipeline.unscopedBufs_held] at hjoin
    iintro ⟨Ha, HO, HY, Hrest⟩
    imodintro
    isplitl [Ha Hrest HY]
    · isplitl [Ha Hrest]
      · ihave H := hjoin $$ [Ha Hrest]
        · isplitl [Ha]; · iexact Ha
          iexact Hrest
        iexact H
      iexact HY
    unfold Pipeline.Dat.owesAt Pipeline.owesWithin
    icases HO with ⟨%W, -, HO⟩; iexists W; iexact HO

/-! ## The program as its items, and the run -/

abbrev segs : List (Pipeline.Seg (pcfgs (F := F)) adm (pdats m) () defs₀ 𝒱₀ L lv) :=
  [ .region (reg0 m),
    .region (reg1 m),
    .host (hseg hostOps2 hostOps2_sub hostOps2_fresh (W2 m)),
    .host (hseg hostOps2_1 hostOps2_1_sub hostOps2_1_fresh (W3 m)),
    .host (hseg hostOps2_2 hostOps2_2_sub hostOps2_2_fresh (W4 m)),
    .region (reg2 m) ]

theorem main_run (c : Dev nD) : main (F := F) c = Pipeline.Seg.run (segs m) := (main_chain c).trans (by chain_rfl)

-- the statement is the launch theorem's conclusion at this program's configuration, once plain definitions are unfolded
set_option backward.isDefEq.respectTransparency.types false in
/-- Every weakly fair execution of the program from memory m with zero counters terminates, nothing faulting, and the
    final state holds every unscoped buffer of every core at the last contents of the chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Run

end
-- ==== Proof.WordLevel.Frame.lean ====
/-
  The argument arrays end as launched. No stretch of host operations writes an argument, and a region touches an
  argument only through an input window, whose array the pipeline leaves as it found it; so the last contents of the
  chain at an argument's buffer walk back to the launch memory.
-/
import proofs.«118833_j481036337863_2_alg».proof.Proof.Gen.Kernel.Launch
import proofs.«118833_j481036337863_2_alg».proof.Proof.Gen.Kernel.Skeleton
import proofs.«118833_j481036337863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«118833_j481036337863_2_alg».proof.Proof.WordLevel.Run

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Kernel.R0 Cert.Kernel.R1 Cert.Kernel.R2

variable (m : (ℓ : Loc nD τ sig) → Buf (Elt F) ℓ) (ρ : Dev nD → PrngReg)

theorem W3_of (c : Dev nD) (b : Ref sig .tc) (h : b ∉ hostOps2_W) : W3 m c (Proc.devRef .tc b) = W2 m c (Proc.devRef .tc b) := by
  unfold W3; exact StableHlo.after_of_writes_sub hostOps2 _ hostOps2_writes h
theorem W4_of (c : Dev nD) (b : Ref sig .tc) (h : b ∉ hostOps2_1_W) : W4 m c (Proc.devRef .tc b) = W3 m c (Proc.devRef .tc b) := by
  unfold W4; exact StableHlo.after_of_writes_sub hostOps2_1 _ hostOps2_1_writes h
theorem W5_of (c : Dev nD) (b : Ref sig .tc) (h : b ∉ hostOps2_2_W) : W5 m c (Proc.devRef .tc b) = W4 m c (Proc.devRef .tc b) := by
  unfold W5; exact StableHlo.after_of_writes_sub hostOps2_2 _ hostOps2_2_writes h

/-- From the end of the chain back to the second region's exit, at a buffer neither the third region's result nor written
    by a host operation. -/
theorem walk (c : Dev nD) (b : Ref sig .tc) (h6 : b ≠ main_v10) (h5 : b ∉ hostOps2_2_W) (h4 : b ∉ hostOps2_1_W) (h3 : b ∉ hostOps2_W) :
    W6 m c (Proc.devRef .tc b) = W2 m c (Proc.devRef .tc b) :=
  (after2_other (W5 m) c b h6).trans <| (W5_of m c b h5).trans <| (W4_of m c b h4).trans (W3_of m c b h3)

theorem W6_main_arg0 (c : Dev nD) : W6 m c (Proc.devRef .tc main_arg0) = m ((c : Thread nD τ).loc main_arg0) :=
  (walk m c main_arg0 (by decide) (by decide) (by decide) (by decide)).trans <| (W2_of_ne m c main_arg0 (by decide)).trans <|
    (W1_arr m c 0).trans (((dat0 (V0 m) c).arrAt_in 0 rfl _).trans (A_eq0 (V0 m) c 0))
theorem W6_main_arg1 (c : Dev nD) : W6 m c (Proc.devRef .tc main_arg1) = m ((c : Thread nD τ).loc main_arg1) :=
  (walk m c main_arg1 (by decide) (by decide) (by decide) (by decide)).trans <| (W2_arr m c 0).trans <| (((dat1 (V1 m) c).arrAt_in 0 rfl _).trans (A_eq1 (V1 m) c 0)).trans (W1_of_ne m c main_arg1 (by decide))
theorem W6_main_arg2 (c : Dev nD) : W6 m c (Proc.devRef .tc main_arg2) = m ((c : Thread nD τ).loc main_arg2) :=
  (walk m c main_arg2 (by decide) (by decide) (by decide) (by decide)).trans <| (W2_of_ne m c main_arg2 (by decide)).trans <|
    (W1_arr m c 1).trans (((dat0 (V0 m) c).arrAt_in 1 rfl _).trans (A_eq0 (V0 m) c 1))
theorem W6_main_arg3 (c : Dev nD) : W6 m c (Proc.devRef .tc main_arg3) = m ((c : Thread nD τ).loc main_arg3) :=
  (walk m c main_arg3 (by decide) (by decide) (by decide) (by decide)).trans <| (W2_of_ne m c main_arg3 (by decide)).trans <|
    (W1_arr m c 2).trans (((dat0 (V0 m) c).arrAt_in 2 rfl _).trans (A_eq0 (V0 m) c 2))
theorem W6_main_arg4 (c : Dev nD) : W6 m c (Proc.devRef .tc main_arg4) = m ((c : Thread nD τ).loc main_arg4) :=
  (walk m c main_arg4 (by decide) (by decide) (by decide) (by decide)).trans <| (W2_of_ne m c main_arg4 (by decide)).trans <|
    (W1_arr m c 3).trans (((dat0 (V0 m) c).arrAt_in 3 rfl _).trans (A_eq0 (V0 m) c 3))
theorem W6_main_arg5 (c : Dev nD) : W6 m c (Proc.devRef .tc main_arg5) = m ((c : Thread nD τ).loc main_arg5) :=
  (walk m c main_arg5 (by decide) (by decide) (by decide) (by decide)).trans <| (W2_of_ne m c main_arg5 (by decide)).trans (W1_of_ne m c main_arg5 (by decide))
theorem W6_main_arg6 (c : Dev nD) : W6 m c (Proc.devRef .tc main_arg6) = m ((c : Thread nD τ).loc main_arg6) :=
  (walk m c main_arg6 (by decide) (by decide) (by decide) (by decide)).trans <| (W2_of_ne m c main_arg6 (by decide)).trans (W1_of_ne m c main_arg6 (by decide))

/-- The frame: every execution terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

end Cert.Kernel.Run

end
-- ==== Proof.Region0.lean ====
/-
  The first region: the feature attention and the support product, one block of 1024 rows per grid point.

  At grid point t the region's body reads rows [1024 t, 1024 t + 1024) of x and the three weight arrays whole, and
  writes the 1024 × 512 block of the support it computes from them into the output window's buffer, which the
  pipeline then writes back to rows [1024 t, 1024 t + 1024) of the support array. Here: what each window's buffer
  holds before and after the body at each point, the body's run on any buffers, and the resulting per-point
  obligation of the pipeline, for any reading of the float operations.
-/
import proofs.«118833_j481036337863_2_alg».proof.Proof.Gen.KernelIdeal.Launch
import proofs.«118833_j481036337863_2_alg».proof.Proof.Gen.KernelIdeal.Skeleton
import proofs.«118833_j481036337863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block of the array at every point, whether or not the block was fetched
    there: where it was not, the block index has not moved since the point before. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block of the array at every point, whether or not the block was fetched
    there: where it was not, the block index has not moved since the point before. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block of the array at every point, whether or not the block was fetched
    there: where it was not, the block index has not moved since the point before. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block of the array at every point, whether or not the block was fetched
    there: where it was not, the block index has not moved since the point before. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rX : Rect S1024x128 := Rect.unit (s := S1024x128) ![0, 0] S1024x128.size inb_S1024x128_S1024x128_0_0
abbrev rW1 : Rect S512x128 := Rect.unit (s := S512x128) ![0, 0] S512x128.size inb_S512x128_S512x128_0_0
abbrev rW : Rect S128x512 := Rect.unit (s := S128x512) ![0, 0] S128x512.size inb_S128x512_S128x512_0_0
abbrev rO : Rect S1024x512 := Rect.unit (s := S1024x512) ![0, 0] S1024x512.size inb_S1024x512_S1024x512_0_0

/-- The output window's buffer after the body: its one store, of the support block computed from the four loads. -/
def out0_4 (x0 : Vec F S1024x128 .f32) (x1 : Vec F S512x128 .f32) (x2 x3 : Vec F S128x512 .f32) : Vec F S1024x512 .bf16 :=
  View.canon [⟨rO, k0_pay1 (View.ld x0 rX) (View.ld x1 rW1) (View.ld x2 rW) (View.ld x3 rW)⟩]

/-- The one store covers the buffer. -/
theorem cover0_4 (p0 : Vec F S1024x512 .bf16) (y : S1024x512.Idx) :
    ∃ pc ∈ ([⟨rO, p0⟩] : List (View.Piece (Elt F) S1024x512 .bf16)), y ∈ pc.1.set :=
  View.cover_of_tiled [⟨rO, p0⟩] S1024x512.size (by rfl) y

set_option maxHeartbeats 1000000 in
/-- The body on whole buffers: the four inputs' at read contents and the output's at anything run to the inputs' as
    they were and the output's at the support block of the inputs'. -/
theorem sound_kernel0 (c : Dev nD) (E : Set ℕ) (i : grid0.Coords)
    (arg1 : Memref sig .tc .vmem S1024x128 .f32) (harg1 : arg1.IsWhole) (arg2 : Memref sig .tc .vmem S512x128 .f32) (harg2 : arg2.IsWhole)
    (arg3 : Memref sig .tc .vmem S128x512 .f32) (harg3 : arg3.IsWhole) (arg4 : Memref sig .tc .vmem S128x512 .f32) (harg4 : arg4.IsWhole)
    (arg5 : Memref sig .tc .vmem S1024x512 .bf16) (harg5 : arg5.IsWhole)
    (x0 : Vec F S1024x128 .f32) (x1 : Vec F S512x128 .f32) (x2 x3 : Vec F S128x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__attn_gcn_kernel i arg1 harg1 arg2 harg2 arg3 harg3 arg4 harg4 arg5 harg5) K := by
  simp only [cc0__attn_gcn_kernel_eq_skeleton]; unfold cc0__attn_gcn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The arrays as the region finds them; after the body at point t each input's buffer at its block and the output's at
    the support block of the input blocks; the invariant the scoped rest and the pseudo-random register, untouched;
    nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the run on whole buffers applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.Region1Runs.lean ====
/-
  The second launch of the kernel: h = relu (adj · support), one row block of 1024 rows at a time, the
  contraction over the 8192 columns of adj cut into 8 column blocks of 1024.

  The grid is 8 × 8; point t has row block i = t / 8 and column block k = t % 8.  The body keeps the running
  sum in the output window's staging buffer: at k = 0 it first stores zeros there, at every k it loads the
  buffer and stores (buffer + adj block · support block), at k = 7 it then stores max (buffer, 0).  The buffer
  is written back to the array only after k = 7.

  This module holds what the three control cases share: each window's block at a point read off the array as
  the launch finds it, the fact that an input window's staging buffer holds that block whenever the body runs,
  and the two branch conditions as predicates of the grid coordinates, in closed form over the grid.
-/
import proofs.«118833_j481036337863_2_alg».proof.Proof.Gen.KernelIdeal.Launch
import proofs.«118833_j481036337863_2_alg».proof.Proof.Gen.KernelIdeal.Skeleton
import proofs.«118833_j481036337863_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adj window's staging buffer holds the point's block whenever the body runs, for any proof data whose
    array is the entry contents and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the support window. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions -/

/-- "This is the first column block" (k = 0), as the body computes it from the grid coordinates. -/
abbrev cond1_0 (i : grid1.Coords) : Prop := (Scalar.cmpi .ne (Scalar.extui (Scalar.cmpi .eq (BitVec.ofNat 32 (i 1).val) 0#32)) 0#32) = 1#1
/-- "This is the last column block" (k = 7). -/
abbrev cond1_1 (i : grid1.Coords) : Prop := (Scalar.cmpi .ne (Scalar.extui (Scalar.cmpi .eq (BitVec.ofNat 32 (i 1).val) 7#32)) 0#32) = 1#1

/-- The first holds exactly at the points t with t % 8 = 0, -/
theorem hcond1_0 : ∀ t : Fin cfg1.N, cond1_0 (grid1.coords t) ↔ t.val % 8 = 0 :=
  (by decide +kernel : ∀ t : Fin grid1.N, cond1_0 (grid1.coords t) ↔ t.val % 8 = 0)
/-- the second exactly at those with t % 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## The staging memrefs the body is called with -/

/-- One staging buffer of the output window, through which its contents are stated (the choice does not matter). -/
abbrev VO1_2 : View sig .tc .vmem S1024x512 .f32 := (Memref.whole cc1_stg2_0 : Memref sig .tc .vmem S1024x512 .f32).view
/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)

end Cert.KernelIdeal.R1

end
-- ==== Proof.Region1RunA.lean ====
/-
  The body at a point of the first column block (k = 0): zeros are stored into the output window's staging
  buffer, then the buffer is loaded and (buffer + adj block · support block) is stored; the last branch is not taken.
-/
import proofs.«118833_j481036337863_2_alg».proof.Proof.Region1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The pieces the body's stores leave in the output window's staging buffer in this case (last store first),
    with the proof that the body, run on whole staging memrefs holding the adj block `x0`, the support block
    `x1` and anything in the output buffer, reaches its continuation with the two inputs untouched and the output buffer
    overwritten by those pieces: the body's memory operations are followed one at a time, each `scf.if` decided
    by the case's hypotheses. -/
noncomputable def kernelRun1_A (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : cond1_0 i) (hc1 : ¬cond1_1 i)
    (x0 : Vec F S1024x1024 .f32) (x1 : Vec F S1024x512 .bf16) :
    { L2 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__matmul_relu_kernel i arg2 harg2 arg3 harg3 arg4 harg4) K } := by
  refine ⟨?_, fun E K => ?run⟩
  case run =>
    simp only [cc1__matmul_relu_kernel_eq_skeleton]; unfold cc1__matmul_relu_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.R1

end
-- ==== Proof.Region1RunB.lean ====
/-
  The body at a point of a middle column block (0 < k < 7): neither branch is taken; the output window's staging
  buffer, holding the running sum the point before left, is loaded and (buffer + adj block · support block) is stored.
-/
import proofs.«118833_j481036337863_2_alg».proof.Proof.Region1RunA

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The pieces the body's stores leave in the output window's staging buffer in this case (last store first),
    with the proof that the body, run on whole staging memrefs holding the adj block `x0`, the support block
    `x1` and the running sum `xo2`, reaches its continuation with the two inputs untouched and the output buffer
    overwritten by those pieces: the body's memory operations are followed one at a time, each `scf.if` decided
    by the case's hypotheses. -/
noncomputable def kernelRun1_B (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : ¬cond1_0 i) (hc1 : ¬cond1_1 i)
    (x0 : Vec F S1024x1024 .f32) (x1 : Vec F S1024x512 .bf16) (xo2 : Vec F S1024x512 .f32) :
    { L2 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__matmul_relu_kernel i arg2 harg2 arg3 harg3 arg4 harg4) K } := by
  refine ⟨?_, fun E K => ?run⟩
  case run =>
    simp only [cc1__matmul_relu_kernel_eq_skeleton]; unfold cc1__matmul_relu_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.R1

end
-- ==== Proof.Region1RunC.lean ====
/-
  The body at a point of the last column block (k = 7): the running sum is loaded and (sum + adj block · support
  block) is stored, then the last branch loads the buffer again and stores its maximum with zero.
-/
import proofs.«118833_j481036337863_2_alg».proof.Proof.Region1RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The pieces the body's stores leave in the output window's staging buffer in this case (last store first),
    with the proof that the body, run on whole staging memrefs holding the adj block `x0`, the support block
    `x1` and the running sum `xo2`, reaches its continuation with the two inputs untouched and the output buffer
    overwritten by those pieces: the body's memory operations are followed one at a time, each `scf.if` decided
    by the case's hypotheses. -/
noncomputable def kernelRun1_C (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : ¬cond1_0 i) (hc1 : cond1_1 i)
    (x0 : Vec F S1024x1024 .f32) (x1 : Vec F S1024x512 .bf16) (xo2 : Vec F S1024x512 .f32) :
    { L2 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__matmul_relu_kernel i arg2 harg2 arg3 harg3 arg4 harg4) K } := by
  refine ⟨?_, fun E K => ?run⟩
  case run =>
    simp only [cc1__matmul_relu_kernel_eq_skeleton]; unfold cc1__matmul_relu_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.R1

end
-- ==== Proof.Region1.lean ====
/-
  The frame half of the second launch (h = relu (adj · support)): what the output window's staging buffer holds
  after each grid point, the launch's proof data, and the body's obligation at every point.

  Point t = 8·i + k works on row block i and column block k.  At k = 0 the buffer is reset and holds
  0 + adj(i,0)·support(0); at 0 < k < 7 it holds what the point before left plus adj(i,k)·support(k); at k = 7 it
  holds the maximum of that sum with 0, and only then is it written back to rows 1024·i … 1024·i + 1023 of the
  array.  Between write-backs the buffer is carried from point to point, which is why its contents are defined
  by recursion on the point.
-/
import proofs.«118833_j481036337863_2_alg».proof.Proof.Region1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-! ## What each case leaves in the output window's staging buffer -/

/-- The pieces stored at a point of the first column block tile the output block, so they cover it. -/
theorem cover1_A_2 (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : cond1_0 i) (hc1 : ¬cond1_1 i)
    (x0 : Vec F S1024x1024 .f32) (x1 : Vec F S1024x512 .bf16) (y : S1024x512.Idx) :
    ∃ pc ∈ (kernelRun1_A c i arg2 harg2 arg3 harg3 arg4 harg4 hc0 hc1 x0 x1).1, y ∈ pc.1.set :=
  View.cover_of_tiledL (kernelRun1_A c i arg2 harg2 arg3 harg3 arg4 harg4 hc0 hc1 x0 x1).1 S1024x512.size (by sl_kernel_rfl) y

/-- What such a point leaves in the output window's staging buffer: its pieces read back. -/
def out1_A_2 (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : cond1_0 i) (hc1 : ¬cond1_1 i)
    (x0 : Vec F S1024x1024 .f32) (x1 : Vec F S1024x512 .bf16) : Vec F S1024x512 .f32 :=
  VO1_2.read (Elt F) (VO1_2.writes (Elt F) VO1_2.junk (kernelRun1_A c i arg2 harg2 arg3 harg3 arg4 harg4 hc0 hc1 x0 x1).1)

/-- The pieces stored at a point of a middle column block tile the output block, so they cover it. -/
theorem cover1_B_2 (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : ¬cond1_0 i) (hc1 : ¬cond1_1 i)
    (x0 : Vec F S1024x1024 .f32) (x1 : Vec F S1024x512 .bf16) (xo2 : Vec F S1024x512 .f32) (y : S1024x512.Idx) :
    ∃ pc ∈ (kernelRun1_B c i arg2 harg2 arg3 harg3 arg4 harg4 hc0 hc1 x0 x1 xo2).1, y ∈ pc.1.set :=
  View.cover_of_tiledL (kernelRun1_B c i arg2 harg2 arg3 harg3 arg4 harg4 hc0 hc1 x0 x1 xo2).1 S1024x512.size (by sl_kernel_rfl) y

/-- What such a point leaves in the output window's staging buffer: its pieces read back. -/
def out1_B_2 (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : ¬cond1_0 i) (hc1 : ¬cond1_1 i)
    (x0 : Vec F S1024x1024 .f32) (x1 : Vec F S1024x512 .bf16) (xo2 : Vec F S1024x512 .f32) : Vec F S1024x512 .f32 :=
  VO1_2.read (Elt F) (VO1_2.writes (Elt F) VO1_2.junk (kernelRun1_B c i arg2 harg2 arg3 harg3 arg4 harg4 hc0 hc1 x0 x1 xo2).1)

/-- The pieces stored at a point of the last column block tile the output block, so they cover it. -/
theorem cover1_C_2 (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : ¬cond1_0 i) (hc1 : cond1_1 i)
    (x0 : Vec F S1024x1024 .f32) (x1 : Vec F S1024x512 .bf16) (xo2 : Vec F S1024x512 .f32) (y : S1024x512.Idx) :
    ∃ pc ∈ (kernelRun1_C c i arg2 harg2 arg3 harg3 arg4 harg4 hc0 hc1 x0 x1 xo2).1, y ∈ pc.1.set :=
  View.cover_of_tiledL (kernelRun1_C c i arg2 harg2 arg3 harg3 arg4 harg4 hc0 hc1 x0 x1 xo2).1 S1024x512.size (by sl_kernel_rfl) y

/-- What such a point leaves in the output window's staging buffer: its pieces read back. -/
def out1_C_2 (c : Dev nD) (i : grid1.Coords) (arg2 : Memref sig .tc .vmem S1024x1024 .f32) (harg2 : arg2.IsWhole) (arg3 : Memref sig .tc .vmem S1024x512 .bf16) (harg3 : arg3.IsWhole) (arg4 : Memref sig .tc .vmem S1024x512 .f32) (harg4 : arg4.IsWhole) (hc0 : ¬cond1_0 i) (hc1 : cond1_1 i)
    (x0 : Vec F S1024x1024 .f32) (x1 : Vec F S1024x512 .bf16) (xo2 : Vec F S1024x512 .f32) : Vec F S1024x512 .f32 :=
  VO1_2.read (Elt F) (VO1_2.writes (Elt F) VO1_2.junk (kernelRun1_C c i arg2 harg2 arg3 harg3 arg4 harg4 hc0 hc1 x0 x1 xo2).1)

/-! ## The case of a point, from its number -/

theorem c0_of (t : Fin cfg1.N) (h0 : t.val % 8 = 0) : cond1_0 (grid1.coords t) := (hcond1_0 t).mpr h0
theorem not_c0_of (t : Fin cfg1.N) (h0 : ¬t.val % 8 = 0) : ¬cond1_0 (grid1.coords t) := fun h => h0 ((hcond1_0 t).mp h)
theorem c1_of (t : Fin cfg1.N) (h1 : t.val % 8 = 7) : cond1_1 (grid1.coords t) := (hcond1_1 t).mpr h1
theorem not_c1_of (t : Fin cfg1.N) (h1 : ¬t.val % 8 = 7) : ¬cond1_1 (grid1.coords t) := fun h => h1 ((hcond1_1 t).mp h)
/-- A first column block is not a last one. -/
theorem not_c1_of_first (t : Fin cfg1.N) (h0 : t.val % 8 = 0) : ¬cond1_1 (grid1.coords t) := fun h => by
  have := (hcond1_1 t).mp h; omega

/-- The buffer after a point of the first column block, at the point's memrefs and input blocks, -/
def outA (c : Dev nD) (t : Fin cfg1.N) (h0 : t.val % 8 = 0) : Vec F S1024x512 .f32 :=
  out1_A_2 c (grid1.coords t) (ms1_0 t) (hs1_0 t) (ms1_1 t) (hs1_1 t) (ms1_2 t) (hs1_2 t) (c0_of t h0) (not_c1_of_first t h0) (iblk1 V c 0 t) (iblk1 V c 1 t)
/-- after a point of a middle column block entered with the running sum `xo`, -/
def outB (c : Dev nD) (t : Fin cfg1.N) (h0 : ¬t.val % 8 = 0) (h1 : ¬t.val % 8 = 7) (xo : Vec F S1024x512 .f32) : Vec F S1024x512 .f32 :=
  out1_B_2 c (grid1.coords t) (ms1_0 t) (hs1_0 t) (ms1_1 t) (hs1_1 t) (ms1_2 t) (hs1_2 t) (not_c0_of t h0) (not_c1_of t h1) (iblk1 V c 0 t) (iblk1 V c 1 t) xo
/-- and after a point of the last column block entered with the running sum `xo`. -/
def outC (c : Dev nD) (t : Fin cfg1.N) (h0 : ¬t.val % 8 = 0) (h1 : t.val % 8 = 7) (xo : Vec F S1024x512 .f32) : Vec F S1024x512 .f32 :=
  out1_C_2 c (grid1.coords t) (ms1_0 t) (hs1_0 t) (ms1_1 t) (hs1_1 t) (ms1_2 t) (hs1_2 t) (not_c0_of t h0) (c1_of t h1) (iblk1 V c 0 t) (iblk1 V c 1 t) xo

/-! ## The accumulation -/

/-- What the output window's staging buffer holds after the body at position `n`: the case `n % 8` selects, run
    at the point's memrefs and input blocks, and, off the first column block, over what position `n - 1` left
    (the buffer is not written back in between). -/
def outsAt1 (c : Dev nD) : (n : ℕ) → n < cfg1.N → Vec F S1024x512 .f32
  | 0, hn => outA V c ⟨0, hn⟩ (Nat.zero_mod _)
  | n + 1, hn =>
    if h0 : (n + 1) % 8 = 0 then outA V c ⟨n + 1, hn⟩ h0
    else if h1 : (n + 1) % 8 = 7 then outC V c ⟨n + 1, hn⟩ h0 h1 (outsAt1 c n (Nat.lt_of_succ_lt hn))
    else outB V c ⟨n + 1, hn⟩ h0 h1 (outsAt1 c n (Nat.lt_of_succ_lt hn))

theorem prev_lt (t : Fin cfg1.N) : t.val - 1 < cfg1.N := Nat.lt_of_le_of_lt (Nat.sub_le _ _) t.isLt

theorem outsAt1_A (c : Dev nD) (t : Fin cfg1.N) (h0 : t.val % 8 = 0) :
    outsAt1 V c t.val t.isLt = outA V c t h0 := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = outB V c t h0 h1 (outsAt1 V c (t.val - 1) (prev_lt t)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = outC V c t h0 h1 (outsAt1 V c (t.val - 1) (prev_lt t)) := by
  obtain ⟨n, hn⟩ := t
  cases n with
  | zero => exact absurd (Nat.zero_mod _) h0
  | succ n => exact (dif_neg h0).trans ((dif_pos h1).trans rfl)

/-! ## The launch's proof data -/

/-- The arrays as the launch finds them; after the body at point `t` each input window's buffer at its block and
    the output window's at `outsAt1`; the invariant that of a body touching only its windows (the scoped rest
    and the pseudo-random register ride along); nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

/-- Each input window's staging buffer holds its block whenever the body runs. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- Off the first column block the output window's staging buffer holds what the point before left: the
    buffer is written back only after a last column block, and the point after one is a first column block. -/
theorem before1_2_kept (c : Dev nD) (t : Fin cfg1.N) (h0 : ¬t.val % 8 = 0) (d) :
    (dat1 V c).before 2 t d = outsAt1 V c (t.val - 1) (prev_lt t) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body's obligation at a point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1000000 in
/-- The body at any point: the inputs' memrefs hold their blocks; `t % 8` says which case the point is in; off
    the first column block the output buffer holds what the point before left; so that case's run applies.  The
    invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [outsAt1_A V c t h0]
    unfold outA out1_A_2
    iintro ⟨HΦ, Ho, ⟨%d0, H0⟩, ⟨%d1, H1⟩, ⟨%d2, H2⟩⟩
    iapply ((kernelRun1_A c (grid1.coords t) _ _ _ _ _ _ (c0_of t h0) (not_c1_of_first t h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _ _)
  · simp only [before1_2_kept V c t h0]
    by_cases h1 : t.val % 8 = 7
    · rw [outsAt1_C V c t h0 h1]
      unfold outC out1_C_2
      iintro ⟨HΦ, Ho, ⟨%d0, H0⟩, ⟨%d1, H1⟩, ⟨%d2, H2⟩⟩
      iapply ((kernelRun1_C c (grid1.coords t) _ _ _ _ _ _ (not_c0_of t h0) (c1_of t h1) (iblk1 V c 0 t) (iblk1 V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _)
    · rw [outsAt1_B V c t h0 h1]
      unfold outB out1_B_2
      iintro ⟨HΦ, Ho, ⟨%d0, H0⟩, ⟨%d1, H1⟩, ⟨%d2, H2⟩⟩
      iapply ((kernelRun1_B c (grid1.coords t) _ _ _ _ _ _ (not_c0_of t h0) (not_c1_of t h1) (iblk1 V c 0 t) (iblk1 V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover1_B_2 c _ _ _ _ _ _ _ _ _ _ _ _)

/-- The body's obligation at every point, in the form the launch theorems take. -/
theorem body_obligation1 (c : Dev nD) : BodyObligation (dat1 (F := F) V c) (defs₀ (F := F)) Variants.none () Set.univ := fun t => by
  rw [bigSep_W1, bigSep_W1]
  exact sound_body1 V c t

end

end Cert.KernelIdeal.R1

end
-- ==== Proof.Region2.lean ====
/-
  The third launch: batch normalisation of the hidden array followed by the Gram matrix of the normalised rows.

  The launch walks an 8 × 8 grid, point t = 8·i + j. Its first two windows both read the hidden array h, the
  first at row block i and the second at row block j; four more windows bring the four column vectors γ, β, mean and
  variance, each a single block [1, 512] fetched once; the last window is the result, whose block (i, j) is written
  back at every point. At a point the body reads the six input blocks whole, forms
      z_i = (h_i − mean) · rsqrt(var + ε) · γ + β   and   z_j likewise,
  multiplies z_i by the transpose of z_j into a zero accumulator, and stores the 1024 × 1024 product over the whole
  output block. This module states that behaviour against the staging buffers: what each buffer holds before and after
  the body at every point, with the buffer contents at the launch's entry as a parameter V.

  Because two windows name one array, the array's points-to cannot be held twice at the full share: the first window
  holds the left half of the full share and the second the right half. Neither window is ever written back, so a half
  share (read access) is all either needs.
-/
import proofs.«118833_j481036337863_2_alg».proof.Proof.Gen.KernelIdeal.Launch
import proofs.«118833_j481036337863_2_alg».proof.Proof.Gen.KernelIdeal.Skeleton
import proofs.«118833_j481036337863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffer contents of the core when the launch is entered
variable (V : (c : Dev nD) → (b : Ref sig .tc) → Buf (Elt F) ((c : Thread nD τ).loc b))

/-! ## The blocks the windows read -/

/-- The block of window w at point t, cut out of the window's array as the launch finds it. For the first two
    windows this is a block of 1024 rows of h (rows 1024·i … for the first, rows 1024·j … for the second). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds the window's block at every point, whether or not the block was
    fetched at that very point: when it was not, the window's block index has not moved since the last fetch and the
    body leaves input buffers as it finds them. One statement per input window. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body touches -/

/-- The whole of a [1024, 512] buffer, of a [1, 512] buffer and of a [1024, 1024] buffer: every access of the body is
    one of these. -/
abbrev r2_a : Rect S1024x512 := Rect.unit (s := S1024x512) ![0, 0] S1024x512.size inb_S1024x512_S1024x512_0_0
abbrev r2_b : Rect S1x512 := Rect.unit (s := S1x512) ![0, 0] S1x512.size inb_S1x512_S1x512_0_0
abbrev r2_o : Rect S1024x1024 := Rect.unit (s := S1024x1024) ![0, 0] S1024x1024.size inb_S1024x1024_S1024x1024_0_0

/-- What the body leaves in the output window's buffer, as a function of the six input blocks: its single store,
    of the product z_i · z_jᵀ, over the whole buffer. -/
def out2_6 (x0 : Vec F S1024x512 .f32) (x1 : Vec F S1024x512 .f32) (x2 : Vec F S1x512 .f32) (x3 : Vec F S1x512 .f32) (x4 : Vec F S1x512 .f32) (x5 : Vec F S1x512 .f32) : Vec F S1024x1024 .f32 :=
  View.canon [⟨r2_o, k2_pay1 (View.ld x0 r2_a) (View.ld x1 r2_a) (View.ld x2 r2_b) (View.ld x3 r2_b) (View.ld x4 r2_b) (View.ld x5 r2_b)⟩]

/-- The single store covers the buffer. -/
theorem cover2_6 (p0 : Vec F S1024x1024 .f32) (y : S1024x1024.Idx) :
    ∃ pc ∈ ([⟨r2_o, p0⟩] : List (View.Piece (Elt F) S1024x1024 .f32)), y ∈ pc.1.set :=
  View.cover_of_tiled [⟨r2_o, p0⟩] S1024x1024.size (by rfl) y

/-! ## The body on any seven whole buffers -/

set_option maxHeartbeats 1000000 in
/-- Run on seven whole buffers, the six inputs at contents x₀ … x₅ and the output at anything, the body ends with the
    inputs as they were and the output at `out2_6` of the inputs. -/
theorem sound_kernel2 (c : Dev nD) (E : Set ℕ) (i : grid2.Coords) (a0 : Memref sig .tc .vmem S1024x512 .f32) (h0 : a0.IsWhole) (a1 : Memref sig .tc .vmem S1024x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S1024x1024 .f32) (h6 : a6.IsWhole)
    (x0 : Vec F S1024x512 .f32) (x1 : Vec F S1024x512 .f32) (x2 : Vec F S1x512 .f32) (x3 : Vec F S1x512 .f32) (x4 : Vec F S1x512 .f32) (x5 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out2_6 x0 x1 x2 x3 x4 x5)) -∗ K ⟨⟩))
      ⊢ wp frame (wpE (defs₀ (F := F)) Variants.none c none) E (cc2__bn_innerprod_kernel i a0 h0 a1 h1 a2 h2 a3 h3 a4 h4 a5 h5 a6 h6) K := by
  simp only [cc2__bn_innerprod_kernel_eq_skeleton]; unfold cc2__bn_innerprod_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The launch's proof data -/

/-- The data of the launch on core c. The arrays are as the launch finds them; after the body at point t every input
    buffer still holds its block and the output buffer holds `out2_6` of the six blocks; the invariant is the untouched
    rest of the core; nothing is owed. The shares: h is read through two windows, so the first holds the left half of
    the full share of h's buffer and the second the right half; every other input is held whole. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Every input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body at a grid point -/

/-- What the body is entered with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the input buffers hold their blocks, so the run on whole buffers applies; the invariant and what
    the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch rule's obligation on the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.R2

end
-- ==== Proof.Region2Share.lean ====
/-
  One array behind two windows: sharing the hidden array at the launch's entry and putting it back at its exit.

  When the third launch is entered the core holds every buffer that outlives a launch whole, at the full share. The
  launch rule wants one points-to per WINDOW. Five of the seven windows name a buffer of their own and take that
  buffer's points-to as it is. The first two both name the hidden array h: its full-share points-to is cut into its
  left and right halves, one per window. At the exit the two halves, still at the contents h had at the entry because
  neither window is ever written back, are joined into the full share again, and the result window's buffer comes
  back at what the 64 write-backs left in it. The second part reads the buffer contents after the launch: the
  result's buffer at the folded write-backs, every other buffer as it was.
-/
import proofs.«118833_j481036337863_2_alg».proof.Proof.Region2
import proofs.«118833_j481036337863_2_alg».proof.Proof.LibSharedWindows

set_option maxRecDepth 16384

noncomputable section

namespace Cert.KernelIdeal.R2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The shares the windows hold their arrays at -/

theorem share2_0 (c : Dev nD) : (dat2 V c).share 0 = fullShare.left := rfl
theorem share2_1 (c : Dev nD) : (dat2 V c).share 1 = fullShare.right := rfl
/-- Every window but the two on h holds its array whole. -/
theorem share2_rest (c : Dev nD) : ∀ w : Fin cfg2.W, w ≠ 0 → w ≠ 1 → (dat2 V c).share w = fullShare
  | ⟨0, _⟩, h, _ => absurd rfl h
  | ⟨1, _⟩, _, h => absurd rfl h
  | ⟨2, _⟩, _, _ => rfl
  | ⟨3, _⟩, _, _ => rfl
  | ⟨4, _⟩, _, _ => rfl
  | ⟨5, _⟩, _, _ => rfl
  | ⟨6, _⟩, _, _ => rfl

/-- A window's array is a whole buffer: its points-to over the array's elements is the buffer's. -/
theorem arr_pt (c : Dev nD) (w : Fin cfg2.W) (q : PosShare TreeShare) (g : Buf (Elt F) ((cfg2.win w).arr.view.loc (c : Thread nD τ))) :
    ((cfg2.win w).arr.view.loc (c : Thread nD τ) ↦[(cfg2.win w).arr.view.set]{q} g : sProp 𝕄)
      = (((c : Thread nD τ).loc (Pipeline.arrRef spec2 w)) ↦{q} g) := by
  rw [(arr_whole2 w).set_eq_univ]

/-! ## The buffers behind the windows against the windows' points-tos -/

/-- The distinct buffers behind the seven windows, each whole at the full share at contents W, are the seven windows'
    points-tos at the launch's shares at contents G, whenever G reads W at each window's buffer: h's buffer is cut in
    two halves, the other five buffers go to their windows unchanged. Used in both directions. -/
theorem bufs_iff_arrays (c : Dev nD) (W : (b : Ref sig .tc) → Buf (Elt F) ((c : Thread nD τ).loc b))
    (G : (w : Fin cfg2.W) → Buf (Elt F) ((cfg2.win w).arr.view.loc (c : Thread nD τ)))
    (hG : ∀ w, G w = W (Pipeline.arrRef spec2 w)) :
    (bigSep (Finset.univ.image (Pipeline.arrRef spec2)) (fun b => (((c : Thread nD τ).loc b) ↦{fullShare} W b)) : sProp 𝕄)
      ⊣⊢ (dat2 V c).arrays G := by
  unfold Dat.arrays
  refine SharedWindows.buffers_iff_windows (Pipeline.arrRef spec2)
    (fun b => (((c : Thread nD τ).loc b) ↦{fullShare} W b : sProp 𝕄)) _ (w₁ := 0) (w₂ := 1) (by decide) rfl (by decide) ?_ ?_
  · intro w h0 h1
    rw [arr_pt, share2_rest V c w h0 h1, hG w]
  · rw [arr_pt, arr_pt, share2_0, share2_1, hG 0, hG 1]
    exact pointsTo_share (PosShare.mem_left_op_right fullShare)

/-- The buffers that outlive a launch are the buffers behind this launch's windows and the rest. -/
theorem unscopedBufs_split2 (c : Dev nD) (W : (b : Ref sig .tc) → Buf (Elt F) ((c : Thread nD τ).loc b)) :
    (unscopedBufs (Ix := Unit) (Name := ℕ) (U := Pipeline.UD sig nD τ) (Lvl := ℕ) c W : sProp 𝕄)
      = iprop((bigSep (Finset.univ.image (Pipeline.arrRef spec2)) (fun b => (((c : Thread nD τ).loc b) ↦{fullShare} W b)))
          ∗ Pipeline.unscopedRest spec2 c W) := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest
  rw [bigSep_sdiff_split hA]
  rfl

/-- ENTRY: out of all the long-lived buffers at the entry contents, the launch's arrays at its shares, and the rest. -/
theorem entry2 (c : Dev nD) :
    (unscopedBufs (Ix := Unit) (Name := ℕ) (U := Pipeline.UD sig nD τ) (Lvl := ℕ) c (V c) : sProp 𝕄)
      ⊢ iprop((dat2 V c).arrays ((dat2 V c).arrAt · 0) ∗ Pipeline.unscopedRest spec2 c (V c)) := by
  rw [unscopedBufs_split2]
  exact sep_mono (bufs_iff_arrays V c (V c) _ (fun w => (show (dat2 V c).arrAt w 0 = (dat2 V c).A w from rfl).trans (A_eq2 V c w))).1 .rfl

/-- EXIT: the launch's arrays at what it leaves and the untouched rest are all the long-lived buffers at any contents
    V' that has each window's array at what the launch leaves and agrees with the entry contents elsewhere. -/
theorem exit2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N) ∗ Pipeline.unscopedRest spec2 c (V c))
      ⊢ (unscopedBufs (Ix := Unit) (Name := ℕ) (U := Pipeline.UD sig nD τ) (Lvl := ℕ) c V' : sProp 𝕄) := by
  rw [unscopedBufs_split2]
  refine sep_mono (bufs_iff_arrays V c V' _ hF).2 (Entails.of_eq ?_)
  unfold Pipeline.unscopedRest
  exact bigSep_congr fun b hb => by rw [hrest b (Finset.mem_sdiff.mp hb).2]

/-! ## The input arrays end as entered -/

/-- An input window's array is never written back. -/
theorem arrAt2_in (c : Dev nD) : ∀ (w : Fin cfg2.W), w ≠ 6 → ∀ n, (dat2 V c).arrAt w n = V c (Pipeline.arrRef spec2 w)
  | ⟨0, _⟩, _, n => ((dat2 V c).arrAt_in 0 rfl n).trans (A_eq2 V c 0)
  | ⟨1, _⟩, _, n => ((dat2 V c).arrAt_in 1 rfl n).trans (A_eq2 V c 1)
  | ⟨2, _⟩, _, n => ((dat2 V c).arrAt_in 2 rfl n).trans (A_eq2 V c 2)
  | ⟨3, _⟩, _, n => ((dat2 V c).arrAt_in 3 rfl n).trans (A_eq2 V c 3)
  | ⟨4, _⟩, _, n => ((dat2 V c).arrAt_in 4 rfl n).trans (A_eq2 V c 4)
  | ⟨5, _⟩, _, n => ((dat2 V c).arrAt_in 5 rfl n).trans (A_eq2 V c 5)
  | ⟨6, _⟩, h, _ => absurd rfl h

/-! ## The buffer contents after the launch

After the launch the result's buffer holds the fold of the 64 write-backs and every other buffer what it held at the
entry. The contents are written by overriding the entry contents at the windows' buffers; where two windows name one
buffer the override picks one of them, which is harmless because both carry the buffer's entry contents. -/

/-- Contents transported along an equality of references are the contents at the other reference. -/
theorem cast_valuation (W : Valuation τ sig (Elt F)) {b₁ b₂ : DevRef τ sig} (e : b₁ = b₂) :
    cast (congrArg (fun b' : DevRef τ sig => b'.ty.Contents (Elt F)) e) (W b₁) = W b₂ := by subst e; rfl

/-- The override read at window w's buffer is A w, provided every window naming that buffer carries the same contents. -/
theorem withArrays_at (c : Dev nD) (W : Valuation τ sig (Elt F)) (A : (w : Fin 7) → Buf (Elt F) ((spec2 w).arr.view.loc (c : Thread nD τ))) (w : Fin 7)
    (h : ∀ w' (e : Proc.devRef .tc (Pipeline.arrRef spec2 w') = Proc.devRef (τ := τ) .tc (Pipeline.arrRef spec2 w)),
      cast (congrArg (fun b' : DevRef τ sig => b'.ty.Contents (Elt F)) e) (A w') = A w) :
    Pipeline.withArrays spec2 c W A (Proc.devRef .tc (Pipeline.arrRef spec2 w)) = A w := by
  unfold Pipeline.withArrays
  have hex : ∃ w', Proc.devRef .tc (Pipeline.arrRef spec2 w') = Proc.devRef (τ := τ) .tc (Pipeline.arrRef spec2 w) := ⟨w, rfl⟩
  rw [dif_pos hex]
  exact h _ hex.choose_spec

section After

-- the core's buffer contents when the launch is entered, over all device references
variable (W : Dev nD → Valuation τ sig (Elt F))

/-- The same contents read at the TensorCore's references: the parameter the launch's data is taken at. -/
abbrev atRefs : (c : Dev nD) → (b : Ref sig .tc) → Buf (Elt F) ((c : Thread nD τ).loc b) := fun c b => W c b

/-- The contents after the launch: each window's buffer at what the launch leaves in the window's array, every
    other buffer as entered. -/
def after2 (c : Dev nD) : Valuation τ sig (Elt F) :=
  Pipeline.withArrays spec2 c (W c) fun w => (dat2 (atRefs W) c).arrAt w cfg2.N

/-- The result's buffer holds the fold of the write-backs. -/
theorem after2_out (c : Dev nD) : after2 W c (Proc.devRef .tc main_v10) = (dat2 (atRefs W) c).arrAt 6 cfg2.N := by
  unfold after2
  refine withArrays_at c _ _ 6 fun w' e => ?_
  obtain rfl : w' = 6 := (by decide : ∀ w' : Fin 7, Pipeline.arrRef spec2 w' = Pipeline.arrRef spec2 6 → w' = 6) w' (Proc.devRef_injective _ e)
  rfl

/-- Every other buffer holds what it held at the entry. -/
theorem after2_other (c : Dev nD) (b : Ref sig .tc) (hb : b ≠ main_v10) : after2 W c (Proc.devRef .tc b) = W c (Proc.devRef .tc b) := by
  unfold after2
  by_cases hex : ∃ w, Pipeline.arrRef spec2 w = b
  · obtain ⟨w, rfl⟩ := hex
    have hin : ∀ w' : Fin 7, w' ≠ 6 → (dat2 (atRefs W) c).arrAt w' cfg2.N = W c (Proc.devRef .tc (Pipeline.arrRef spec2 w')) :=
      fun w' h' => arrAt2_in (atRefs W) c w' h' _
    have hw : w ≠ 6 := fun h => hb (by rw [h])
    refine (withArrays_at c _ _ w fun w' e => ?_).trans (hin w hw)
    have hw' : w' ≠ 6 := fun h => hb ((Proc.devRef_injective _ e).symm.trans (by rw [h]))
    rw [hin w' hw', hin w hw]
    exact cast_valuation (W c) e
  · exact Pipeline.withArrays_of_ne spec2 c _ _ b fun w e => hex ⟨w, e⟩

/-- Each window's buffer holds, after the launch, what the launch leaves in the window's array, -/
theorem hF2 (c : Dev nD) (w : Fin cfg2.W) : (dat2 (atRefs W) c).arrAt w cfg2.N = atRefs (after2 W) c (Pipeline.arrRef spec2 w) := by
  by_cases h : w = 6
  · subst h; exact (after2_out W c).symm
  · exact (arrAt2_in (atRefs W) c w h _).trans
      (after2_other W c _ ((by decide : ∀ w : Fin 7, w ≠ 6 → Pipeline.arrRef spec2 w ≠ main_v10) w h)).symm

/-- and every buffer that is no window's what it held at the entry. -/
theorem hrest2 (c : Dev nD) : ∀ b, b ∉ Finset.univ.image (Pipeline.arrRef spec2) → atRefs (after2 W) c b = atRefs W c b :=
  fun b hb => Pipeline.withArrays_of_ne spec2 c _ _ b fun w e => hb (Finset.mem_image.mpr ⟨w, Finset.mem_univ _, e⟩)

/-- EXIT at those contents. -/
theorem exit2_after (c : Dev nD) :
    iprop((dat2 (atRefs W) c).arrays ((dat2 (atRefs W) c).arrAt · cfg2.N) ∗ Pipeline.unscopedRest spec2 c (atRefs W c))
      ⊢ (unscopedBufs (Ix := Unit) (Name := ℕ) (U := Pipeline.UD sig nD τ) (Lvl := ℕ) c (atRefs (after2 W) c) : sProp 𝕄) :=
  exit2 (atRefs W) c _ (hF2 W c) (hrest2 W c)

end After

end Cert.KernelIdeal.R2

end
-- ==== Proof.Run.lean ====
/-
  The whole program, region after region.

  The contents of the core's unscoped buffers are followed through the program: at launch they are the memory's; a
  region replaces each of its windows' arrays by what its write-backs leave and touches nothing else; a stretch of host
  operations replaces the buffers it writes by their values. Each region is entered from the contents the item before it
  left, so the three regions' per-point obligations, each stated at its own entry contents, compose, and every execution
  of the program terminates with every unscoped buffer at the last contents of this chain. For any reading of the float
  operations.
-/
import proofs.«118833_j481036337863_2_alg».proof.Proof.Gen.KernelIdeal.Launch
import proofs.«118833_j481036337863_2_alg».proof.Proof.Gen.KernelIdeal.Skeleton
import proofs.«118833_j481036337863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«118833_j481036337863_2_alg».proof.Proof.Gen.KernelIdeal.Regions
import proofs.«118833_j481036337863_2_alg».proof.Proof.Region0
import proofs.«118833_j481036337863_2_alg».proof.Proof.Region1
import proofs.«118833_j481036337863_2_alg».proof.Proof.Region2Share

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.KernelIdeal.R0 Cert.KernelIdeal.R1 Cert.KernelIdeal.R2

variable (m : (ℓ : Loc nD τ sig) → Buf (Elt F) ℓ) (ρ : Dev nD → PrngReg)

/-! ## The buffer contents between the program's items -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the three stretches of host operations between the second and the third region. -/
def W3 (c : Dev nD) : Valuation τ sig (Elt F) := StableHlo.after hostOps2 (W2 m c)
def W4 (c : Dev nD) : Valuation τ sig (Elt F) := StableHlo.after hostOps2_1 (W3 m c)
def W5 (c : Dev nD) : Valuation τ sig (Elt F) := StableHlo.after hostOps2_2 (W4 m c)
abbrev V5 : (c : Dev nD) → (b : Ref sig .tc) → Buf (Elt F) ((c : Thread nD τ).loc b) := fun c b => W5 m c b

/-- After the third region: its result array at what the pipeline leaves, every other buffer as entered (two of its windows
    read the same array, which ends as entered). -/
abbrev W6 (c : Dev nD) : Valuation τ sig (Elt F) := after2 (W5 m) c
abbrev V6 : (c : Dev nD) → (b : Ref sig .tc) → Buf (Elt F) ((c : Thread nD τ).loc b) := fun c b => W6 m c b

/-! ## The proof data of the three pipelines, each at its region's entry contents -/

abbrev adm : (p : Fin 3) → (pcfgs (F := F) p).Adm := fun p => (cfgs p).toPCfg_adm

def pdats : (p : Fin 3) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V1 m) c
  | ⟨2, _⟩ => fun c => dat2 (V5 m) c

abbrev 𝒱₀ : Variants := Variants.none
abbrev L : GSem nD τ sig → Finset Unit := fun _ => ∅
abbrev lv : GSem nD τ sig → Unit → ℕ := fun _ _ => 0

/-- What rides beside the buffers through every item: the pseudo-random register at some state, and nothing owed. -/
abbrev R (c : Dev nD) : sProp 𝕄 := iprop((∃ r, prngReg c r) ∗ ∃ W, owes (c : Thread nD τ) (0 : CellTallies nD τ sig Unit) W)

/-- A stretch of host operations as an item: from the unscoped buffers at W to them at the stretch's result. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without what the core owes. -/
abbrev Tₙ (c : Dev nD) : sProp 𝕄 := iprop(StableHlo.held (c : Thread nD τ) (Pipeline.ucRefs τ sig) (W6 m c) ∗ ∃ r, prngReg c r)

/-! ## The regions as items -/

-- the configuration the library's statement names is the printed one once plain definitions are unfolded
set_option backward.isDefEq.respectTransparency.types false in
/-- Region 0 over the thread state: entered with every unscoped buffer at W0, left with them at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Cert.KernelIdeal.R0.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the configuration the library's statement names is the printed one once plain definitions are unfolded
set_option backward.isDefEq.respectTransparency.types false in
/-- Region 1 over the thread state: entered with every unscoped buffer at W1, left with them at W2. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Cert.KernelIdeal.R1.body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the configuration the library's statement names is the printed one once plain definitions are unfolded
set_option backward.isDefEq.respectTransparency.types false in
/-- The third region over the thread state: entered with every unscoped buffer at W5, left with them at W6. The buffer two
    of its windows share enters cut into two shares and leaves joined again. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Cert.KernelIdeal.R2.body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V5 m c)
  hentry c := by
    rw [Pipeline.ownSems0_none]
    have hsplit := entry2 (V5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2_after (W5 m) c
    rw [Pipeline.unscopedBufs_held] at hjoin
    iintro ⟨Ha, HO, HY, Hrest⟩
    imodintro
    isplitl [Ha Hrest HY]
    · isplitl [Ha Hrest]
      · ihave H := hjoin $$ [Ha Hrest]
        · isplitl [Ha]; · iexact Ha
          iexact Hrest
        iexact H
      iexact HY
    unfold Pipeline.Dat.owesAt Pipeline.owesWithin
    icases HO with ⟨%W, -, HO⟩; iexists W; iexact HO

/-! ## The program as its items, and the run -/

abbrev segs : List (Pipeline.Seg (pcfgs (F := F)) adm (pdats m) () defs₀ 𝒱₀ L lv) :=
  [ .region (reg0 m),
    .region (reg1 m),
    .host (hseg hostOps2 hostOps2_sub hostOps2_fresh (W2 m)),
    .host (hseg hostOps2_1 hostOps2_1_sub hostOps2_1_fresh (W3 m)),
    .host (hseg hostOps2_2 hostOps2_2_sub hostOps2_2_fresh (W4 m)),
    .region (reg2 m) ]

theorem main_run (c : Dev nD) : main (F := F) c = Pipeline.Seg.run (segs m) := (main_chain c).trans (by chain_rfl)

-- the statement is the launch theorem's conclusion at this program's configuration, once plain definitions are unfolded
set_option backward.isDefEq.respectTransparency.types false in
/-- Every weakly fair execution of the program from memory m with zero counters terminates, nothing faulting, and the
    final state holds every unscoped buffer of every core at the last contents of the chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Run

end
-- ==== Proof.Frame.lean ====
/-
  The argument arrays end as launched. No stretch of host operations writes an argument, and a region touches an
  argument only through an input window, whose array the pipeline leaves as it found it; so the last contents of the
  chain at an argument's buffer walk back to the launch memory.
-/
import proofs.«118833_j481036337863_2_alg».proof.Proof.Gen.KernelIdeal.Launch
import proofs.«118833_j481036337863_2_alg».proof.Proof.Gen.KernelIdeal.Skeleton
import proofs.«118833_j481036337863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«118833_j481036337863_2_alg».proof.Proof.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.KernelIdeal.R0 Cert.KernelIdeal.R1 Cert.KernelIdeal.R2

variable (m : (ℓ : Loc nD τ sig) → Buf (Elt F) ℓ) (ρ : Dev nD → PrngReg)

theorem W3_of (c : Dev nD) (b : Ref sig .tc) (h : b ∉ hostOps2_W) : W3 m c (Proc.devRef .tc b) = W2 m c (Proc.devRef .tc b) := by
  unfold W3; exact StableHlo.after_of_writes_sub hostOps2 _ hostOps2_writes h
theorem W4_of (c : Dev nD) (b : Ref sig .tc) (h : b ∉ hostOps2_1_W) : W4 m c (Proc.devRef .tc b) = W3 m c (Proc.devRef .tc b) := by
  unfold W4; exact StableHlo.after_of_writes_sub hostOps2_1 _ hostOps2_1_writes h
theorem W5_of (c : Dev nD) (b : Ref sig .tc) (h : b ∉ hostOps2_2_W) : W5 m c (Proc.devRef .tc b) = W4 m c (Proc.devRef .tc b) := by
  unfold W5; exact StableHlo.after_of_writes_sub hostOps2_2 _ hostOps2_2_writes h

/-- From the end of the chain back to the second region's exit, at a buffer neither the third region's result nor written
    by a host operation. -/
theorem walk (c : Dev nD) (b : Ref sig .tc) (h6 : b ≠ main_v10) (h5 : b ∉ hostOps2_2_W) (h4 : b ∉ hostOps2_1_W) (h3 : b ∉ hostOps2_W) :
    W6 m c (Proc.devRef .tc b) = W2 m c (Proc.devRef .tc b) :=
  (after2_other (W5 m) c b h6).trans <| (W5_of m c b h5).trans <| (W4_of m c b h4).trans (W3_of m c b h3)

theorem W6_main_arg0 (c : Dev nD) : W6 m c (Proc.devRef .tc main_arg0) = m ((c : Thread nD τ).loc main_arg0) :=
  (walk m c main_arg0 (by decide) (by decide) (by decide) (by decide)).trans <| (W2_of_ne m c main_arg0 (by decide)).trans <|
    (W1_arr m c 0).trans (((dat0 (V0 m) c).arrAt_in 0 rfl _).trans (A_eq0 (V0 m) c 0))
theorem W6_main_arg1 (c : Dev nD) : W6 m c (Proc.devRef .tc main_arg1) = m ((c : Thread nD τ).loc main_arg1) :=
  (walk m c main_arg1 (by decide) (by decide) (by decide) (by decide)).trans <| (W2_arr m c 0).trans <| (((dat1 (V1 m) c).arrAt_in 0 rfl _).trans (A_eq1 (V1 m) c 0)).trans (W1_of_ne m c main_arg1 (by decide))
theorem W6_main_arg2 (c : Dev nD) : W6 m c (Proc.devRef .tc main_arg2) = m ((c : Thread nD τ).loc main_arg2) :=
  (walk m c main_arg2 (by decide) (by decide) (by decide) (by decide)).trans <| (W2_of_ne m c main_arg2 (by decide)).trans <|
    (W1_arr m c 1).trans (((dat0 (V0 m) c).arrAt_in 1 rfl _).trans (A_eq0 (V0 m) c 1))
theorem W6_main_arg3 (c : Dev nD) : W6 m c (Proc.devRef .tc main_arg3) = m ((c : Thread nD τ).loc main_arg3) :=
  (walk m c main_arg3 (by decide) (by decide) (by decide) (by decide)).trans <| (W2_of_ne m c main_arg3 (by decide)).trans <|
    (W1_arr m c 2).trans (((dat0 (V0 m) c).arrAt_in 2 rfl _).trans (A_eq0 (V0 m) c 2))
theorem W6_main_arg4 (c : Dev nD) : W6 m c (Proc.devRef .tc main_arg4) = m ((c : Thread nD τ).loc main_arg4) :=
  (walk m c main_arg4 (by decide) (by decide) (by decide) (by decide)).trans <| (W2_of_ne m c main_arg4 (by decide)).trans <|
    (W1_arr m c 3).trans (((dat0 (V0 m) c).arrAt_in 3 rfl _).trans (A_eq0 (V0 m) c 3))
theorem W6_main_arg5 (c : Dev nD) : W6 m c (Proc.devRef .tc main_arg5) = m ((c : Thread nD τ).loc main_arg5) :=
  (walk m c main_arg5 (by decide) (by decide) (by decide) (by decide)).trans <| (W2_of_ne m c main_arg5 (by decide)).trans (W1_of_ne m c main_arg5 (by decide))
theorem W6_main_arg6 (c : Dev nD) : W6 m c (Proc.devRef .tc main_arg6) = m ((c : Thread nD τ).loc main_arg6) :=
  (walk m c main_arg6 (by decide) (by decide) (by decide) (by decide)).trans <| (W2_of_ne m c main_arg6 (by decide)).trans (W1_of_ne m c main_arg6 (by decide))

/-- The frame: every execution terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

end Cert.KernelIdeal.Run

end
-- ==== Proof.RunOut.lean ====
/-
  The run of the idealized kernel with its result named: every execution terminates with the result array at the last
  contents of the chain and each argument array as launched.
-/
import proofs.«118833_j481036337863_2_alg».proof.Proof.Gen.KernelIdeal.Launch
import proofs.«118833_j481036337863_2_alg».proof.Proof.Gen.KernelIdeal.Skeleton
import proofs.«118833_j481036337863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«118833_j481036337863_2_alg».proof.Proof.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The result array at the end of the chain. -/
abbrev result (c : Dev nD) : Buf (Elt F) ((c.tc : Thread nD τ).loc main_v10) := W6 m c (Proc.devRef .tc main_v10)

theorem run_out : θ_run defs (onTc (τ := τ) (main (F := F))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v10 (by decide)),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

end Cert.KernelIdeal.Run

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«118833_j481036337863_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.LibMatmulLastAxes.lean ====
/-
  A matrix product that contracts the LAST axis of both operands, read at an entry, at the ideal values.

  The tiled kernels' product of an [M, K] block of activations with an [N, K] block of weights (one weight row per
  output feature: the right operand is NOT transposed first; the dimension numbers contract axis 1 of both) into a
  zero accumulator is, at entry (r, c), the plain sum over d of  l[r, d] · w[c, d]:  at the ideal values no rounding,
  no chunk order and no accumulator are left.  Stated for every M, K, N over the library's record of these dimension
  numbers; a printed record of the same seven lists is that record by definitional unfolding (its well-formedness field
  is a proof).
-/
import Idealize.ShloMosaic.PureOps.Ideal.Laws
import Idealize.ShloMosaic.Lib.ValueIdx

open scoped BigOperators

namespace Cert.LibMatmulLastAxes

open Idealize.ShloMosaic Idealize.ShloMosaic.ValueIdx

/-- A matrix product contracting the last axis of both operands, into the zero accumulator, at (r, c): the sum over
    d of l[r, d] · w[c, d]. -/
theorem matmul_lastAxes_zero_apply {M K N : Nat} {φ₁ φ₂ : FTy} (prec : Option ContractPrecision)
    (l : FVec Ideal ⟨2, ![M, K]⟩ φ₁) (w : FVec Ideal ⟨2, ![N, K]⟩ φ₂) (r : Fin M) (c : Fin N) :
    FloatOps.matmul (DotDims.transposedRhs M K N) prec l w (constant ⟨2, ![M, N]⟩ .f32 0x00000000#32) (ix2 r c)
      = ∑ d : Fin K, l (ix2 r d) * w (ix2 c d) := by
  rw [Ideal.matmul_constant_zero_apply]
  have hr : (DotDims.transposedRhs M K N).contr.rank = 1 := rfl
  have hs : (DotDims.transposedRhs M K N).contr.size ⟨0, by omega⟩ = K := rfl
  rw [← Equiv.sum_comp (contrEquiv1 (DotDims.transposedRhs M K N) K hr hs).symm]
  refine Finset.sum_congr rfl fun d _ => ?_
  have hd := contrEquiv1_symm_val (DotDims.transposedRhs M K N) K hr hs d
  congr 1
  · refine congrArg l (funext fun a => Fin.ext ?_)
    match a with
    | ⟨0, _⟩ => rfl
    | ⟨1, _⟩ => exact ((DotDims.transposedRhs M K N).lhsIdx_val_of_single rfl _ _).trans hd
  · refine congrArg w (funext fun a => Fin.ext ?_)
    match a with
    | ⟨0, _⟩ => rfl
    | ⟨1, _⟩ => exact ((DotDims.transposedRhs M K N).rhsIdx_val_of_single rfl _ _).trans hd

end Cert.LibMatmulLastAxes
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.Spec.lean ====
/-
  What both programs compute, as one function of the seven argument arrays, entry by entry, over the extended reals.

  Rows n ∈ [0, 8192) are graph nodes, d ∈ [0, 128) latent features, k ∈ [0, 512) decoder features.
    hatt  n k = max (Σ_d x n d · w1 k d) 0                      the attention layer's hidden activations
    logit n d = Σ_k hatt n k · w2 d k                           its scores
    score n d = exp (logit n d − M n) / Σ_d' exp (logit n d' − M n),  M n the row's maximum (taken from −∞)
    cond  n d = x n d · score n d                               the gated features
    supp  n k = Σ_d cond n d · wg d k                           the graph layer's support
    hid   n k = max (Σ_j adj n j · supp j k) 0                  the graph layer's output
    z     n k = (hid n k − mean k) · rsqrt (var k + ε) · γ k + β k,   mean and var any two column statistics of hid
    out   a b = Σ_k z a k · z b k                               the inner-product decoder
  The column statistics enter as parameters: both programs compute them by the same operations from hid, so the
  equality of the two results needs only that they are the same function of hid.
  Float literals stay the words the programs print; none is evaluated here.
-/
import Idealize.ShloMosaic.PureOps.Ideal

noncomputable section

namespace Cert.Spec

open Idealize.ShloMosaic

/-- An array of two axes over the extended reals. -/
abbrev Mat (a b : Nat) : Type := Fin a → Fin b → EReal

/-- The word of −∞, the word of 0 and the word of the batch-norm ε, as the extended reals they denote. -/
def negInf : EReal := Ideal.ofBits .f32 0xFF800000#32
def eps : EReal := Ideal.ofBits .f32 0x3727C5AC#32

/-- A row's maximum as both programs take it: the fold of max from −∞, then max with −∞ once more. -/
def rowMax {n : Nat} (f : Fin n → EReal) : EReal := max negInf ((Finset.univ : Finset (Fin n)).fold max negInf f)

def hatt (x : Mat 8192 128) (w1 : Mat 512 128) : Mat 8192 512 := fun n k => max (∑ d : Fin 128, x n d * w1 k d) 0

def logit (h : Mat 8192 512) (w2 : Mat 128 512) : Mat 8192 128 := fun n d => ∑ k : Fin 512, h n k * w2 d k

/-- The exponentials of a row shifted by its maximum. -/
def expRow (l : Mat 8192 128) : Mat 8192 128 := fun n d => Ideal.exp (l n d - rowMax (l n))

def score (l : Mat 8192 128) : Mat 8192 128 := fun n d => Ideal.div (expRow l n d) (∑ d' : Fin 128, expRow l n d')

def cond (x : Mat 8192 128) (s : Mat 8192 128) : Mat 8192 128 := fun n d => x n d * s n d

def supp (c : Mat 8192 128) (wg : Mat 128 512) : Mat 8192 512 := fun n k => ∑ d : Fin 128, c n d * wg d k

/-- The support as a function of the arguments. -/
def support (x : Mat 8192 128) (w1 : Mat 512 128) (w2 wg : Mat 128 512) : Mat 8192 512 :=
  supp (cond x (score (logit (hatt x w1) w2))) wg

def hid (adj : Mat 8192 8192) (s : Mat 8192 512) : Mat 8192 512 := fun n k => max (∑ j : Fin 8192, adj n j * s j k) 0

def znorm (h : Mat 8192 512) (mean var gamma beta : Fin 512 → EReal) : Mat 8192 512 :=
  fun n k => (h n k - mean k) * Ideal.rsqrt (var k + eps) * gamma k + beta k

def gram (z : Mat 8192 512) : Mat 8192 8192 := fun a b => ∑ k : Fin 512, z a k * z b k

end Cert.Spec

end
-- ==== Proof.SpecRow.lean ====
/-
  The support, row by row: entry (n, k) of the support depends on x only through its row n, so a block of rows of the
  support is computed from the same rows of x and the whole weight arrays.
-/
import proofs.«118833_j481036337863_2_alg».proof.Proof.Spec

noncomputable section

namespace Cert.Spec

open Idealize.ShloMosaic

/-- The hidden activations of one row of x. -/
def hattRow (xr : Fin 128 → EReal) (w1 : Mat 512 128) : Fin 512 → EReal := fun k => max (∑ d : Fin 128, xr d * w1 k d) 0

/-- The scores of one row of hidden activations. -/
def logitRow (hr : Fin 512 → EReal) (w2 : Mat 128 512) : Fin 128 → EReal := fun d => ∑ k : Fin 512, hr k * w2 d k

/-- The exponentials of a row shifted by its maximum, and the row's softmax. -/
def expOfRow (l : Fin 128 → EReal) : Fin 128 → EReal := fun d => Ideal.exp (l d - rowMax l)
def scoreRow (l : Fin 128 → EReal) : Fin 128 → EReal := fun d => Ideal.div (expOfRow l d) (∑ d' : Fin 128, expOfRow l d')

/-- One row of the support from one row of x. -/
def supportRow (xr : Fin 128 → EReal) (w1 : Mat 512 128) (w2 wg : Mat 128 512) : Fin 512 → EReal :=
  fun k => ∑ d : Fin 128, (xr d * scoreRow (logitRow (hattRow xr w1) w2) d) * wg d k

theorem support_row (x : Mat 8192 128) (w1 : Mat 512 128) (w2 wg : Mat 128 512) (n : Fin 8192) (k : Fin 512) :
    support x w1 w2 wg n k = supportRow (x n) w1 w2 wg k := rfl

end Cert.Spec

end
-- ==== Proof.Region0Pay.lean ====
/-
  The support block at an entry. Row p of the block the first region's body stores is the support of row p of the block
  of x it loaded: the three matrix products are sums over the contracted coordinate, the row maximum a fold of max from −∞,
  the normaliser a sum over the row, the casts between formats the identity on extended reals.
-/
import proofs.«118833_j481036337863_2_alg».proof.Proof.Gen.KernelIdeal.Skeleton
import proofs.«118833_j481036337863_2_alg».proof.Proof.LibMatmulRead
import proofs.«118833_j481036337863_2_alg».proof.Proof.LibMatmulLastAxes
import proofs.«118833_j481036337863_2_alg».proof.Proof.LibKeepdims
import proofs.«118833_j481036337863_2_alg».proof.Proof.SpecRow
import Idealize.ShloMosaic.Lib.ValueIdx
import Idealize.ShloMosaic.Lib.Pipeline.Value
import Idealize.ShloMosaic.PureOps.Ideal.Laws

noncomputable section

namespace Cert.KernelIdeal.R0V

open Cert.KernelIdeal Cert.KernelIdeal.Gen Idealize.ShloMosaic Idealize.ShloMosaic.ValueIdx

/-! ## Each operation that is not entrywise, read at an entry -/

/-- x · w1ᵀ, both operands contracted on their last axis. -/
theorem mmA (l : FVec Ideal S1024x128 .bf16) (w : FVec Ideal S512x128 .bf16) (p : Fin 1024) (k : Fin 512) :
    matmul dot_S1024x128_S512x128_S1024x512_1_1_0_0_n_n none l w (constant S1024x512 .f32 0x00000000#32) (ix2 p k)
      = ∑ d : Fin 128, l (ix2 p d) * w (ix2 k d) :=
  Cert.LibMatmulLastAxes.matmul_lastAxes_zero_apply none l w p k

/-- h · w2ᵀ likewise. -/
theorem mmB (l : FVec Ideal S1024x512 .bf16) (w : FVec Ideal S128x512 .bf16) (p : Fin 1024) (d : Fin 128) :
    matmul dot_S1024x512_S128x512_S1024x128_1_1_0_0_n_n none l w (constant S1024x128 .f32 0x00000000#32) (ix2 p d)
      = ∑ k : Fin 512, l (ix2 p k) * w (ix2 d k) :=
  Cert.LibMatmulLastAxes.matmul_lastAxes_zero_apply none l w p d

/-- cond · wg, the plain product. -/
theorem mmC (l : FVec Ideal S1024x128 .bf16) (w : FVec Ideal S128x512 .bf16) (p : Fin 1024) (k : Fin 512) :
    matmul dot_S1024x128_S128x512_S1024x512_1_0_0_1_n_n none l w (constant S1024x512 .f32 0x00000000#32) (ix2 p k)
      = ∑ d : Fin 128, l (ix2 p d) * w (ix2 d k) :=
  Cert.GCN.matmul_plain_zero_apply none l w p k

/-- A row's maximum: the fold of max from −∞ over the row. -/
theorem rowMaxRead (src : FVec Ideal S1024x128 .f32) (h : S1024x128.Reduces [1] S1024) (hφ : FKind.Formats FTy.f32)
    (hacc : (0xFF800000#32 : BitVec 32) = 0xFF800000#32) (p : Fin 1024) :
    multiReduction .maximumf [1] S1024 src 0xFF800000#32 h hφ hacc (ix1 p)
      = (Finset.univ : Finset (Fin 128)).fold max (Ideal.ofBits .f32 0xFF800000#32) (fun d => src (ix2 p d)) := by
  refine (Ideal.multiReduction_maximumf_single src 0xFF800000#32 h hφ hacc (ix1 p)).trans ?_
  rw [Ideal.ofBits_def]
  refine congrArg (fun f => (Finset.univ : Finset (Fin 128)).fold max (Ideal.ofBits .f32 0xFF800000#32) f) (funext fun d => congrArg src ?_)
  exact funext fun a => Fin.ext (by match a with | ⟨0, _⟩ => rfl | ⟨1, _⟩ => rfl)

/-- A row's sum. -/
theorem rowSumRead (src : FVec Ideal S1024x128 .f32) (h : S1024x128.Reduces [1] S1024) (hφ : FKind.Formats FTy.f32)
    (hacc : (0x00000000#32 : BitVec 32) = 0x00000000#32) (p : Fin 1024) :
    multiReduction .add [1] S1024 src 0x00000000#32 h hφ hacc (ix1 p) = ∑ d : Fin 128, src (ix2 p d) := by
  refine (Ideal.multiReduction_add_single src 0x00000000#32 h hφ hacc (ix1 p)).trans ?_
  refine Finset.sum_congr rfl fun d _ => congrArg src ?_
  exact funext fun a => Fin.ext (by match a with | ⟨0, _⟩ => rfl | ⟨1, _⟩ => rfl)

/-- A per-row value viewed as a column and spread along the row reads, at (p, d), the value of row p. -/
theorem keepRead (x : FVec Ideal S1024 .f32) (h1) (h2) (p : Fin 1024) (d : Fin 128) :
    broadcastTo S1024x128 (shapeCast S1024x1 x h1) h2 (ix2 p d) = x (ix1 p) :=
  Cert.LibKeepdims.keepdims_apply x h1 h2 p d

/-- The exponential is entrywise. -/
theorem expRead {s : Shape} (x : FVec Ideal s .f32) (i : s.Idx) : exp x i = Ideal.exp (x i) := rfl

/-! ## The block -/

/-- Entry (p, q) of the stored block is entry q of the support of row p of the loaded block of x. -/
theorem pay0_apply (x0 : Vec Ideal S1024x128 .f32) (x1 : Vec Ideal S512x128 .f32) (x2 x3 : Vec Ideal S128x512 .f32) (p : Fin 1024) (q : Fin 512) :
    k0_pay1 (F := Ideal) x0 x1 x2 x3 (ix2 p q)
      = Cert.Spec.supportRow (fun d => x0 (ix2 p d)) (fun k d => x1 (ix2 k d)) (fun d k => x2 (ix2 d k)) (fun d k => x3 (ix2 d k)) q := by
  unfold k0_pay1
  simp only [truncf_apply, mmA, mmB, mmC, mulf_apply, divf_apply, subf_apply, maximumf_apply, expRead, keepRead, broadcast_apply, Ideal.ofBits_def]
  rw [rowMaxRead, rowSumRead]
  simp only [truncf_apply, mmA, mmB, mmC, mulf_apply, divf_apply, subf_apply, maximumf_apply, expRead, keepRead, broadcast_apply, Ideal.ofBits_def]
  rw [rowMaxRead]
  simp only [truncf_apply, mmA, mmB, mmC, mulf_apply, divf_apply, subf_apply, maximumf_apply, expRead, keepRead, broadcast_apply, Ideal.ofBits_def,
    Ideal.ofBits_zero_f32]
  rfl

end Cert.KernelIdeal.R0V

end
-- ==== Proof.RefReadBasic.lean ====
/-
  Readers: an array of two axes over the extended reals as the matrix of its entries, one of one axis as the vector of
  its entries, the coordinates put into an index by position.
-/
import proofs.«118833_j481036337863_2_alg».proof.Proof.Spec
import Idealize.ShloMosaic.Lib.ValueIdx

noncomputable section

namespace Cert.Spec

open Idealize.ShloMosaic Idealize.ShloMosaic.ValueIdx

/-- The matrix of a rank-2 array's entries. -/
def mat {a b : Nat} (v : (⟨2, ![a, b]⟩ : Shape).Idx → EReal) : Mat a b := fun p q => v (ix2 p q)

/-- The vector of a rank-1 array's entries. -/
def vec {a : Nat} (v : (⟨1, ![a]⟩ : Shape).Idx → EReal) : Fin a → EReal := fun p => v (ix1 p)

theorem mat_apply {a b : Nat} (v : (⟨2, ![a, b]⟩ : Shape).Idx → EReal) (p : Fin a) (q : Fin b) : mat v p q = v (ix2 p q) := rfl
theorem vec_apply {a : Nat} (v : (⟨1, ![a]⟩ : Shape).Idx → EReal) (p : Fin a) : vec v p = v (ix1 p) := rfl

end Cert.Spec

end
-- ==== Proof.Region0Value.lean ====
/-
  The support array after the first region. Grid point t writes back rows [1024 t, 1024 t + 1024) of the support: the
  block its body stored is, row by row, the support of the same rows of x (the weight windows are the whole weight
  arrays at every point). The eight blocks tile the array, so the array ends holding the support of the arguments.
-/
import proofs.«118833_j481036337863_2_alg».proof.Proof.Region0
import proofs.«118833_j481036337863_2_alg».proof.Proof.Region0Pay
import proofs.«118833_j481036337863_2_alg».proof.Proof.RefReadBasic
import Idealize.ShloMosaic.Lib.Pipeline.Value
import Idealize.ShloMosaic.Lib.Tactic

set_option maxRecDepth 16384

noncomputable section

namespace Cert.KernelIdeal.R0V

open Cert.KernelIdeal Cert.KernelIdeal.Gen Cert.KernelIdeal.R0
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The four argument arrays as matrices. -/
abbrev xM (c : Dev nD) : Cert.Spec.Mat 8192 128 := fun a b => V c main_arg0 (ix2 a b)
abbrev w1M (c : Dev nD) : Cert.Spec.Mat 512 128 := fun a b => V c main_arg2 (ix2 a b)
abbrev w2M (c : Dev nD) : Cert.Spec.Mat 128 512 := fun a b => V c main_arg3 (ix2 a b)
abbrev wgM (c : Dev nD) : Cert.Spec.Mat 128 512 := fun a b => V c main_arg4 (ix2 a b)

/-- The support of the arguments, as the array the region's output window names. -/
def supArr (c : Dev nD) : Buf (Elt Ideal) ((c : Thread nD τ).loc main_v0) :=
  fun (i : S8192x512.Idx) => Cert.Spec.support (xM V c) (w1M V c) (w2M V c) (wgM V c) ⟨(i 0).val, (i 0).isLt⟩ ⟨(i 1).val, (i 1).isLt⟩

/-- The printed index maps over the grid: the x window and the output window move by whole blocks of rows with the point,
    the weight windows stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the x block at point t is row 1024 t + p of x. -/
theorem xblk_apply (c : Dev nD) (t : Fin cfg0.N) (p : Fin 1024) (d : Fin 128) (n : Fin 8192) (hn : n.val = 1024 * t.val + p.val) :
    (iblk0 V c 0 t : Vec Ideal S1024x128 .f32) (ix2 p d) = xM V c n d := by
  obtain ⟨e0, e1, -⟩ := idx_facts t
  show V c main_arg0 (((cfg0.win 0).blk t).view.emb (ix2 p d)) = V c main_arg0 (ix2 n d)
  refine congrArg (V c main_arg0) (funext fun a => Fin.ext ?_)
  match a with
  | ⟨0, _⟩ => show win0_0.index t (0 : Fin 2) * 1024 + 1 * p.val = n.val; omega
  | ⟨1, _⟩ => show win0_0.index t (1 : Fin 2) * 128 + 1 * d.val = d.val; omega

/-- The weight windows' blocks are the weight arrays. -/
theorem w1blk_apply (c : Dev nD) (t : Fin cfg0.N) (k : Fin 512) (d : Fin 128) :
    (iblk0 V c 1 t : Vec Ideal S512x128 .f32) (ix2 k d) = w1M V c k d := by
  obtain ⟨-, -, e0, e1, -⟩ := idx_facts t
  show V c main_arg2 (((cfg0.win 1).blk t).view.emb (ix2 k d)) = V c main_arg2 (ix2 k d)
  refine congrArg (V c main_arg2) (funext fun a => Fin.ext ?_)
  match a with
  | ⟨0, _⟩ => show win0_1.index t (0 : Fin 2) * 512 + 1 * k.val = k.val; omega
  | ⟨1, _⟩ => show win0_1.index t (1 : Fin 2) * 128 + 1 * d.val = d.val; omega
theorem w2blk_apply (c : Dev nD) (t : Fin cfg0.N) (d : Fin 128) (k : Fin 512) :
    (iblk0 V c 2 t : Vec Ideal S128x512 .f32) (ix2 d k) = w2M V c d k := by
  obtain ⟨-, -, -, -, e0, e1, -⟩ := idx_facts t
  show V c main_arg3 (((cfg0.win 2).blk t).view.emb (ix2 d k)) = V c main_arg3 (ix2 d k)
  refine congrArg (V c main_arg3) (funext fun a => Fin.ext ?_)
  match a with
  | ⟨0, _⟩ => show win0_2.index t (0 : Fin 2) * 128 + 1 * d.val = d.val; omega
  | ⟨1, _⟩ => show win0_2.index t (1 : Fin 2) * 512 + 1 * k.val = k.val; omega
theorem wgblk_apply (c : Dev nD) (t : Fin cfg0.N) (d : Fin 128) (k : Fin 512) :
    (iblk0 V c 3 t : Vec Ideal S128x512 .f32) (ix2 d k) = wgM V c d k := by
  obtain ⟨-, -, -, -, -, -, e0, e1, -⟩ := idx_facts t
  show V c main_arg4 (((cfg0.win 3).blk t).view.emb (ix2 d k)) = V c main_arg4 (ix2 d k)
  refine congrArg (V c main_arg4) (funext fun a => Fin.ext ?_)
  match a with
  | ⟨0, _⟩ => show win0_3.index t (0 : Fin 2) * 128 + 1 * d.val = d.val; omega
  | ⟨1, _⟩ => show win0_3.index t (1 : Fin 2) * 512 + 1 * k.val = k.val; omega

/-- What point t writes back is block t of the support of the arguments. -/
theorem flushed0 (c : Dev nD) (t : Fin cfg0.N) :
    (dat0 V c).flushed 4 t = ((cfg0.win 4).blk t).view.read (Elt Ideal) (supArr V c) := by
  show (cfg0.win 4).cut (grid0.coords t) ((dat0 V c).after 4 t) = _
  rw [after0_4]
  unfold out0_4
  rw [View.canon_unit_zero hz]
  simp only [View.ld_unit_zero (S := S1024x128) hz, View.ld_unit_zero (S := S512x128) hz, View.ld_unit_zero (S := S128x512) hz]
  funext j
  obtain ⟨p, q, rfl⟩ : ∃ (p : Fin 1024) (q : Fin 512), j = ix2 p q := ⟨j 0, j 1, eq_ix2 j⟩
  obtain ⟨-, -, -, -, -, -, -, -, e0, e1⟩ := idx_facts t
  refine (pay0_apply _ _ _ _ p q).trans ?_
  have key : ∀ (n : Fin 8192) (k : Fin 512), n.val = 1024 * t.val + p.val → k = q →
      Cert.Spec.supportRow (fun d => (iblk0 V c 0 t : Vec Ideal S1024x128 .f32) (ix2 p d)) (fun k d => (iblk0 V c 1 t : Vec Ideal S512x128 .f32) (ix2 k d))
        (fun d k => (iblk0 V c 2 t : Vec Ideal S128x512 .f32) (ix2 d k)) (fun d k => (iblk0 V c 3 t : Vec Ideal S128x512 .f32) (ix2 d k)) q
        = Cert.Spec.support (xM V c) (w1M V c) (w2M V c) (wgM V c) n k := by
    intro n k hn hk
    subst hk
    refine Eq.trans ?_ (Cert.Spec.support_row (xM V c) (w1M V c) (w2M V c) (wgM V c) n k).symm
    refine congrArg (fun f : Fin 512 → EReal => f k) ?_
    refine congr (congr (congr (congrArg Cert.Spec.supportRow (funext fun d => ?_)) (funext fun k' => funext fun d => ?_))
      (funext fun d => funext fun k' => ?_)) (funext fun d => funext fun k' => ?_)
    · exact xblk_apply V c t p d n hn
    · exact w1blk_apply V c t k' d
    · exact w2blk_apply V c t d k'
    · exact wgblk_apply V c t d k'
  refine key ⟨_, _⟩ ⟨_, _⟩ ?_ (Fin.ext ?_)
  · show win0_4.index t (0 : Fin 2) * 1024 + 1 * p.val = 1024 * t.val + p.val; omega
  · show win0_4.index t (1 : Fin 2) * 512 + 1 * q.val = q.val; omega

/-- Every entry of the support array is in the block of the point its row falls in. -/
theorem cover0 (i : S8192x512.Idx) : ∃ t : Fin cfg0.N, (cfg0.win 4).flush t = true ∧ i ∈ ((cfg0.win 4).blk t).view.set := by
  have hi0 : (i 0).val < 8192 := (i 0).isLt
  have hi1 : (i 1).val < 512 := (i 1).isLt
  have hlt : (i 0).val / 1024 < cfg0.N := by show (i 0).val / 1024 < grid0.N; rw [N_0]; omega
  obtain ⟨t, ht⟩ : ∃ t : Fin cfg0.N, t.val = (i 0).val / 1024 := ⟨⟨_, hlt⟩, rfl⟩
  refine ⟨t, flush0_4 t, ?_⟩
  obtain ⟨-, -, -, -, -, -, -, -, e0, e1⟩ := idx_facts t
  show i ∈ ((View.whole main_v0).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 512 ≤ (i 1).val ∧ (i 1).val < win0_4.index t (1 : Fin 2) * 512 + 512
    omega

/-- The support array after the region. -/
theorem final0_arr (c : Dev nD) : (dat0 V c).arrAt 4 cfg0.N = supArr V c :=
  (dat0 V c).arrAt_eq_of_cover 4 (supArr V c) (fun t _ => flushed0 V c t) (cover0)

theorem final0 (c : Dev nD) (n : Fin 8192) (k : Fin 512) :
    (dat0 V c).arrAt 4 cfg0.N (ix2 n k) = Cert.Spec.support (xM V c) (w1M V c) (w2M V c) (wgM V c) n k := by
  rw [final0_arr]; rfl

end Cert.KernelIdeal.R0V

end
-- ==== Proof.Region1ValuePieces.lean ====
/-
  The second launch (h = relu (adj · support)), read as values: what each control case leaves in the output
  window's staging buffer, as the body's own arithmetic of the blocks it loaded, and which entries of the arrays
  those blocks are.

  Point t works on rows 1024·(t / 8) … of adj and of the output, and on columns 1024·(t % 8) … of adj, which are
  rows 1024·(t % 8) … of support.  Everything here holds for any reading of the floats.
-/
import proofs.«118833_j481036337863_2_alg».proof.Proof.Region1
import Idealize.ShloMosaic.Lib.Pipeline.Value
import Idealize.ShloMosaic.Lib.ValueIdx
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

variable {F : FTy → Type} [FloatOps F]

theorem hz : (![0, 0] : Fin 2 → Nat) = fun _ => 0 := funext fun a => by fin_cases a <;> rfl

/-! ## What each case leaves, as the body's arithmetic of its loads -/

/-- A middle column block: the buffer holding `xo` ends holding `xo + x0 · x1` (the one store covers it, and
    its loads read the whole buffers). -/
theorem out_B (c : Dev nD) (i : grid1.Coords) (a2 : Memref sig .tc .vmem S1024x1024 .f32) (h2 : a2.IsWhole) (a3 : Memref sig .tc .vmem S1024x512 .bf16) (h3 : a3.IsWhole) (a4 : Memref sig .tc .vmem S1024x512 .f32) (h4 : a4.IsWhole)
    (hc0 : ¬cond1_0 i) (hc1 : ¬cond1_1 i) (x0 : Vec F S1024x1024 .f32) (x1 : Vec F S1024x512 .bf16) (xo : Vec F S1024x512 .f32) :
    out1_B_2 c i a2 h2 a3 h3 a4 h4 hc0 hc1 x0 x1 xo = k1_pay2 x0 x1 xo := by
  unfold out1_B_2
  rw [View.read_writes_eq_canon _ _ _ (cover1_B_2 c i a2 h2 a3 h3 a4 h4 hc0 hc1 x0 x1 xo)]
  unfold kernelRun1_B
  dsimp only
  rw [View.canon_unit_zero hz]
  simp only [View.readAt_eq_ld, h2.read_unread, h3.read_unread, h4.read_unread, View.ld_unit_zero (S := S1024x1024) hz,
    View.ld_unit_zero (S := S1024x512) hz]

/-- The first column block: the zero block is stored, read back, and the buffer ends holding `0 + x0 · x1`. -/
theorem out_A (c : Dev nD) (i : grid1.Coords) (a2 : Memref sig .tc .vmem S1024x1024 .f32) (h2 : a2.IsWhole) (a3 : Memref sig .tc .vmem S1024x512 .bf16) (h3 : a3.IsWhole) (a4 : Memref sig .tc .vmem S1024x512 .f32) (h4 : a4.IsWhole)
    (hc0 : cond1_0 i) (hc1 : ¬cond1_1 i) (x0 : Vec F S1024x1024 .f32) (x1 : Vec F S1024x512 .bf16) :
    out1_A_2 c i a2 h2 a3 h3 a4 h4 hc0 hc1 x0 x1 = k1_pay2 x0 x1 (k1_pay1 (F := F)) := by
  unfold out1_A_2
  rw [View.read_writes_eq_canon _ _ _ (cover1_A_2 c i a2 h2 a3 h3 a4 h4 hc0 hc1 x0 x1)]
  unfold kernelRun1_A
  dsimp only
  sl_unfold_words
  rw [View.canon_cons_unit_zero (S := S1024x512) hz, View.readCov_unit_zero (S := S1024x512) _ hz]
  simp only [View.readAt_eq_ld, h2.read_unread, h3.read_unread, View.ld_unit_zero (S := S1024x1024) hz,
    View.ld_unit_zero (S := S1024x512) hz]

/-- The last column block: `xo + x0 · x1` is stored, read back, and the buffer ends holding its maximum with 0. -/
theorem out_C (c : Dev nD) (i : grid1.Coords) (a2 : Memref sig .tc .vmem S1024x1024 .f32) (h2 : a2.IsWhole) (a3 : Memref sig .tc .vmem S1024x512 .bf16) (h3 : a3.IsWhole) (a4 : Memref sig .tc .vmem S1024x512 .f32) (h4 : a4.IsWhole)
    (hc0 : ¬cond1_0 i) (hc1 : cond1_1 i) (x0 : Vec F S1024x1024 .f32) (x1 : Vec F S1024x512 .bf16) (xo : Vec F S1024x512 .f32) :
    out1_C_2 c i a2 h2 a3 h3 a4 h4 hc0 hc1 x0 x1 xo = k1_pay3 (k1_pay2 x0 x1 xo) := by
  unfold out1_C_2
  rw [View.read_writes_eq_canon _ _ _ (cover1_C_2 c i a2 h2 a3 h3 a4 h4 hc0 hc1 x0 x1 xo)]
  unfold kernelRun1_C
  dsimp only
  sl_unfold_words
  rw [View.canon_cons_unit_zero (S := S1024x512) hz, View.readCov_unit_zero (S := S1024x512) _ hz]
  simp only [View.readAt_eq_ld, h2.read_unread, h3.read_unread, h4.read_unread, View.ld_unit_zero (S := S1024x1024) hz,
    View.ld_unit_zero (S := S1024x512) hz]

section
variable (V : (c : Dev nD) → (b : Ref sig .tc) → Buf (Elt F) ((c : Thread nD τ).loc b))

/-! ## The same at a grid point -/

theorem outA_eq (c : Dev nD) (t : Fin cfg1.N) (h0 : t.val % 8 = 0) :
    outA V c t h0 = k1_pay2 (iblk1 V c 0 t) (iblk1 V c 1 t) (k1_pay1 (F := F)) :=
  out_A c (grid1.coords t) (ms1_0 t) (hs1_0 t) (ms1_1 t) (hs1_1 t) (ms1_2 t) (hs1_2 t) (c0_of t h0) (not_c1_of_first t h0)
    (iblk1 V c 0 t) (iblk1 V c 1 t)

theorem outB_eq (c : Dev nD) (t : Fin cfg1.N) (h0 : ¬t.val % 8 = 0) (h1 : ¬t.val % 8 = 7) (xo : Vec F S1024x512 .f32) :
    outB V c t h0 h1 xo = k1_pay2 (iblk1 V c 0 t) (iblk1 V c 1 t) xo :=
  out_B c (grid1.coords t) (ms1_0 t) (hs1_0 t) (ms1_1 t) (hs1_1 t) (ms1_2 t) (hs1_2 t) (not_c0_of t h0) (not_c1_of t h1)
    (iblk1 V c 0 t) (iblk1 V c 1 t) xo

theorem outC_eq (c : Dev nD) (t : Fin cfg1.N) (h0 : ¬t.val % 8 = 0) (h1 : t.val % 8 = 7) (xo : Vec F S1024x512 .f32) :
    outC V c t h0 h1 xo = k1_pay3 (k1_pay2 (iblk1 V c 0 t) (iblk1 V c 1 t) xo) :=
  out_C c (grid1.coords t) (ms1_0 t) (hs1_0 t) (ms1_1 t) (hs1_1 t) (ms1_2 t) (hs1_2 t) (not_c0_of t h0) (c1_of t h1)
    (iblk1 V c 0 t) (iblk1 V c 1 t) xo

/-! ## Which entries the blocks are -/

/-- The three windows' block indices at point `t`: adj's block is (t / 8, t % 8), support's (t % 8, 0), the
    output's (t / 8, 0). -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- Entry (r, l) of adj's block at point `t` is entry (1024·(t / 8) + r, 1024·(t % 8) + l) of adj. -/
theorem adjBlock_apply (c : Dev nD) (t : Fin cfg1.N) (r l : Fin 1024) (R L : Fin 8192)
    (hR : R.val = 1024 * (t.val / 8) + r.val) (hL : L.val = 1024 * (t.val % 8) + l.val) :
    (iblk1 V c 0 t : Vec F S1024x1024 .f32) (ix2 r l) = V c main_arg1 (ix2 R L) := by
  obtain ⟨e0, e1, -⟩ := idx_facts1 t
  unfold iblk1
  rw [View.read_apply]
  show V c main_arg1 (((cfg1.win 0).blk t).view.emb (ix2 r l)) = V c main_arg1 (ix2 R L)
  refine congrArg (V c main_arg1) (funext fun a => Fin.ext ?_)
  match a with
  | ⟨0, _⟩ => show win1_0.index t (0 : Fin 2) * 1024 + 1 * r.val = R.val; omega
  | ⟨1, _⟩ => show win1_0.index t (1 : Fin 2) * 1024 + 1 * l.val = L.val; omega

/-- Entry (l, q) of support's block at point `t` is entry (1024·(t % 8) + l, q) of support. -/
theorem supportBlock_apply (c : Dev nD) (t : Fin cfg1.N) (l : Fin 1024) (q : Fin 512) (L : Fin 8192)
    (hL : L.val = 1024 * (t.val % 8) + l.val) :
    (iblk1 V c 1 t : Vec F S1024x512 .bf16) (ix2 l q) = V c main_v0 (ix2 L q) := by
  obtain ⟨-, -, e2, e3, -⟩ := idx_facts1 t
  unfold iblk1
  rw [View.read_apply]
  show V c main_v0 (((cfg1.win 1).blk t).view.emb (ix2 l q)) = V c main_v0 (ix2 L q)
  refine congrArg (V c main_v0) (funext fun a => Fin.ext ?_)
  match a with
  | ⟨0, _⟩ => show win1_1.index t (0 : Fin 2) * 1024 + 1 * l.val = L.val; omega
  | ⟨1, _⟩ => show win1_1.index t (1 : Fin 2) * 512 + 1 * q.val = q.val; omega

end

end Cert.KernelIdeal.R1

end
-- ==== Proof.LibChunkSum.lean ====
/-
  A sum over a range cut into equal chunks.

  A sum over the n = a · b positions of a range is the sum, over its a chunks of b consecutive positions, of the
  chunks' sums; and adding the chunks' sums one after the other starting from zero gives the sum of all of them.
  Both hold in any additive commutative monoid: nothing is cancelled or distributed, so in the extended reals
  they need no finiteness.  Together they say that a dot product accumulated block by block over the contracted
  axis is the dot product.
-/
import Mathlib.Algebra.BigOperators.Fin
import Mathlib.Algebra.BigOperators.Intervals
import Mathlib.Logic.Equiv.Fin.Basic

namespace Cert.Lib

open Finset

/-- Position `l` of chunk `j` lies in the range. -/
theorem chunk_lt {a b n : ℕ} (h : a * b = n) (j : Fin a) (l : Fin b) : b * j.val + l.val < n := by
  have hj : j.val + 1 ≤ a := j.isLt
  have hl := l.isLt
  calc b * j.val + l.val < b * j.val + b := by omega
    _ = b * (j.val + 1) := (Nat.mul_succ _ _).symm
    _ ≤ b * a := Nat.mul_le_mul_left _ hj
    _ = n := by rw [Nat.mul_comm]; exact h

/-- A sum over `n = a · b` positions is the sum over the `a` chunks of the sums over each chunk's `b` consecutive
    positions `b · j, …, b · j + b − 1`. -/
theorem sum_eq_sum_chunks {M : Type*} [AddCommMonoid M] {a b n : ℕ} (h : a * b = n) (f : Fin n → M) :
    ∑ x : Fin n, f x = ∑ j : Fin a, ∑ l : Fin b, f ⟨b * j.val + l.val, chunk_lt h j l⟩ := by
  subst h
  rw [← finProdFinEquiv.sum_comp, Fintype.sum_prod_type]
  refine Finset.sum_congr rfl fun j _ => Finset.sum_congr rfl fun l _ => congrArg f (Fin.ext ?_)
  show l.val + b * j.val = b * j.val + l.val
  omega

/-- The running sum after `n` terms: `0`, then one term added at a time, in order. -/
def runningSum {M : Type*} [AddCommMonoid M] (s : ℕ → M) : ℕ → M
  | 0 => 0
  | n + 1 => runningSum s n + s n

/-- Adding the terms one after the other from zero gives their sum. -/
theorem runningSum_eq_sum {M : Type*} [AddCommMonoid M] (s : ℕ → M) (n : ℕ) :
    runningSum s n = ∑ j ∈ range n, s j := by
  induction n with
  | zero => rfl
  | succ n ih => rw [runningSum, ih, Finset.sum_range_succ]

/-- A sum over `n = a · b` positions is the running sum, after `a` terms, of the chunks' sums. -/
theorem sum_eq_runningSum_chunks {M : Type*} [AddCommMonoid M] {a b n : ℕ} (h : a * b = n) (f : Fin n → M)
    (s : ℕ → M) (hs : ∀ j : Fin a, s j.val = ∑ l : Fin b, f ⟨b * j.val + l.val, chunk_lt h j l⟩) :
    ∑ x : Fin n, f x = runningSum s a := by
  rw [runningSum_eq_sum, ← Fin.sum_univ_eq_sum_range, sum_eq_sum_chunks h]
  exact Finset.sum_congr rfl fun j _ => (hs j).symm

end Cert.Lib
-- ==== Proof.Region1ValueSum.lean ====
/-
  The running sum of the second launch (h = relu (adj · support)), over the extended reals.

  The dot product of a row of adj with a column of support runs over 8192 positions, which the grid cuts into 8
  chunks of 1024.  At the point of column block k the body adds chunk k's share to what the output window's
  staging buffer holds, having started from 0 at k = 0; so after that point the buffer holds the running sum of
  the first k + 1 shares, and after k = 7 the maximum of the whole sum with 0.  This is proved by induction on
  the point.  A change of float format is the identity on extended reals, and the zero word is the real 0.
-/
import proofs.«118833_j481036337863_2_alg».proof.Proof.Region1ValuePieces
import proofs.«118833_j481036337863_2_alg».proof.Proof.Spec
import proofs.«118833_j481036337863_2_alg».proof.Proof.LibChunkSum
import Idealize.ShloMosaic.PureOps.Ideal.Laws

set_option maxRecDepth 16384

noncomputable section

namespace Cert.KernelIdeal.R1

open Cert.KernelIdeal Cert.KernelIdeal.Gen Cert.Lib
open Idealize.ShloMosaic Idealize.ShloMosaic.TcCoe Idealize.SL.Sem Idealize.ShloMosaic.Tactic
open Idealize.ShloMosaic.Pipeline (Dat)
open Idealize.ShloMosaic.ValueIdx

variable {F : FTy → Type} [FloatOps F]

/-! ## The body's arithmetic at an index, over the extended reals -/

/-- The product of an adj block by a support block into the zero block, at row `r` and column `q`: the sum over
    the block's 1024 contracted positions. -/
theorem blockProduct_apply (A : FVec Ideal S1024x1024 .bf16) (B : FVec Ideal S1024x512 .bf16) (r : Fin 1024) (q : Fin 512) :
    matmul dot_S1024x1024_S1024x512_S1024x512_1_0_0_1_n_n none A B (constant (F := Ideal) S1024x512 .f32 0x00000000#32) (ix2 r q)
      = ∑ l : Fin 1024, A (ix2 r l) * B (ix2 l q) := by
  refine (Ideal.matmul_constant_zero_apply dot_S1024x1024_S1024x512_S1024x512_1_0_0_1_n_n none A B (ix2 r q)).trans ?_
  rw [← Equiv.sum_comp (contrEquiv1 dot_S1024x1024_S1024x512_S1024x512_1_0_0_1_n_n 1024 rfl rfl).symm]
  refine Finset.sum_congr rfl fun l _ => ?_
  have hl := contrEquiv1_symm_val dot_S1024x1024_S1024x512_S1024x512_1_0_0_1_n_n 1024 rfl rfl l
  have e1 : (dot_S1024x1024_S1024x512_S1024x512_1_0_0_1_n_n).lhsIdx (ix2 r q) ((contrEquiv1 dot_S1024x1024_S1024x512_S1024x512_1_0_0_1_n_n 1024 rfl rfl).symm l) = ix2 r l := by
    funext ax; apply Fin.ext
    match ax with
    | ⟨0, _⟩ => simp [DotDims.lhsIdx, dot_S1024x1024_S1024x512_S1024x512_1_0_0_1_n_n]; rfl
    | ⟨1, _⟩ => exact ((dot_S1024x1024_S1024x512_S1024x512_1_0_0_1_n_n).lhsIdx_val_of_single rfl _ _).trans hl
  have e2 : (dot_S1024x1024_S1024x512_S1024x512_1_0_0_1_n_n).rhsIdx (ix2 r q) ((contrEquiv1 dot_S1024x1024_S1024x512_S1024x512_1_0_0_1_n_n 1024 rfl rfl).symm l) = ix2 l q := by
    funext ax; apply Fin.ext
    match ax with
    | ⟨0, _⟩ => exact ((dot_S1024x1024_S1024x512_S1024x512_1_0_0_1_n_n).rhsIdx_val_of_single rfl _ _).trans hl
    | ⟨1, _⟩ => simp [DotDims.rhsIdx, dot_S1024x1024_S1024x512_S1024x512_1_0_0_1_n_n]; rfl
  rw [e1, e2]

/-- The zero block at an index. -/
theorem pay1_apply (r : Fin 1024) (q : Fin 512) : k1_pay1 (F := Ideal) (ix2 r q) = 0 := Ideal.ofBits_zero_f32

/-- The accumulation step at an index: the running sum there plus the block product there (the change of
    format of the adj block is the identity on extended reals). -/
theorem pay2_apply (x0 : Vec Ideal S1024x1024 .f32) (x1 : Vec Ideal S1024x512 .bf16) (acc : Vec Ideal S1024x512 .f32) (r : Fin 1024) (q : Fin 512) :
    k1_pay2 x0 x1 acc (ix2 r q) = acc (ix2 r q) + ∑ l : Fin 1024, x0 (ix2 r l) * x1 (ix2 l q) := by
  unfold k1_pay2
  simp only [shapeCast_self]
  exact congrArg (acc (ix2 r q) + ·) (blockProduct_apply _ x1 r q)

/-- The last step at an index: the maximum with 0. -/
theorem pay3_apply (v : Vec Ideal S1024x512 .f32) (r : Fin 1024) (q : Fin 512) :
    k1_pay3 v (ix2 r q) = max (v (ix2 r q)) 0 := by
  unfold k1_pay3
  simp only [shapeCast_self]
  exact congrArg (max (v (ix2 r q))) Ideal.ofBits_zero_f32

/-! ## Chunks of the contracted axis, and rows of a row block -/

/-- Position `l` of chunk `j` of the 8192 contracted positions (for `j < 8` this is 1024·j + l; the wrap-around
    only makes the definition total and is never met). -/
def pos (j : ℕ) (l : Fin 1024) : Fin 8192 := ⟨(1024 * j + l.val) % 8192, Nat.mod_lt _ (by decide)⟩
/-- Row `r` of the row block that point `n` works on (for `n < 64` this is 1024·(n / 8) + r). -/
def rowAt (n : ℕ) (r : Fin 1024) : Fin 8192 := ⟨(1024 * (n / 8) + r.val) % 8192, Nat.mod_lt _ (by decide)⟩

theorem pos_val (j : ℕ) (hj : j < 8) (l : Fin 1024) : (pos j l).val = 1024 * j + l.val :=
  Nat.mod_eq_of_lt (by have := l.isLt; omega)
theorem rowAt_val (n : ℕ) (hn : n < 64) (r : Fin 1024) : (rowAt n r).val = 1024 * (n / 8) + r.val :=
  Nat.mod_eq_of_lt (by have := r.isLt; omega)

/-- Chunk `j`'s share of the dot product of row `R` of `A` with column `q` of `S`. -/
def term (A : Spec.Mat 8192 8192) (S : Spec.Mat 8192 512) (R : Fin 8192) (q : Fin 512) (j : ℕ) : EReal :=
  ∑ l : Fin 1024, A R (pos j l) * S (pos j l) q

/-- What the buffer holds after the point of number `n`, given the shares `s`: the running sum of the first
    `n % 8 + 1` shares, and after a last column block the maximum of the whole sum with 0. -/
def held (s : ℕ → EReal) (n : ℕ) : EReal :=
  if n % 8 = 7 then max (runningSum s 8) 0 else runningSum s (n % 8 + 1)

section
variable (V : (c : Dev nD) → (b : Ref sig .tc) → Buf (Elt Ideal) ((c : Thread nD τ).loc b))

/-- adj and support as the launch finds them, as matrices. -/
abbrev adjM (c : Dev nD) : Spec.Mat 8192 8192 := fun a b => V c main_arg1 (ix2 a b)
abbrev supM (c : Dev nD) : Spec.Mat 8192 512 := fun a b => V c main_v0 (ix2 a b)

/-- The block product at point `t`, row `r`, column `q`, is chunk `t % 8`'s share for the row's place in adj. -/
theorem blockTerm_eq (c : Dev nD) (t : Fin cfg1.N) (r : Fin 1024) (q : Fin 512)
    (x0 : Vec Ideal S1024x1024 .f32) (x1 : Vec Ideal S1024x512 .bf16) (hx0 : x0 = iblk1 V c 0 t) (hx1 : x1 = iblk1 V c 1 t) :
    ∑ l : Fin 1024, x0 (ix2 r l) * x1 (ix2 l q)
      = term (adjM V c) (supM V c) (rowAt t.val r) q (t.val % 8) := by
  subst hx0 hx1
  have hN : t.val < 64 := lt_of_lt_of_eq t.isLt N_1
  unfold term
  refine Finset.sum_congr rfl fun l _ => ?_
  rw [adjBlock_apply V c t r l (rowAt t.val r) (pos (t.val % 8) l) (rowAt_val _ hN r) (pos_val _ (Nat.mod_lt _ (by decide)) l),
    supportBlock_apply V c t l q (pos (t.val % 8) l) (pos_val _ (Nat.mod_lt _ (by decide)) l)]

/-- After a point of the first column block: 0 plus the first share. -/
theorem step_first (c : Dev nD) (t : Fin cfg1.N) (h0 : t.val % 8 = 0) (r : Fin 1024) (q : Fin 512) :
    outsAt1 V c t.val t.isLt (ix2 r q) = runningSum (term (adjM V c) (supM V c) (rowAt t.val r) q) 1 := by
  rw [outsAt1_A V c t h0, outA_eq V c t h0]
  refine (pay2_apply (iblk1 V c 0 t) (iblk1 V c 1 t) (k1_pay1 (F := Ideal)) r q).trans ?_
  rw [pay1_apply, blockTerm_eq V c t r q (iblk1 V c 0 t) (iblk1 V c 1 t) rfl rfl, h0]
  rfl

/-- After a point of a middle column block: what the point before left plus this chunk's share. -/
theorem step_middle (c : Dev nD) (t : Fin cfg1.N) (h0 : ¬t.val % 8 = 0) (h1 : ¬t.val % 8 = 7) (r : Fin 1024) (q : Fin 512)
    (acc : EReal) (hacc : outsAt1 V c (t.val - 1) (prev_lt t) (ix2 r q) = acc) :
    outsAt1 V c t.val t.isLt (ix2 r q) = acc + term (adjM V c) (supM V c) (rowAt t.val r) q (t.val % 8) := by
  rw [outsAt1_B V c t h0 h1, outB_eq V c t h0 h1]
  refine (pay2_apply (iblk1 V c 0 t) (iblk1 V c 1 t) _ r q).trans ?_
  rw [hacc, blockTerm_eq V c t r q (iblk1 V c 0 t) (iblk1 V c 1 t) rfl rfl]

/-- After a point of the last column block: the maximum of that with 0. -/
theorem step_last (c : Dev nD) (t : Fin cfg1.N) (h0 : ¬t.val % 8 = 0) (h1 : t.val % 8 = 7) (r : Fin 1024) (q : Fin 512)
    (acc : EReal) (hacc : outsAt1 V c (t.val - 1) (prev_lt t) (ix2 r q) = acc) :
    outsAt1 V c t.val t.isLt (ix2 r q) = max (acc + term (adjM V c) (supM V c) (rowAt t.val r) q (t.val % 8)) 0 := by
  rw [outsAt1_C V c t h0 h1, outC_eq V c t h0 h1]
  refine (pay3_apply _ r q).trans ?_
  refine congrArg (max · 0) ?_
  refine (pay2_apply (iblk1 V c 0 t) (iblk1 V c 1 t) _ r q).trans ?_
  rw [hacc, blockTerm_eq V c t r q (iblk1 V c 0 t) (iblk1 V c 1 t) rfl rfl]

/-- THE INVARIANT: after the point of number `n` the output window's staging buffer holds, at row `r` and column
    `q`, the running sum of the shares of the row's dot product (its maximum with 0 after a last column block). -/
theorem outsAt_eq (c : Dev nD) : ∀ (n : ℕ) (h : n < cfg1.N) (r : Fin 1024) (q : Fin 512),
    outsAt1 V c n h (ix2 r q) = held (term (adjM V c) (supM V c) (rowAt n r) q) n
  | 0, h, r, q => by
    refine (step_first V c ⟨0, h⟩ (Nat.zero_mod _) r q).trans ?_
    unfold held
    rw [if_neg (by decide)]
  | n + 1, h, r, q => by
    have hN : n + 1 < 64 := lt_of_lt_of_eq h N_1
    by_cases h0 : (n + 1) % 8 = 0
    · refine (step_first V c ⟨n + 1, h⟩ h0 r q).trans ?_
      unfold held
      rw [if_neg (by omega), h0]
    · have ih := outsAt_eq c n (Nat.lt_of_succ_lt h) r q
      have hrow : rowAt n r = rowAt (n + 1) r := Fin.ext (by
        show (1024 * (n / 8) + r.val) % 8192 = (1024 * ((n + 1) / 8) + r.val) % 8192
        have : n / 8 = (n + 1) / 8 := by omega
        rw [this])
      have hk : n % 8 + 1 = (n + 1) % 8 := by omega
      have hn7 : ¬n % 8 = 7 := by omega
      unfold held at ih
      rw [if_neg hn7, hrow, hk] at ih
      by_cases h1 : (n + 1) % 8 = 7
      · refine (step_last V c ⟨n + 1, h⟩ h0 h1 r q _ ih).trans ?_
        unfold held
        rw [if_pos h1]
        show max (runningSum _ ((n + 1) % 8) + _) 0 = _
        rw [h1]
        rfl
      · refine (step_middle V c ⟨n + 1, h⟩ h0 h1 r q _ ih).trans ?_
        unfold held
        rw [if_neg h1]
        rfl

end

end Cert.KernelIdeal.R1

end
-- ==== Proof.Region1Value.lean ====
/-
  The value of the second launch over the extended reals: when it returns, the array of h holds, at row n and
  column k, max (Σ_j adj n j · support j k) 0 of adj and support as the launch found them, and adj and support
  are as they were.

  The output window's staging buffer is written back only after a last column block, when it holds the maximum
  with 0 of the running sum of all 8 chunks' shares; that running sum is the sum over the 8192 positions (a sum
  cut into chunks, added in order from zero: no finiteness is needed).  Row block i is written back by point
  8·i + 7, and the 8 row blocks tile the array.
-/
import proofs.«118833_j481036337863_2_alg».proof.Proof.Region1ValueSum

set_option maxRecDepth 16384

noncomputable section

namespace Cert.KernelIdeal.R1

open Cert.KernelIdeal Cert.KernelIdeal.Gen Cert.Lib
open Idealize.ShloMosaic Idealize.ShloMosaic.TcCoe Idealize.SL.Sem Idealize.ShloMosaic.Tactic
open Idealize.ShloMosaic.Pipeline (Dat)
open Idealize.ShloMosaic.ValueIdx

/-- The running sum of all 8 chunks' shares is the whole dot product. -/
theorem held_last (A : Spec.Mat 8192 8192) (S : Spec.Mat 8192 512) (R : Fin 8192) (q : Fin 512) :
    max (runningSum (term A S R q) 8) 0 = Spec.hid A S R q := by
  unfold Spec.hid
  refine congrArg (max · 0) ?_
  refine (sum_eq_runningSum_chunks (a := 8) (b := 1024) (n := 8192) (by decide) (fun x => A R x * S x q) (term A S R q) fun j => ?_).symm
  unfold term
  refine Finset.sum_congr rfl fun l _ => ?_
  have e : pos j.val l = ⟨1024 * j.val + l.val, chunk_lt (by decide) j l⟩ := Fin.ext (pos_val j.val j.isLt l)
  rw [e]

section
variable (V : (c : Dev nD) → (b : Ref sig .tc) → Buf (Elt Ideal) ((c : Thread nD τ).loc b))

/-- The array of h as a function of adj and support as the launch finds them. -/
def hidArr (c : Dev nD) : Buf (Elt Ideal) ((c : Thread nD τ).loc main_v1) :=
  fun (i : S8192x512.Idx) => Spec.hid (adjM V c) (supM V c) (i 0) (i 1)

/-- What a point after a last column block writes back is its block of that array. -/
theorem flushed_eq (c : Dev nD) (t : Fin cfg1.N) (hf : (cfg1.win 2).flush t = true) :
    (dat1 V c).flushed 2 t = ((cfg1.win 2).blk t).view.read (Elt Ideal) (hidArr V c) := by
  have h7 : t.val % 8 = 7 := (flush1_2 t).mp hf
  have hN : t.val < 64 := lt_of_lt_of_eq t.isLt N_1
  obtain ⟨-, -, -, -, e4, e5⟩ := idx_facts1 t
  show (cfg1.win 2).cut (grid1.coords t) ((dat1 V c).after 2 t) = _
  rw [after1_2]
  funext j
  obtain ⟨r, q, rfl⟩ : ∃ (r : Fin 1024) (q : Fin 512), j = ix2 r q := ⟨j 0, j 1, eq_ix2 j⟩
  show outsAt1 V c t.val t.isLt (ix2 r q) = hidArr V c (((cfg1.win 2).blk t).view.emb (ix2 r q))
  rw [outsAt_eq V c t.val t.isLt r q]
  unfold held
  rw [if_pos h7, held_last]
  unfold hidArr
  have ea : rowAt t.val r = (((cfg1.win 2).blk t).view.emb (ix2 r q)) 0 := Fin.ext (by
    show (rowAt t.val r).val = win1_2.index t (0 : Fin 2) * 1024 + 1 * r.val
    rw [rowAt_val _ hN, e4]; omega)
  have eb : q = (((cfg1.win 2).blk t).view.emb (ix2 r q)) 1 := Fin.ext (by
    show q.val = win1_2.index t (1 : Fin 2) * 512 + 1 * q.val
    rw [e5]; omega)
  rw [← ea, ← eb]

/-- An index of the array is in point `t`'s block iff each coordinate is in the block's range on its axis. -/
theorem mem_blk (t : Fin cfg1.N) (i : S8192x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v1).slice (win1_2.rect t)).set ↔ _
  rw [View.set_slice_whole, Rect.mem_set_unit]
  exact Iff.rfl

/-- Every index of the array is in the block of a point that writes back: row n is in row block n / 1024,
    written back by point 8·(n / 1024) + 7. -/
theorem cover (i : S8192x512.Idx) : ∃ t : Fin cfg1.N, (cfg1.win 2).flush t = true ∧ i ∈ ((cfg1.win 2).blk t).view.set := by
  have hi0 : (i 0).val < 8192 := idx2_lt0 i
  have hi1 : (i 1).val < 512 := idx2_lt1 i
  have hN : cfg1.N = 64 := N_1
  obtain ⟨t, ht⟩ : ∃ t : Fin cfg1.N, t.val = 8 * ((i 0).val / 1024) + 7 := ⟨⟨8 * ((i 0).val / 1024) + 7, by rw [hN]; omega⟩, rfl⟩
  obtain ⟨-, -, -, -, e4, e5⟩ := idx_facts1 t
  refine ⟨t, (flush1_2 t).mpr (by rw [ht]; omega), ?_⟩
  rw [mem_blk]
  intro a
  match a with
  | ⟨0, _⟩ =>
    show win1_2.index t (0 : Fin 2) * 1024 ≤ (i 0).val ∧ (i 0).val < win1_2.index t (0 : Fin 2) * 1024 + 1024
    rw [e4, ht]; omega
  | ⟨1, _⟩ =>
    show win1_2.index t (1 : Fin 2) * 512 ≤ (i 1).val ∧ (i 1).val < win1_2.index t (1 : Fin 2) * 512 + 512
    rw [e5]; omega

/-- THE ARRAY OF h after the launch. -/
theorem final1_arr (c : Dev nD) : (dat1 V c).arrAt 2 cfg1.N = hidArr V c :=
  (dat1 V c).arrAt_eq_of_cover 2 (hidArr V c) (fun t hf => flushed_eq V c t hf) cover

/-- The same, entry by entry. -/
theorem final1 (c : Dev nD) (n : Fin 8192) (k : Fin 512) :
    (dat1 V c).arrAt 2 cfg1.N (ix2 n k)
      = Cert.Spec.hid (fun a b => V c main_arg1 (ix2 a b)) (fun a b => V c main_v0 (ix2 a b)) n k := by
  rw [final1_arr]; rfl

/-- adj and support end as the launch found them. -/
theorem kept1_adj (c : Dev nD) : (dat1 V c).arrAt 0 cfg1.N = V c main_arg1 :=
  ((dat1 V c).arrAt_in 0 rfl _).trans (A_eq1 V c 0)
theorem kept1_support (c : Dev nD) : (dat1 V c).arrAt 1 cfg1.N = V c main_v0 :=
  ((dat1 V c).arrAt_in 1 rfl _).trans (A_eq1 V c 1)

end

end Cert.KernelIdeal.R1

end
-- ==== Proof.Region2ValuePay.lean ====
/-
  The body's arithmetic at one entry, over the extended reals.

  From a block x of 1024 rows of the hidden array and the four column vectors γ, β, mean, variance (each [1, 512]) the
  body forms the normalised rows
      z p k = (x p k − mean k) · rsqrt(variance k + ε) · γ k + β k,
  once for the row block of the first window and once for that of the second, and multiplies the first by the transpose
  of the second into a zero accumulator. Entry (p, q) of the product is therefore Σ_k z₁ p k · z₂ q k: the two
  changes of float format on the way into the product are identities on the extended reals, the four broadcasts read
  the vectors' single row, and the contraction runs over the one shared axis of length 512.
-/
import proofs.«118833_j481036337863_2_alg».proof.Proof.Gen.KernelIdeal.Skeleton
import proofs.«118833_j481036337863_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R2

open Cert.KernelIdeal.Gen
open Idealize.ShloMosaic Idealize.ShloMosaic.ValueIdx Idealize.SL.Sem

/-- A normalised row entry from a block x of the hidden array and the vectors γ, β, mean, variance. -/
def zrow (x : FVec Ideal S1024x512 .f32) (g b mu va : FVec Ideal S1x512 .f32) (p : Fin 1024) (k : Fin 512) : EReal :=
  (x (ix2 p k) - mu (ix2 (0 : Fin 1) k)) * Ideal.rsqrt (va (ix2 (0 : Fin 1) k) + Cert.Spec.eps) * g (ix2 (0 : Fin 1) k) + b (ix2 (0 : Fin 1) k)

/-- Entry (p, q) of the body's product is the sum over the 512 features of the products of the normalised entries of
    row p of the first block and row q of the second. -/
theorem pay2_apply (x0 x1 : FVec Ideal S1024x512 .f32) (x2 x3 x4 x5 : FVec Ideal S1x512 .f32) (p q : Fin 1024) :
    k2_pay1 (F := Ideal) x0 x1 x2 x3 x4 x5 (ix2 p q)
      = ∑ k : Fin 512, zrow x0 x2 x3 x4 x5 p k * zrow x1 x2 x3 x4 x5 q k := by
  unfold k2_pay1
  simp only [shapeCast_self]
  refine (Ideal.matmul_constant_zero_apply dot_S1024x512_S1024x512_S1024x1024_1_1_0_0_n_n none _ _ (ix2 p q)).trans ?_
  rw [← Equiv.sum_comp (contrEquiv1 dot_S1024x512_S1024x512_S1024x1024_1_1_0_0_n_n 512 rfl rfl).symm]
  refine Finset.sum_congr rfl fun k _ => ?_
  have ck := contrEquiv1_symm_val dot_S1024x512_S1024x512_S1024x1024_1_1_0_0_n_n 512 rfl rfl k
  have hl : dot_S1024x512_S1024x512_S1024x1024_1_1_0_0_n_n.lhsIdx (ix2 p q) ((contrEquiv1 dot_S1024x512_S1024x512_S1024x1024_1_1_0_0_n_n 512 rfl rfl).symm k) = ix2 p k := by
    funext ax; apply Fin.ext
    match ax with
    | ⟨0, _⟩ => simp [DotDims.lhsIdx, dot_S1024x512_S1024x512_S1024x1024_1_1_0_0_n_n]; rfl
    | ⟨1, _⟩ => exact (dot_S1024x512_S1024x512_S1024x1024_1_1_0_0_n_n.lhsIdx_val_of_single (cl := 1) rfl _ _).trans ck
  have hr : dot_S1024x512_S1024x512_S1024x1024_1_1_0_0_n_n.rhsIdx (ix2 p q) ((contrEquiv1 dot_S1024x512_S1024x512_S1024x1024_1_1_0_0_n_n 512 rfl rfl).symm k) = ix2 q k := by
    funext ax; apply Fin.ext
    match ax with
    | ⟨0, _⟩ => simp [DotDims.rhsIdx, dot_S1024x512_S1024x512_S1024x1024_1_1_0_0_n_n]; rfl
    | ⟨1, _⟩ => exact (dot_S1024x512_S1024x512_S1024x1024_1_1_0_0_n_n.rhsIdx_val_of_single (cr := 1) rfl _ _).trans ck
  rw [hl, hr]
  simp only [truncf_apply, addf_apply, mulf_apply, subf_apply, broadcastTo_1b_ab_apply]
  rfl

end Cert.KernelIdeal.R2

end
-- ==== Proof.Region2Value.lean ====
/-
  What the third launch leaves in the result array, at the extended reals.

  Point t = 8·i + j of the grid writes back block (i, j) of the result: rows 1024·i … and columns 1024·j …. The first
  window's block at that point is rows 1024·i … of the hidden array h, the second window's is rows 1024·j …, and the
  four vectors are read whole. So entry (p, q) of the block written at t is
      Σ_k z (1024·i + p) k · z (1024·j + q) k,    z the batch-normalised h,
  which is entry (1024·i + p, 1024·j + q) of the Gram matrix of z. The 64 blocks tile the 8192 × 8192 result (the
  point covering entry (a, b) is 8·(a / 1024) + b / 1024), so after the last point the result array is that Gram matrix.
-/
import proofs.«118833_j481036337863_2_alg».proof.Proof.Region2
import proofs.«118833_j481036337863_2_alg».proof.Proof.Region2ValuePay
import Idealize.ShloMosaic.Lib.Pipeline.Value

set_option maxRecDepth 16384

noncomputable section

namespace Cert.KernelIdeal.R2

open Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## The block indices along the grid -/

/-- At point t = 8·i + j the first window is at row block i of h, the second at row block j, the four vectors at
    their only block, and the result at block (i, j). Decided over the 64 points. -/
theorem idx_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val / 8 ∧ win2_6.index t (1 : Fin 2) = t.val % 8 :=
  (by decide +kernel : ∀ t : Fin grid2.N, _)

/-! ## The arrays as the launch finds them, as matrices and vectors -/

/-- The batch-normalised hidden array, from the arrays as the launch finds them. -/
abbrev Z2 (c : Dev nD) : Cert.Spec.Mat 8192 512 :=
  Cert.Spec.znorm (fun p q => (V c main_v1 : S8192x512.Idx → EReal) (ix2 p q))
    (fun k => (V c main_v8 : S1x512.Idx → EReal) (ix2 (0 : Fin 1) k)) (fun k => (V c main_v9 : S1x512.Idx → EReal) (ix2 (0 : Fin 1) k))
    (fun k => (V c main_v6 : S1x512.Idx → EReal) (ix2 (0 : Fin 1) k)) (fun k => (V c main_v7 : S1x512.Idx → EReal) (ix2 (0 : Fin 1) k))

/-- The Gram matrix of the normalised array, as contents of the result's buffer. -/
def G2 (c : Dev nD) : S8192x8192.Idx → EReal := fun i => Cert.Spec.gram (Z2 V c) (i 0) (i 1)

/-! ## The input blocks read at an entry -/

/-- Row p of the first window's block at point t is row 1024·(t / 8) + p of h. -/
theorem iblk2_0_apply (c : Dev nD) (t : Fin cfg2.N) (p : Fin 1024) (k : Fin 512) (r : Fin 8192) (hr : r.val = t.val / 8 * 1024 + p.val) :
    (iblk2 V c 0 t : S1024x512.Idx → EReal) (ix2 p k) = (V c main_v1 : S8192x512.Idx → EReal) (ix2 r k) := by
  obtain ⟨e0, e1, -⟩ := idx_facts2 t
  unfold iblk2
  rw [View.read_apply]
  show (V c main_v1 : S8192x512.Idx → EReal) _ = _
  congr 1
  funext a
  apply Fin.ext
  match a with
  | ⟨0, _⟩ => show win2_0.index t 0 * 1024 + 1 * p.val = r.val; rw [e0, hr]; omega
  | ⟨1, _⟩ => show win2_0.index t 1 * 512 + 1 * k.val = k.val; rw [e1]; omega

/-- Row q of the second window's block at point t is row 1024·(t mod 8) + q of h. -/
theorem iblk2_1_apply (c : Dev nD) (t : Fin cfg2.N) (q : Fin 1024) (k : Fin 512) (r : Fin 8192) (hr : r.val = t.val % 8 * 1024 + q.val) :
    (iblk2 V c 1 t : S1024x512.Idx → EReal) (ix2 q k) = (V c main_v1 : S8192x512.Idx → EReal) (ix2 r k) := by
  obtain ⟨-, -, e0, e1, -⟩ := idx_facts2 t
  unfold iblk2
  rw [View.read_apply]
  show (V c main_v1 : S8192x512.Idx → EReal) _ = _
  congr 1
  funext a
  apply Fin.ext
  match a with
  | ⟨0, _⟩ => show win2_1.index t 0 * 1024 + 1 * q.val = r.val; rw [e0, hr]; omega
  | ⟨1, _⟩ => show win2_1.index t 1 * 512 + 1 * k.val = k.val; rw [e1]; omega

/-- Each vector's block is the vector. -/
theorem iblk2_2_apply (c : Dev nD) (t : Fin cfg2.N) (k : Fin 512) :
    (iblk2 V c 2 t : S1x512.Idx → EReal) (ix2 (0 : Fin 1) k) = (V c main_v6 : S1x512.Idx → EReal) (ix2 (0 : Fin 1) k) := by
  obtain ⟨-, -, -, -, e0, e1, -⟩ := idx_facts2 t
  unfold iblk2
  rw [View.read_apply]
  show (V c main_v6 : S1x512.Idx → EReal) _ = _
  congr 1
  funext a
  apply Fin.ext
  match a with
  | ⟨0, _⟩ => show win2_2.index t 0 * 1 + 1 * 0 = 0; rw [e0]
  | ⟨1, _⟩ => show win2_2.index t 1 * 512 + 1 * k.val = k.val; rw [e1]; omega
theorem iblk2_3_apply (c : Dev nD) (t : Fin cfg2.N) (k : Fin 512) :
    (iblk2 V c 3 t : S1x512.Idx → EReal) (ix2 (0 : Fin 1) k) = (V c main_v7 : S1x512.Idx → EReal) (ix2 (0 : Fin 1) k) := by
  obtain ⟨-, -, -, -, -, -, e0, e1, -⟩ := idx_facts2 t
  unfold iblk2
  rw [View.read_apply]
  show (V c main_v7 : S1x512.Idx → EReal) _ = _
  congr 1
  funext a
  apply Fin.ext
  match a with
  | ⟨0, _⟩ => show win2_3.index t 0 * 1 + 1 * 0 = 0; rw [e0]
  | ⟨1, _⟩ => show win2_3.index t 1 * 512 + 1 * k.val = k.val; rw [e1]; omega
theorem iblk2_4_apply (c : Dev nD) (t : Fin cfg2.N) (k : Fin 512) :
    (iblk2 V c 4 t : S1x512.Idx → EReal) (ix2 (0 : Fin 1) k) = (V c main_v8 : S1x512.Idx → EReal) (ix2 (0 : Fin 1) k) := by
  obtain ⟨-, -, -, -, -, -, -, -, e0, e1, -⟩ := idx_facts2 t
  unfold iblk2
  rw [View.read_apply]
  show (V c main_v8 : S1x512.Idx → EReal) _ = _
  congr 1
  funext a
  apply Fin.ext
  match a with
  | ⟨0, _⟩ => show win2_4.index t 0 * 1 + 1 * 0 = 0; rw [e0]
  | ⟨1, _⟩ => show win2_4.index t 1 * 512 + 1 * k.val = k.val; rw [e1]; omega
theorem iblk2_5_apply (c : Dev nD) (t : Fin cfg2.N) (k : Fin 512) :
    (iblk2 V c 5 t : S1x512.Idx → EReal) (ix2 (0 : Fin 1) k) = (V c main_v9 : S1x512.Idx → EReal) (ix2 (0 : Fin 1) k) := by
  obtain ⟨-, -, -, -, -, -, -, -, -, -, e0, e1, -⟩ := idx_facts2 t
  unfold iblk2
  rw [View.read_apply]
  show (V c main_v9 : S1x512.Idx → EReal) _ = _
  congr 1
  funext a
  apply Fin.ext
  match a with
  | ⟨0, _⟩ => show win2_5.index t 0 * 1 + 1 * 0 = 0; rw [e0]
  | ⟨1, _⟩ => show win2_5.index t 1 * 512 + 1 * k.val = k.val; rw [e1]; omega

/-- The normalised entries the body forms from the first window's block are rows 1024·(t / 8) … of the normalised array, -/
theorem zrow_first (c : Dev nD) (t : Fin cfg2.N) (p : Fin 1024) (k : Fin 512) (r : Fin 8192) (hr : r.val = t.val / 8 * 1024 + p.val) :
    zrow (iblk2 V c 0 t) (iblk2 V c 2 t) (iblk2 V c 3 t) (iblk2 V c 4 t) (iblk2 V c 5 t) p k = Z2 V c r k := by
  unfold zrow
  rw [iblk2_0_apply V c t p k r hr, iblk2_2_apply, iblk2_3_apply, iblk2_4_apply, iblk2_5_apply]
  rfl

/-- and those from the second window's block are rows 1024·(t mod 8) …. -/
theorem zrow_second (c : Dev nD) (t : Fin cfg2.N) (q : Fin 1024) (k : Fin 512) (r : Fin 8192) (hr : r.val = t.val % 8 * 1024 + q.val) :
    zrow (iblk2 V c 1 t) (iblk2 V c 2 t) (iblk2 V c 3 t) (iblk2 V c 4 t) (iblk2 V c 5 t) q k = Z2 V c r k := by
  unfold zrow
  rw [iblk2_1_apply V c t q k r hr, iblk2_2_apply, iblk2_3_apply, iblk2_4_apply, iblk2_5_apply]
  rfl

/-! ## What a point writes back -/

/-- The block written back at point t is block t of the Gram matrix. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero hz2]
  simp only [View.ld_unit_zero (S := S1024x512) hz2, View.ld_unit_zero (S := S1x512) hz2]
  funext j
  obtain ⟨p, q, rfl⟩ : ∃ (p q : Fin 1024), j = ix2 p q := ⟨j 0, j 1, eq_ix2 j⟩
  obtain ⟨-, -, -, -, -, -, -, -, -, -, -, -, e0, e1⟩ := idx_facts2 t
  have hN : t.val < 64 := t.isLt.trans_eq N_2
  have hp : p.val < 1024 := p.isLt
  have hq : q.val < 1024 := q.isLt
  have hemb : ((cfg2.win 6).blk t).view.emb (ix2 p q)
      = ix2 (⟨t.val / 8 * 1024 + p.val, by omega⟩ : Fin 8192) (⟨t.val % 8 * 1024 + q.val, by omega⟩ : Fin 8192) := by
    funext a
    apply Fin.ext
    match a with
    | ⟨0, _⟩ => show win2_6.index t 0 * 1024 + 1 * p.val = t.val / 8 * 1024 + p.val; rw [e0]; omega
    | ⟨1, _⟩ => show win2_6.index t 1 * 1024 + 1 * q.val = t.val % 8 * 1024 + q.val; rw [e1]; omega
  show k2_pay1 (F := Ideal) (iblk2 V c 0 t) (iblk2 V c 1 t) (iblk2 V c 2 t) (iblk2 V c 3 t) (iblk2 V c 4 t) (iblk2 V c 5 t) (ix2 p q)
    = G2 V c (((cfg2.win 6).blk t).view.emb (ix2 p q))
  refine (pay2_apply _ _ _ _ _ _ p q).trans ?_
  rw [hemb]
  show _ = ∑ k : Fin 512, Z2 V c _ k * Z2 V c _ k
  exact Finset.sum_congr rfl fun k _ => by
    rw [zrow_first V c t p k ⟨t.val / 8 * 1024 + p.val, by omega⟩ rfl, zrow_second V c t q k ⟨t.val % 8 * 1024 + q.val, by omega⟩ rfl]

/-! ## The blocks tile the result -/

/-- An entry lies in point t's block iff each coordinate lies in the block's range. -/
theorem mem_blk2 (t : Fin cfg2.N) (i : S8192x8192.Idx) :
    i ∈ ((cfg2.win 6).blk t).view.set ↔ ∀ a : Fin 2, win2_6.index t a * S1024x1024.size a ≤ (i a).val ∧ (i a).val < win2_6.index t a * S1024x1024.size a + S1024x1024.size a := by
  show i ∈ ((View.whole main_v10).slice (win2_6.rect t)).set ↔ _
  rw [View.set_slice_whole, Rect.mem_set_unit]
  exact Iff.rfl

/-- Entry (a, b) is written at point 8·(a / 1024) + b / 1024. -/
theorem cover2 (i : S8192x8192.Idx) : ∃ t : Fin cfg2.N, (cfg2.win 6).flush t = true ∧ i ∈ ((cfg2.win 6).blk t).view.set := by
  have h0 : (i 0).val < 8192 := idx2_lt0 i
  have h1 : (i 1).val < 8192 := idx2_lt1 i
  obtain ⟨t, ht⟩ : ∃ t : Fin cfg2.N, t.val = 8 * ((i 0).val / 1024) + (i 1).val / 1024 :=
    ⟨⟨8 * ((i 0).val / 1024) + (i 1).val / 1024, by rw [show cfg2.N = 64 from N_2]; omega⟩, rfl⟩
  refine ⟨t, flush2_6 t, ?_⟩
  rw [mem_blk2]
  obtain ⟨-, -, -, -, -, -, -, -, -, -, -, -, e0, e1⟩ := idx_facts2 t
  intro a
  match a with
  | ⟨0, _⟩ => show win2_6.index t 0 * 1024 ≤ (i 0).val ∧ (i 0).val < win2_6.index t 0 * 1024 + 1024; rw [e0, ht]; omega
  | ⟨1, _⟩ => show win2_6.index t 1 * 1024 ≤ (i 1).val ∧ (i 1).val < win2_6.index t 1 * 1024 + 1024; rw [e1, ht]; omega

/-! ## The result array after the launch -/

/-- After the last point the result array is the Gram matrix of the normalised hidden array. -/
theorem final2_arr (c : Dev nD) : (dat2 V c).arrAt 6 cfg2.N = G2 V c :=
  (dat2 V c).arrAt_eq_of_cover 6 (G2 V c) (fun t _ => flushed2_eq V c t) (cover2)

/-- Entry by entry. -/
theorem final2 (c : Dev nD) (a b : Fin 8192) :
    ((dat2 V c).arrAt 6 cfg2.N : S8192x8192.Idx → EReal) (ix2 a b)
      = Cert.Spec.gram (Cert.Spec.znorm (fun p q => (V c main_v1 : S8192x512.Idx → EReal) (ix2 p q))
          (fun k => (V c main_v8 : S1x512.Idx → EReal) (ix2 (0 : Fin 1) k)) (fun k => (V c main_v9 : S1x512.Idx → EReal) (ix2 (0 : Fin 1) k))
          (fun k => (V c main_v6 : S1x512.Idx → EReal) (ix2 (0 : Fin 1) k)) (fun k => (V c main_v7 : S1x512.Idx → EReal) (ix2 (0 : Fin 1) k))) a b := by
  rw [final2_arr]
  rfl

end Cert.KernelIdeal.R2

end
-- ==== Proof.RefStats.lean ====
/-
  The two column statistics of the graph layer's output h (8192 rows, 512 columns), entry by entry over the extended
  reals, as the sequence of operations that both programs apply to h gives them.

    colMean h k = (z + Σ_n h n k) / r
    colVar  h k = if (r − c) > z then (z + Σ_n (h n k − colMean h k) · (h n k − colMean h k)) / (r − c) else q

  where z is the word of 0 (the initial value of each sum, kept as it reads: z + Σ), r the word of 8192 (the row
  count), c the integer 0 converted to a float (the variance's correction, zero here: the biased variance), and q the
  word the selection falls back to when the corrected count is not positive. The comparison and the selection are kept
  as the programs state them; nothing is evaluated. The mean inside the variance is the same quotient as colMean.
-/
import proofs.«118833_j481036337863_2_alg».proof.Proof.Spec

noncomputable section

namespace Cert.Spec

open Idealize.ShloMosaic

/-- The mean of column k: the sum from the word of 0, divided by the word of 8192. -/
def colMean (h : Mat 8192 512) : Fin 512 → EReal := fun k =>
  Ideal.div (Ideal.ofBits .f32 0x00000000#32 + ∑ n : Fin 8192, h n k) (Ideal.ofBits .f32 0x46000000#32)

/-- The row count less the correction: the word of 8192 minus the integer 0 read as a float. -/
def corrCount : EReal :=
  Ideal.ofBits .f32 0x46000000#32 - FloatOps.sitofp (F := Ideal) .f32 (0#32 : BitVec 32)

/-- The variance of column k: the sum, from the word of 0, of the squared deviations from the column's mean, divided by
    the corrected count where that count is above the word of 0, and the fallback word otherwise. -/
def colVar (h : Mat 8192 512) : Fin 512 → EReal := fun k =>
  Scalar.select (FloatOps.cmpf (F := Ideal) (φ := .f32) .ogt corrCount (Ideal.ofBits .f32 0x00000000#32))
    (Ideal.div (Ideal.ofBits .f32 0x00000000#32 + ∑ n : Fin 8192, (h n k - colMean h k) * (h n k - colMean h k)) corrCount)
    (Ideal.ofBits .f32 0x7FC00000#32)

end Cert.Spec

end
-- ==== Proof.RefRunStages.lean ====
/-
  The reference program's stages as pure functions of arrays: each is the composition of host operations that the
  program applies between two of its named intermediate values, spelt with the program's own operations, shape facts
  and literal words, for any float instance. The run of the program is stated over these, and each is read at an index
  elsewhere.

    hattV   x w1          relu (x · w1ᵀ)                                  [8192, 512]
    logitV  h w2          h · w2ᵀ                                         [8192, 128]
    rowMaxV l             max (−∞ splat) (reduce-max over the row, from −∞) [8192]
    expV    l             exp (l − the row maximum, broadcast back)        [8192, 128]
    scoreV  l             expV l / (the row sum of expV l, broadcast back) [8192, 128]
    suppV   x s wg        (x ⊙ s) · wg                                    [8192, 512]
    hidV    adj s         relu (adj · s)                                  [8192, 512]
    meanV   h             (column sum from 0) / 8192 splat                [512]
    varV    h c           the variance function with correction c         [512]
    zV      h μ v γ β     (h − μ) ⊙ rsqrt (v + ε) ⊙ γ + β, rows broadcast  [8192, 512]
    gramV   z             z · zᵀ                                          [8192, 8192]
-/
import proofs.«118833_j481036337863_2_alg».proof.Proof.Gen.ReferenceIdeal

noncomputable section

namespace Cert.ReferenceIdeal.RefRun

open Cert.ReferenceIdeal Cert.ReferenceIdeal.Gen Idealize.ShloMosaic

variable {F : FTy → Type} [FloatOps F]

/-- A [512] vector as one row, repeated down the 8192 rows. -/
def rowsV (v : FVec F S512 .f32) : FVec F S8192x512 .f32 :=
  broadcastInDim S8192x512 ![0, 1] bcast_S1x512_S8192x512_0_1 (broadcastInDim S1x512 ![1] bcast_S512_S1x512_1 v)

/-- An [8192] vector as one column, repeated along the 128 columns. -/
def colsV (v : FVec F S8192 .f32) : FVec F S8192x128 .f32 :=
  broadcastInDim S8192x128 ![0, 1] bcast_S8192x1_S8192x128_0_1 (broadcastInDim S8192x1 ![0] bcast_S8192_S8192x1_0 v)

/-- relu against the splat of the word of 0. -/
def reluV (a : FVec F S8192x512 .f32) : FVec F S8192x512 .f32 :=
  maximumf a (broadcastInDim S8192x512 ![] bcast_S_S8192x512 (constant S_ .f32 0x00000000#32))

def hattV (x : FVec F S8192x128 .f32) (w1 : FVec F S512x128 .f32) : FVec F S8192x512 .f32 :=
  reluV (Host.dotGeneral dot_S8192x128_S512x128_S8192x512_1_1_0_0_n_n none x w1)

def logitV (h : FVec F S8192x512 .f32) (w2 : FVec F S128x512 .f32) : FVec F S8192x128 .f32 :=
  Host.dotGeneral dot_S8192x512_S128x512_S8192x128_1_1_0_0_n_n none h w2

def rowMaxV (l : FVec F S8192x128 .f32) : FVec F S8192 .f32 :=
  maximumf (broadcastInDim S8192 ![] bcast_S_S8192 (constant S_ .f32 0xFF800000#32))
    (Host.reduce FloatOps.maximumf l (constant S_ .f32 0xFF800000#32) reducesTo_S8192x128_S8192_d1 h_S_)

def expV (l : FVec F S8192x128 .f32) : FVec F S8192x128 .f32 :=
  Host.exp (subf l (colsV (rowMaxV l)))

def scoreV (l : FVec F S8192x128 .f32) : FVec F S8192x128 .f32 :=
  Host.divf (expV l) (colsV (Host.reduceAdd (expV l) (constant S_ .f32 0x00000000#32) reducesTo_S8192x128_S8192_d1 h_S_))

def suppV (x s : FVec F S8192x128 .f32) (wg : FVec F S128x512 .f32) : FVec F S8192x512 .f32 :=
  Host.dotGeneral dot_S8192x128_S128x512_S8192x512_1_0_0_1_n_n none (mulf x s) wg

/-- The support as a function of the arguments. -/
def supportV (x : FVec F S8192x128 .f32) (w1 : FVec F S512x128 .f32) (w2 wg : FVec F S128x512 .f32) : FVec F S8192x512 .f32 :=
  suppV x (scoreV (logitV (hattV x w1) w2)) wg

def hidV (adj : FVec F S8192x8192 .f32) (s : FVec F S8192x512 .f32) : FVec F S8192x512 .f32 :=
  reluV (Host.dotGeneral dot_S8192x8192_S8192x512_S8192x512_1_0_0_1_n_n none adj s)

/-- The column sums from the word of 0. -/
def colSumV (h : FVec F S8192x512 .f32) : FVec F S512 .f32 :=
  Host.reduceAdd h (constant S_ .f32 0x00000000#32) reducesTo_S8192x512_S512_d0 h_S_

def meanV (h : FVec F S8192x512 .f32) : FVec F S512 .f32 :=
  Host.divf (colSumV h) (broadcastInDim S512 ![] bcast_S_S512 (constant S_ .f32 0x46000000#32))

/-- The deviations from the column means, the means taken as one row [1, 512]. -/
def devV (h : FVec F S8192x512 .f32) : FVec F S8192x512 .f32 :=
  subf h (broadcastInDim S8192x512 ![0, 1] bcast_S1x512_S8192x512_0_1
    (Host.divf (broadcastInDim S1x512 ![1] bcast_S512_S1x512_1 (colSumV h))
      (broadcastInDim S1x512 ![] bcast_S_S1x512 (constant S_ .f32 0x46000000#32))))

/-- The corrected count: the word of 8192 less the correction read as a float. -/
def countV (c : IVec S_ 32) : FVec F S_ .f32 :=
  subf (constant S_ .f32 0x46000000#32) (sitofp .f32 c)

def varV (h : FVec F S8192x512 .f32) (c : IVec S_ 32) : FVec F S512 .f32 :=
  select (broadcastInDim S512 ![] bcast_S_S512 (cmpf .ogt (countV (F := F) c) (constant S_ .f32 0x00000000#32)))
    (Host.divf (colSumV (mulf (devV h) (devV h))) (broadcastInDim S512 ![] bcast_S_S512 (countV c)))
    (broadcastInDim S512 ![] bcast_S_S512 (constant S_ .f32 0x7FC00000#32))

def zV (h : FVec F S8192x512 .f32) (mean var gamma beta : FVec F S512 .f32) : FVec F S8192x512 .f32 :=
  addf (mulf (mulf (subf h (rowsV mean))
      (rowsV (Host.rsqrt (addf var (broadcastInDim S512 ![] bcast_S_S512 (constant S_ .f32 0x3727C5AC#32))))))
    (rowsV gamma)) (rowsV beta)

def gramV (z : FVec F S8192x512 .f32) : FVec F S8192x8192 .f32 :=
  Host.dotGeneral dot_S8192x512_S512x8192_S8192x8192_1_0_0_1_n_n none z
    (transpose S512x8192 [1, 0] z transposes_S8192x512_S512x8192_1_0)

/-- The whole result as a function of the seven argument arrays. -/
def outV (x : FVec F S8192x128 .f32) (adj : FVec F S8192x8192 .f32) (w1 : FVec F S512x128 .f32) (w2 wg : FVec F S128x512 .f32)
    (gamma beta : FVec F S512 .f32) : FVec F S8192x8192 .f32 :=
  gramV (zV (hidV adj (supportV x w1 w2 wg)) (meanV (hidV adj (supportV x w1 w2 wg)))
    (varV (hidV adj (supportV x w1 w2 wg)) (constantI S_ 32 0#32)) gamma beta)

end Cert.ReferenceIdeal.RefRun

end
-- ==== Proof.RefReadLayout.lean ====
/-
  The reference's layout operations and its five matrix products read at an index given by coordinates, at the ideal
  values.

  A product of [M, K] by [N, K] contracting both last axes is, at (r, c), the sum over d of l[r, d] · w[c, d]; a product
  of [M, K] by [K, N] contracting the left operand's last axis with the right one's first is the sum over d of
  l[r, d] · w[d, c]: the contraction's one coordinate is carried to the sum's index by the bijection between a
  one-axis index and its coordinate. A [512] vector laid as one row and repeated down the rows reads the vector at the
  column coordinate; an [8192] vector laid as one column and repeated along the columns reads it at the row coordinate.
-/
import proofs.«118833_j481036337863_2_alg».proof.Proof.RefRunStages
import proofs.«118833_j481036337863_2_alg».proof.Proof.RefReadBasic
import Idealize.ShloMosaic.Lib.IdealHost
import Idealize.ShloMosaic.Lib.KernelVsHost
import Idealize.ShloMosaic.Lib.ValueLayout
import Idealize.ShloMosaic.Lib.Pipeline.Value

noncomputable section

namespace Cert.ReferenceIdeal.RefRead

open Cert.ReferenceIdeal Cert.ReferenceIdeal.Gen Cert.ReferenceIdeal.RefRun Cert.Spec Idealize.ShloMosaic Idealize.ShloMosaic.ValueIdx

open scoped BigOperators

/-- The features by the first attention weight, both contracted on their last axis. -/
theorem dot_x_w1_apply (l : FVec Ideal S8192x128 .f32) (w : FVec Ideal S512x128 .f32) (r : Fin 8192) (c : Fin 512) :
    Host.dotGeneral dot_S8192x128_S512x128_S8192x512_1_1_0_0_n_n none l w (ix2 r c) = ∑ d : Fin 128, l (ix2 r d) * w (ix2 c d) := by
  simp only [Host.dotGeneral]
  rw [Ideal.dotGeneral_apply]
  have hr : (dot_S8192x128_S512x128_S8192x512_1_1_0_0_n_n).contr.rank = 1 := rfl
  have hs : (dot_S8192x128_S512x128_S8192x512_1_1_0_0_n_n).contr.size ⟨0, by omega⟩ = 128 := rfl
  rw [← Equiv.sum_comp (contrEquiv1 dot_S8192x128_S512x128_S8192x512_1_1_0_0_n_n 128 hr hs).symm]
  refine Finset.sum_congr rfl fun d _ => ?_
  congr 1
  · refine congrArg l (funext fun a => Fin.ext ?_)
    match a with
    | ⟨0, _⟩ => rfl
    | ⟨1, _⟩ => exact contrEquiv1_symm_val dot_S8192x128_S512x128_S8192x512_1_1_0_0_n_n 128 hr hs d
  · refine congrArg w (funext fun a => Fin.ext ?_)
    match a with
    | ⟨0, _⟩ => rfl
    | ⟨1, _⟩ => exact contrEquiv1_symm_val dot_S8192x128_S512x128_S8192x512_1_1_0_0_n_n 128 hr hs d

/-- The hidden activations by the second attention weight, both contracted on their last axis. -/
theorem dot_h_w2_apply (l : FVec Ideal S8192x512 .f32) (w : FVec Ideal S128x512 .f32) (r : Fin 8192) (c : Fin 128) :
    Host.dotGeneral dot_S8192x512_S128x512_S8192x128_1_1_0_0_n_n none l w (ix2 r c) = ∑ d : Fin 512, l (ix2 r d) * w (ix2 c d) := by
  simp only [Host.dotGeneral]
  rw [Ideal.dotGeneral_apply]
  have hr : (dot_S8192x512_S128x512_S8192x128_1_1_0_0_n_n).contr.rank = 1 := rfl
  have hs : (dot_S8192x512_S128x512_S8192x128_1_1_0_0_n_n).contr.size ⟨0, by omega⟩ = 512 := rfl
  rw [← Equiv.sum_comp (contrEquiv1 dot_S8192x512_S128x512_S8192x128_1_1_0_0_n_n 512 hr hs).symm]
  refine Finset.sum_congr rfl fun d _ => ?_
  congr 1
  · refine congrArg l (funext fun a => Fin.ext ?_)
    match a with
    | ⟨0, _⟩ => rfl
    | ⟨1, _⟩ => exact contrEquiv1_symm_val dot_S8192x512_S128x512_S8192x128_1_1_0_0_n_n 512 hr hs d
  · refine congrArg w (funext fun a => Fin.ext ?_)
    match a with
    | ⟨0, _⟩ => rfl
    | ⟨1, _⟩ => exact contrEquiv1_symm_val dot_S8192x512_S128x512_S8192x128_1_1_0_0_n_n 512 hr hs d

/-- The gated features by the graph weight: rows by columns. -/
theorem dot_c_wg_apply (l : FVec Ideal S8192x128 .f32) (w : FVec Ideal S128x512 .f32) (r : Fin 8192) (c : Fin 512) :
    Host.dotGeneral dot_S8192x128_S128x512_S8192x512_1_0_0_1_n_n none l w (ix2 r c) = ∑ d : Fin 128, l (ix2 r d) * w (ix2 d c) := by
  simp only [Host.dotGeneral]
  rw [Ideal.dotGeneral_apply]
  have hr : (dot_S8192x128_S128x512_S8192x512_1_0_0_1_n_n).contr.rank = 1 := rfl
  have hs : (dot_S8192x128_S128x512_S8192x512_1_0_0_1_n_n).contr.size ⟨0, by omega⟩ = 128 := rfl
  rw [← Equiv.sum_comp (contrEquiv1 dot_S8192x128_S128x512_S8192x512_1_0_0_1_n_n 128 hr hs).symm]
  refine Finset.sum_congr rfl fun d _ => ?_
  congr 1
  · refine congrArg l (funext fun a => Fin.ext ?_)
    match a with
    | ⟨0, _⟩ => rfl
    | ⟨1, _⟩ => exact contrEquiv1_symm_val dot_S8192x128_S128x512_S8192x512_1_0_0_1_n_n 128 hr hs d
  · refine congrArg w (funext fun a => Fin.ext ?_)
    match a with
    | ⟨0, _⟩ => exact contrEquiv1_symm_val dot_S8192x128_S128x512_S8192x512_1_0_0_1_n_n 128 hr hs d
    | ⟨1, _⟩ => rfl

/-- The adjacency by the support: rows by columns. -/
theorem dot_adj_s_apply (l : FVec Ideal S8192x8192 .f32) (w : FVec Ideal S8192x512 .f32) (r : Fin 8192) (c : Fin 512) :
    Host.dotGeneral dot_S8192x8192_S8192x512_S8192x512_1_0_0_1_n_n none l w (ix2 r c) = ∑ d : Fin 8192, l (ix2 r d) * w (ix2 d c) := by
  simp only [Host.dotGeneral]
  rw [Ideal.dotGeneral_apply]
  have hr : (dot_S8192x8192_S8192x512_S8192x512_1_0_0_1_n_n).contr.rank = 1 := rfl
  have hs : (dot_S8192x8192_S8192x512_S8192x512_1_0_0_1_n_n).contr.size ⟨0, by omega⟩ = 8192 := rfl
  rw [← Equiv.sum_comp (contrEquiv1 dot_S8192x8192_S8192x512_S8192x512_1_0_0_1_n_n 8192 hr hs).symm]
  refine Finset.sum_congr rfl fun d _ => ?_
  congr 1
  · refine congrArg l (funext fun a => Fin.ext ?_)
    match a with
    | ⟨0, _⟩ => rfl
    | ⟨1, _⟩ => exact contrEquiv1_symm_val dot_S8192x8192_S8192x512_S8192x512_1_0_0_1_n_n 8192 hr hs d
  · refine congrArg w (funext fun a => Fin.ext ?_)
    match a with
    | ⟨0, _⟩ => exact contrEquiv1_symm_val dot_S8192x8192_S8192x512_S8192x512_1_0_0_1_n_n 8192 hr hs d
    | ⟨1, _⟩ => rfl

/-- The normalized output by its transpose: rows by columns. -/
theorem dot_z_zt_apply (l : FVec Ideal S8192x512 .f32) (w : FVec Ideal S512x8192 .f32) (r : Fin 8192) (c : Fin 8192) :
    Host.dotGeneral dot_S8192x512_S512x8192_S8192x8192_1_0_0_1_n_n none l w (ix2 r c) = ∑ d : Fin 512, l (ix2 r d) * w (ix2 d c) := by
  simp only [Host.dotGeneral]
  rw [Ideal.dotGeneral_apply]
  have hr : (dot_S8192x512_S512x8192_S8192x8192_1_0_0_1_n_n).contr.rank = 1 := rfl
  have hs : (dot_S8192x512_S512x8192_S8192x8192_1_0_0_1_n_n).contr.size ⟨0, by omega⟩ = 512 := rfl
  rw [← Equiv.sum_comp (contrEquiv1 dot_S8192x512_S512x8192_S8192x8192_1_0_0_1_n_n 512 hr hs).symm]
  refine Finset.sum_congr rfl fun d _ => ?_
  congr 1
  · refine congrArg l (funext fun a => Fin.ext ?_)
    match a with
    | ⟨0, _⟩ => rfl
    | ⟨1, _⟩ => exact contrEquiv1_symm_val dot_S8192x512_S512x8192_S8192x8192_1_0_0_1_n_n 512 hr hs d
  · refine congrArg w (funext fun a => Fin.ext ?_)
    match a with
    | ⟨0, _⟩ => exact contrEquiv1_symm_val dot_S8192x512_S512x8192_S8192x8192_1_0_0_1_n_n 512 hr hs d
    | ⟨1, _⟩ => rfl

variable {α : Type}

/-- A [512] vector laid as the one row [1, 512] reads, at (0, k), the vector at k. -/
theorem row_apply (v : S512.Idx → α) (k : Fin 512) :
    broadcastInDim S1x512 ![1] bcast_S512_S1x512_1 v (ix2 (0 : Fin 1) k) = v (ix1 k) := by
  refine broadcastInDim_apply ![1] bcast_S512_S1x512_1 v (ix2 (0 : Fin 1) k) (ix1 k) fun a => ?_
  match a with
  | ⟨0, _⟩ =>
    show k.val = if (512 : ℕ) = 1 then 0 else k.val
    rw [if_neg (by decide)]

/-- That row repeated down the 8192 rows reads, at (n, k), the vector at k. -/
theorem rowsV_apply {F : FTy → Type} [FloatOps F] (v : FVec F S512 .f32) (n : Fin 8192) (k : Fin 512) : rowsV v (ix2 n k) = v (ix1 k) := by
  unfold rowsV
  rw [broadcastInDim_oneRow_apply]
  exact row_apply v k

/-- An [8192] vector laid as the one column [8192, 1] and repeated along the 128 columns reads, at (n, d), the vector at n. -/
theorem colsV_apply {F : FTy → Type} [FloatOps F] (v : FVec F S8192 .f32) (n : Fin 8192) (d : Fin 128) : colsV v (ix2 n d) = v (ix1 n) := by
  unfold colsV
  refine (broadcastInDim_apply ![0, 1] bcast_S8192x1_S8192x128_0_1 _ (ix2 n d) (ix2 n (0 : Fin 1)) fun a => ?_).trans ?_
  · match a with
    | ⟨0, _⟩ =>
      show n.val = if (8192 : ℕ) = 1 then 0 else n.val
      rw [if_neg (by decide)]
    | ⟨1, _⟩ =>
      show (0 : ℕ) = if (1 : ℕ) = 1 then 0 else d.val
      rw [if_pos rfl]
  · refine broadcastInDim_apply ![0] bcast_S8192_S8192x1_0 v (ix2 n (0 : Fin 1)) (ix1 n) fun a => ?_
    match a with
    | ⟨0, _⟩ =>
      show n.val = if (8192 : ℕ) = 1 then 0 else n.val
      rw [if_neg (by decide)]

/-- The relu against the splat of the word of 0 reads, at an index, the maximum of the entry and 0. -/
theorem reluV_apply (a : FVec Ideal S8192x512 .f32) (i : S8192x512.Idx) : reluV a i = max (a i) 0 := by
  unfold reluV
  rw [maximumf_apply, broadcastInDim_scalar_apply, constant_apply, Ideal.ofBits_zero_f32]

end Cert.ReferenceIdeal.RefRead

end
-- ==== Proof.RefReadStats.lean ====
/-
  The column statistics of the reference read entry by entry at the ideal values: the column sums from the word of 0,
  the means, the deviations, and the variance function with its comparison and selection kept as the program states
  them, are the specification's colMean and colVar of the matrix of entries.
-/
import proofs.«118833_j481036337863_2_alg».proof.Proof.RefReadLayout
import proofs.«118833_j481036337863_2_alg».proof.Proof.RefStats

noncomputable section

namespace Cert.ReferenceIdeal.RefRead

open Cert.ReferenceIdeal Cert.ReferenceIdeal.Gen Cert.ReferenceIdeal.RefRun Cert.Spec Idealize.ShloMosaic Idealize.ShloMosaic.ValueIdx

open scoped BigOperators

/-- The index with the column's coordinate inserted on the first axis of an [8192, 512] array. -/
theorem lift_col (hR : S8192x512.Reduces [0] S512) (k : Fin 512) (n : Fin 8192) : hR.lift (ix1 k) n = ix2 n k := by
  funext a
  refine Fin.ext ?_
  match a with
  | ⟨0, _⟩ => rfl
  | ⟨1, _⟩ => rfl

/-- A column's sum: the word of 0 plus the sum of the column's entries. -/
theorem colSumV_apply (h : FVec Ideal S8192x512 .f32) (k : Fin 512) :
    colSumV h (ix1 k) = Ideal.ofBits .f32 0x00000000#32 + ∑ n : Fin 8192, h (ix2 n k) := by
  have hR : S8192x512.Reduces [0] S512 := by decide
  unfold colSumV
  rw [hostReduceAdd_apply, Ideal.hostReduceAdd_single reducesTo_S8192x512_S512_d0 hR, constant_apply]
  exact congrArg _ (Finset.sum_congr rfl fun n _ => congrArg h (lift_col hR k n))

theorem meanV_vec (h : FVec Ideal S8192x512 .f32) : vec (meanV h) = colMean (mat h) := by
  funext k
  show Ideal.div (colSumV h (ix1 k)) (broadcastInDim S512 ![] bcast_S_S512 (constant (F := Ideal) S_ .f32 0x46000000#32) (ix1 k)) = _
  rw [colSumV_apply, broadcastInDim_scalar_apply, constant_apply]
  rfl

/-- The deviation of an entry from its column's mean, the means taken through the one-row form. -/
theorem devV_apply (h : FVec Ideal S8192x512 .f32) (n : Fin 8192) (k : Fin 512) :
    devV h (ix2 n k) = h (ix2 n k) - colMean (mat h) k := by
  unfold devV
  rw [subf_apply, broadcastInDim_oneRow_apply, hostDivf_apply, row_apply, colSumV_apply, broadcastInDim_scalar_apply,
    constant_apply]
  rfl

/-- The corrected count at the correction 0. -/
theorem countV_zero : countV (F := Ideal) (constantI S_ 32 0#32) ix0 = corrCount := rfl

theorem varV_vec (h : FVec Ideal S8192x512 .f32) : vec (varV h (constantI S_ 32 0#32)) = colVar (mat h) := by
  funext k
  show varV h (constantI S_ 32 0#32) (ix1 k) = _
  unfold varV
  rw [select_apply, broadcastInDim_scalar_apply, cmpf_apply, hostDivf_apply, colSumV_apply, broadcastInDim_scalar_apply,
    broadcastInDim_scalar_apply, constant_apply, constant_apply, countV_zero]
  unfold colVar
  refine congrArg (fun s => Scalar.select _ (Ideal.div (_ + s) _) _) (Finset.sum_congr rfl fun n _ => ?_)
  rw [mulf_apply, devV_apply]
  rfl

end Cert.ReferenceIdeal.RefRead

end
-- ==== Proof.KernelMid.lean ====
/-
  The host operations between the second and the third launch, read entry by entry over the extended reals.

  After the second launch the array of h is fixed.  The first stretch takes h's column means (the column sums
  from the word of 0 over the word of 8192); the second, an inlined function, takes the columns' variances about
  those means with their comparison and selection kept as stated; the third lays the two argument vectors γ and β
  and the two statistics out as one-row arrays [1, 512].  Entry (0, k) of each one-row array is entry k of the
  vector it was cast from, and no host operation writes the array of h.  The two statistics are the same chains
  of operations as the reference program applies to its own h, so they are the specification's column mean and
  column variance of the matrix of h's entries.
-/
import proofs.«118833_j481036337863_2_alg».proof.Proof.Run
import proofs.«118833_j481036337863_2_alg».proof.Proof.Frame
import proofs.«118833_j481036337863_2_alg».proof.Proof.RefReadStats
import Idealize.ShloMosaic.Lib.StableHlo.Run
import Idealize.ShloMosaic.Lib.ValueLayout
import Idealize.ShloMosaic.Lib.ValueIdx

set_option maxRecDepth 16384

noncomputable section

namespace Cert.KernelIdeal.Mid

open Cert.KernelIdeal Cert.KernelIdeal.Gen Cert.KernelIdeal.Run
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The array of h when the second launch returns, and the matrix of its entries. -/
abbrev hArr (c : Dev nD) : FVec Ideal S8192x512 .f32 := W2 m c main_v1
abbrev hMat (c : Dev nD) : Cert.Spec.Mat 8192 512 := Cert.Spec.mat (hArr m c)

/-! ## The first stretch: the column means -/

theorem W3_mean (c : Dev nD) : (W3 m c main_v4 : FVec Ideal S512 .f32) = Cert.ReferenceIdeal.RefRun.meanV (F := Ideal) (hArr m c) := by
  unfold W3
  after_results
  rfl

/-- The variance's correction: the integer 0. -/
theorem W3_corr (c : Dev nD) : (W3 m c main_c : IVec S_ 32) = constantI S_ 32 0#32 := by
  unfold W3
  after_results

theorem W3_h (c : Dev nD) : W3 m c main_v1 = W2 m c main_v1 := W3_of m c main_v1 (by decide)

/-! ## The second stretch: the column variances -/

theorem W4_var (c : Dev nD) : (W4 m c main_v5 : FVec Ideal S512 .f32)
    = Cert.ReferenceIdeal.RefRun.varV (F := Ideal) (hArr m c) (constantI S_ 32 0#32) := by
  have e : (W4 m c main_v5 : FVec Ideal S512 .f32)
      = Cert.ReferenceIdeal.RefRun.varV (F := Ideal) (W3 m c main_v1 : FVec Ideal S8192x512 .f32) (W3 m c main_c : IVec S_ 32) := by
    unfold W4
    after_results_simp
    rfl
  rw [e, W3_h, W3_corr]

theorem W4_mean (c : Dev nD) : W4 m c main_v4 = W3 m c main_v4 := W4_of m c main_v4 (by decide)
theorem W4_h (c : Dev nD) : W4 m c main_v1 = W3 m c main_v1 := W4_of m c main_v1 (by decide)

/-- The two argument vectors reach the third stretch as launched: no launch stages them and no host operation
    writes them. -/
theorem W4_gamma (c : Dev nD) : W4 m c main_arg5 = m ((c.tc : Thread nD τ).loc main_arg5) :=
  (W4_of m c main_arg5 (by decide)).trans <| (W3_of m c main_arg5 (by decide)).trans <|
    (W2_of_ne m c main_arg5 (by decide)).trans (W1_of_ne m c main_arg5 (by decide))
theorem W4_beta (c : Dev nD) : W4 m c main_arg6 = m ((c.tc : Thread nD τ).loc main_arg6) :=
  (W4_of m c main_arg6 (by decide)).trans <| (W3_of m c main_arg6 (by decide)).trans <|
    (W2_of_ne m c main_arg6 (by decide)).trans (W1_of_ne m c main_arg6 (by decide))

/-! ## The third stretch: the one-row arrays -/

theorem W5_gamma (c : Dev nD) : (W5 m c main_v6 : FVec Ideal S1x512 .f32) = shapeCast S1x512 (W4 m c main_arg5 : FVec Ideal S512 .f32) shapeCasts_S512_S1x512 := by
  unfold W5
  after_results
  rfl
theorem W5_beta (c : Dev nD) : (W5 m c main_v7 : FVec Ideal S1x512 .f32) = shapeCast S1x512 (W4 m c main_arg6 : FVec Ideal S512 .f32) shapeCasts_S512_S1x512 := by
  unfold W5
  after_results
  rfl
theorem W5_mean (c : Dev nD) : (W5 m c main_v8 : FVec Ideal S1x512 .f32) = shapeCast S1x512 (W4 m c main_v4 : FVec Ideal S512 .f32) shapeCasts_S512_S1x512 := by
  unfold W5
  after_results
  rfl
theorem W5_var (c : Dev nD) : (W5 m c main_v9 : FVec Ideal S1x512 .f32) = shapeCast S1x512 (W4 m c main_v5 : FVec Ideal S512 .f32) shapeCasts_S512_S1x512 := by
  unfold W5
  after_results
  rfl

/-! ## What the third launch finds -/

/-- Entry (0, k) of the one-row array of means is the specification's mean of column k of h. -/
theorem mid_mean (c : Dev nD) (k : Fin 512) : W5 m c main_v8 (ix2 (0 : Fin 1) k) = Cert.Spec.colMean (hMat m c) k := by
  refine (congrFun (W5_mean m c) (ix2 (0 : Fin 1) k)).trans ?_
  refine (shapeCast_a_1a_apply _ shapeCasts_S512_S1x512 0 k).trans ?_
  rw [W4_mean, W3_mean]
  exact congrFun (Cert.ReferenceIdeal.RefRead.meanV_vec (hArr m c)) k

/-- Entry (0, k) of the one-row array of variances is the specification's variance of column k of h. -/
theorem mid_var (c : Dev nD) (k : Fin 512) : W5 m c main_v9 (ix2 (0 : Fin 1) k) = Cert.Spec.colVar (hMat m c) k := by
  refine (congrFun (W5_var m c) (ix2 (0 : Fin 1) k)).trans ?_
  refine (shapeCast_a_1a_apply _ shapeCasts_S512_S1x512 0 k).trans ?_
  rw [W4_var]
  exact congrFun (Cert.ReferenceIdeal.RefRead.varV_vec (hArr m c)) k

/-- Entry (0, k) of the one-row array of γ is entry k of the argument, -/
theorem mid_gamma (c : Dev nD) (k : Fin 512) : W5 m c main_v6 (ix2 (0 : Fin 1) k) = Cert.Spec.vec (m ((c.tc : Thread nD τ).loc main_arg5)) k := by
  refine (congrFun (W5_gamma m c) (ix2 (0 : Fin 1) k)).trans ?_
  refine (shapeCast_a_1a_apply _ shapeCasts_S512_S1x512 0 k).trans ?_
  rw [W4_gamma]
  rfl

/-- and the same for β. -/
theorem mid_beta (c : Dev nD) (k : Fin 512) : W5 m c main_v7 (ix2 (0 : Fin 1) k) = Cert.Spec.vec (m ((c.tc : Thread nD τ).loc main_arg6)) k := by
  refine (congrFun (W5_beta m c) (ix2 (0 : Fin 1) k)).trans ?_
  refine (shapeCast_a_1a_apply _ shapeCasts_S512_S1x512 0 k).trans ?_
  rw [W4_beta]
  rfl

/-- No host operation writes the array of h. -/
theorem mid_h (c : Dev nD) : W5 m c main_v1 = W2 m c main_v1 :=
  (W5_of m c main_v1 (by decide)).trans <| (W4_h m c).trans (W3_h m c)

end Cert.KernelIdeal.Mid

end
-- ==== Proof.KernelValue.lean ====
/-
  The kernel's result as the specification's function of the launch memory.

  The contents of the core's buffers are followed backwards from the end of the program. The result array holds what
  the third launch leaves: the Gram matrix of the batch-normalised array read, at that launch's entry, from five
  buffers. Four of them (scale, shift, mean, variance) were written by the host operations between the second and the
  third launch, from the arguments and from the hidden array; the fifth is the hidden array itself, which those
  operations do not touch. The hidden array is what the second launch leaves: the graph layer applied to the adjacency
  argument and to the support array, which is what the first launch leaves: the attention gate and the support product
  of four arguments. Put together, the result is the specification's composite of the seven argument arrays.
-/
import proofs.«118833_j481036337863_2_alg».proof.Proof.Run
import proofs.«118833_j481036337863_2_alg».proof.Proof.Region0Value
import proofs.«118833_j481036337863_2_alg».proof.Proof.Region1Value
import proofs.«118833_j481036337863_2_alg».proof.Proof.Region2Value
import proofs.«118833_j481036337863_2_alg».proof.Proof.RefStats
import proofs.«118833_j481036337863_2_alg».proof.Proof.RefReadBasic
import proofs.«118833_j481036337863_2_alg».proof.Proof.KernelMid

set_option maxRecDepth 16384

noncomputable section

namespace Cert.KernelIdeal.Value

open Cert.KernelIdeal Cert.KernelIdeal.Gen Cert.KernelIdeal.Run Cert.Spec
open Idealize.ShloMosaic Idealize.ShloMosaic.TcCoe Idealize.ShloMosaic.ValueIdx Idealize.SL.Sem

variable (m : (ℓ : Loc nD τ sig) → Buf (Elt Ideal) ℓ) (c : Dev nD)

/-- The support array and the hidden array as the specification's functions of the argument arrays at launch. -/
abbrev supM : Mat 8192 512 :=
  support (mat (m ((c.tc : Thread nD τ).loc main_arg0) : FVec Ideal S8192x128 .f32)) (mat (m ((c.tc : Thread nD τ).loc main_arg2) : FVec Ideal S512x128 .f32))
    (mat (m ((c.tc : Thread nD τ).loc main_arg3) : FVec Ideal S128x512 .f32)) (mat (m ((c.tc : Thread nD τ).loc main_arg4) : FVec Ideal S128x512 .f32))
abbrev hidM : Mat 8192 512 :=
  hid (mat (m ((c.tc : Thread nD τ).loc main_arg1) : FVec Ideal S8192x8192 .f32)) (supM m c)

/-- What the first launch leaves in the support array. -/
theorem support_arr : mat (W1 m c main_v0 : FVec Ideal S8192x512 .f32) = supM m c := by
  funext n k
  exact (congrFun (W1_arr m c 4) (ix2 n k)).trans (R0V.final0 (V0 m) c n k)

/-- What the second launch leaves in the hidden array. -/
theorem hid_arr : mat (W2 m c main_v1 : FVec Ideal S8192x512 .f32) = hidM m c := by
  funext n k
  refine (congrFun (W2_arr m c 2) (ix2 n k)).trans ?_
  refine (R1.final1 (V1 m) c n k).trans ?_
  have hadj : (fun a b => (V1 m c main_arg1 : S8192x8192.Idx → EReal) (ix2 a b))
      = mat (m ((c.tc : Thread nD τ).loc main_arg1) : FVec Ideal S8192x8192 .f32) := by
    funext a b; exact congrFun (W1_of_ne m c main_arg1 (by decide)) (ix2 a b)
  exact congrFun (congrFun (congrArg₂ hid hadj (support_arr m c)) n) k

/-- The result array at the end of the program, given what the host operations between the second and the third
    launch leave in the five buffers the third launch reads. -/
theorem kernel_out_of_mid
    (hh : W5 m c main_v1 = W2 m c main_v1)
    (hmean : ∀ k : Fin 512, (W5 m c main_v8 : S1x512.Idx → EReal) (ix2 (0 : Fin 1) k) = colMean (mat (W2 m c main_v1 : FVec Ideal S8192x512 .f32)) k)
    (hvar : ∀ k : Fin 512, (W5 m c main_v9 : S1x512.Idx → EReal) (ix2 (0 : Fin 1) k) = colVar (mat (W2 m c main_v1 : FVec Ideal S8192x512 .f32)) k)
    (hgamma : ∀ k : Fin 512, (W5 m c main_v6 : S1x512.Idx → EReal) (ix2 (0 : Fin 1) k) = vec (m ((c.tc : Thread nD τ).loc main_arg5) : FVec Ideal S512 .f32) k)
    (hbeta : ∀ k : Fin 512, (W5 m c main_v7 : S1x512.Idx → EReal) (ix2 (0 : Fin 1) k) = vec (m ((c.tc : Thread nD τ).loc main_arg6) : FVec Ideal S512 .f32) k)
    (a b : Fin 8192) :
    (W6 m c main_v10 : S8192x8192.Idx → EReal) (ix2 a b)
      = gram (znorm (hidM m c) (colMean (hidM m c)) (colVar (hidM m c))
          (vec (m ((c.tc : Thread nD τ).loc main_arg5) : FVec Ideal S512 .f32)) (vec (m ((c.tc : Thread nD τ).loc main_arg6) : FVec Ideal S512 .f32))) a b := by
  refine (congrFun (R2.after2_out (W5 m) c) (ix2 a b)).trans ?_
  refine (R2.final2 (V5 m) c a b).trans ?_
  have e1 : (fun p q => (V5 m c main_v1 : S8192x512.Idx → EReal) (ix2 p q)) = hidM m c := by
    rw [← hid_arr m c]; funext p q; exact congrFun hh (ix2 p q)
  have e2 : (fun k => (V5 m c main_v8 : S1x512.Idx → EReal) (ix2 (0 : Fin 1) k)) = colMean (hidM m c) := by
    rw [← hid_arr m c]; exact funext hmean
  have e3 : (fun k => (V5 m c main_v9 : S1x512.Idx → EReal) (ix2 (0 : Fin 1) k)) = colVar (hidM m c) := by
    rw [← hid_arr m c]; exact funext hvar
  have e4 : (fun k => (V5 m c main_v6 : S1x512.Idx → EReal) (ix2 (0 : Fin 1) k)) = vec (m ((c.tc : Thread nD τ).loc main_arg5) : FVec Ideal S512 .f32) := funext hgamma
  have e5 : (fun k => (V5 m c main_v7 : S1x512.Idx → EReal) (ix2 (0 : Fin 1) k)) = vec (m ((c.tc : Thread nD τ).loc main_arg6) : FVec Ideal S512 .f32) := funext hbeta
  rw [e1, e2, e3, e4, e5]

/-- THE KERNEL'S RESULT, entry by entry: the Gram matrix of the batch-normalised hidden array, the hidden array and its
    two column statistics being the specification's functions of the seven argument arrays at launch. -/
theorem kernel_out (a b : Fin 8192) :
    (W6 m c main_v10 : S8192x8192.Idx → EReal) (ix2 a b)
      = gram (znorm (hidM m c) (colMean (hidM m c)) (colVar (hidM m c))
          (vec (m ((c.tc : Thread nD τ).loc main_arg5) : FVec Ideal S512 .f32)) (vec (m ((c.tc : Thread nD τ).loc main_arg6) : FVec Ideal S512 .f32))) a b :=
  kernel_out_of_mid m c (Mid.mid_h m c) (Mid.mid_mean m c) (Mid.mid_var m c) (Mid.mid_gamma m c) (Mid.mid_beta m c) a b

end Cert.KernelIdeal.Value

end
-- ==== Proof.RefRunOps.lean ====
/-
  The reference program's @main as a list of its 71 host operations, the outlined functions' operations listed inline
  at their calls over each call's own buffers, cut into four consecutive stretches:
    1. the feature attention and the support,
    2. the product with the adjacency and its relu, the column means and the correction constant,
    3. the variance function with its selection,
    4. the normalization and the inner-product decoder;
  that @main is that list run in order, that nothing of the signature is scoped, and that every operation touches only
  the TensorCore's buffers.
-/
import proofs.«118833_j481036337863_2_alg».proof.Proof.RefRunStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 21: the feature attention and the support. -/
abbrev ops1 : List (HloOp τ sig (Elt F)) :=
  [ binary main_arg0 main_arg2 main_v0 ((fun l r => Host.dotGeneral dot_S8192x128_S512x128_S8192x512_1_1_0_0_n_n none l r) : (⟨S8192x128, .f32⟩ : BufTy).Contents (Elt F) → (⟨S512x128, .f32⟩ : BufTy).Contents (Elt F) → (⟨S8192x512, .f32⟩ : BufTy).Contents (Elt F)),
    TRef.nullary main_call0.cst (constant S_ .f32 0x00000000#32),
    TRef.unary main_call0.cst main_call0.v0 (broadcastInDim S8192x512 ![] bcast_S_S8192x512),
    TRef.binary (.of main_v0) main_call0.v0 main_call0.v1 maximumf,
    binary main_v1 main_arg3 main_v2 ((fun l r => Host.dotGeneral dot_S8192x512_S128x512_S8192x128_1_1_0_0_n_n none l r) : (⟨S8192x512, .f32⟩ : BufTy).Contents (Elt F) → (⟨S128x512, .f32⟩ : BufTy).Contents (Elt F) → (⟨S8192x128, .f32⟩ : BufTy).Contents (Elt F)),
    nullary main_cst (constant S_ .f32 0xFF800000#32),
    binary main_v2 main_cst main_v3 ((fun x v => Host.reduce FloatOps.maximumf x v reducesTo_S8192x128_S8192_d1 h_S_) : (⟨S8192x128, .f32⟩ : BufTy).Contents (Elt F) → (⟨S_, .f32⟩ : BufTy).Contents (Elt F) → (⟨S8192, .f32⟩ : BufTy).Contents (Elt F)),
    nullary main_cst_0 (constant S_ .f32 0xFF800000#32),
    unary main_cst_0 main_v4 (broadcastInDim S8192 ![] bcast_S_S8192 : (⟨S_, .f32⟩ : BufTy).Contents (Elt F) → (⟨S8192, .f32⟩ : BufTy).Contents (Elt F)),
    binary main_v4 main_v3 main_v5 (maximumf : (⟨S8192, .f32⟩ : BufTy).Contents (Elt F) → (⟨S8192, .f32⟩ : BufTy).Contents (Elt F) → (⟨S8192, .f32⟩ : BufTy).Contents (Elt F)),
    unary main_v5 main_v6 (broadcastInDim S8192x1 ![0] bcast_S8192_S8192x1_0 : (⟨S8192, .f32⟩ : BufTy).Contents (Elt F) → (⟨S8192x1, .f32⟩ : BufTy).Contents (Elt F)),
    unary main_v6 main_v7 (broadcastInDim S8192x128 ![0, 1] bcast_S8192x1_S8192x128_0_1 : (⟨S8192x1, .f32⟩ : BufTy).Contents (Elt F) → (⟨S8192x128, .f32⟩ : BufTy).Contents (Elt F)),
    binary main_v2 main_v7 main_v8 (subf : (⟨S8192x128, .f32⟩ : BufTy).Contents (Elt F) → (⟨S8192x128, .f32⟩ : BufTy).Contents (Elt F) → (⟨S8192x128, .f32⟩ : BufTy).Contents (Elt F)),
    unary main_v8 main_v9 (Host.exp : (⟨S8192x128, .f32⟩ : BufTy).Contents (Elt F) → (⟨S8192x128, .f32⟩ : BufTy).Contents (Elt F)),
    nullary main_cst_1 (constant S_ .f32 0x00000000#32),
    binary main_v9 main_cst_1 main_v10 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v10 main_v11 (broadcastInDim S8192x1 ![0] bcast_S8192_S8192x1_0 : (⟨S8192, .f32⟩ : BufTy).Contents (Elt F) → (⟨S8192x1, .f32⟩ : BufTy).Contents (Elt F)),
    unary main_v11 main_v12 (broadcastInDim S8192x128 ![0, 1] bcast_S8192x1_S8192x128_0_1 : (⟨S8192x1, .f32⟩ : BufTy).Contents (Elt F) → (⟨S8192x128, .f32⟩ : BufTy).Contents (Elt F)),
    binary main_v9 main_v12 main_v13 (Host.divf : (⟨S8192x128, .f32⟩ : BufTy).Contents (Elt F) → (⟨S8192x128, .f32⟩ : BufTy).Contents (Elt F) → (⟨S8192x128, .f32⟩ : BufTy).Contents (Elt F)),
    binary main_arg0 main_v13 main_v14 (mulf : (⟨S8192x128, .f32⟩ : BufTy).Contents (Elt F) → (⟨S8192x128, .f32⟩ : BufTy).Contents (Elt F) → (⟨S8192x128, .f32⟩ : BufTy).Contents (Elt F)),
    binary main_v14 main_arg4 main_v15 ((fun l r => Host.dotGeneral dot_S8192x128_S128x512_S8192x512_1_0_0_1_n_n none l r) : (⟨S8192x128, .f32⟩ : BufTy).Contents (Elt F) → (⟨S128x512, .f32⟩ : BufTy).Contents (Elt F) → (⟨S8192x512, .f32⟩ : BufTy).Contents (Elt F)) ]

/-- Operations 22 … 31: the product with the adjacency and its relu, the column means, the correction constant. -/
abbrev ops2 : List (HloOp τ sig (Elt F)) :=
  [ binary main_arg1 main_v15 main_v16 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    TRef.nullary main_call1.cst (constant S_ .f32 0x00000000#32),
    TRef.unary main_call1.cst main_call1.v0 (broadcastInDim S8192x512 ![] bcast_S_S8192x512),
    TRef.binary (.of main_v16) main_call1.v0 main_call1.v1 maximumf,
    nullary main_cst_2 (constant S_ .f32 0x00000000#32),
    binary main_v17 main_cst_2 main_v18 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    nullary main_cst_3 (constant S_ .f32 0x46000000#32),
    unary main_cst_3 main_v19 (broadcastInDim S512 ![] bcast_S_S512 : (⟨S_, .f32⟩ : BufTy).Contents (Elt F) → (⟨S512, .f32⟩ : BufTy).Contents (Elt F)),
    binary main_v18 main_v19 main_v20 (Host.divf : (⟨S512, .f32⟩ : BufTy).Contents (Elt F) → (⟨S512, .f32⟩ : BufTy).Contents (Elt F) → (⟨S512, .f32⟩ : BufTy).Contents (Elt F)),
    nullary main_c (constantI S_ 32 0#32) ]

/-- Operations 32 … 53: the variance function and the selection inside it. -/
abbrev ops3 : List (HloOp τ sig (Elt F)) :=
  [ TRef.nullary main_call2.cst (constant S_ .f32 0x00000000#32),
    TRef.binary (.of main_v17) main_call2.cst main_call2.v0 (fun x v => Host.reduceAdd x v reducesTo_S8192x512_S512_d0 h_S_),
    TRef.unary main_call2.v0 main_call2.v1 (broadcastInDim S1x512 ![1] bcast_S512_S1x512_1),
    TRef.nullary main_call2.cst_0 (constant S_ .f32 0x46000000#32),
    TRef.unary main_call2.cst_0 main_call2.v2 (broadcastInDim S1x512 ![] bcast_S_S1x512),
    TRef.binary main_call2.v1 main_call2.v2 main_call2.v3 Host.divf,
    TRef.unary main_call2.v3 main_call2.v4 (broadcastInDim S8192x512 ![0, 1] bcast_S1x512_S8192x512_0_1),
    TRef.binary (.of main_v17) main_call2.v4 main_call2.v5 subf,
    TRef.binary main_call2.v5 main_call2.v5 main_call2.v6 mulf,
    TRef.unary (.of main_c) main_call2.v7 (sitofp .f32),
    TRef.nullary main_call2.cst_1 (constant S_ .f32 0x46000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S8192x512_S512_d0 h_S_),
    TRef.unary main_call2.v8 main_call2.v10 (broadcastInDim S512 ![] bcast_S_S512),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S512 ![] bcast_S_S512),
    TRef.ternary main_call2.v12 main_call2.v11 main_call2.call0.v1 main_call2.call0.v2 (fun p a b => select (broadcastInDim S512 ![] bcast_S_S512 p) a b) ]

/-- Operations 54 … 71: the normalization and the inner-product decoder. -/
abbrev ops4 : List (HloOp τ sig (Elt F)) :=
  [ unary main_v20 main_v22 (broadcastInDim S1x512 ![1] bcast_S512_S1x512_1 : (⟨S512, .f32⟩ : BufTy).Contents (Elt F) → (⟨S1x512, .f32⟩ : BufTy).Contents (Elt F)),
    unary main_v22 main_v23 (broadcastInDim S8192x512 ![0, 1] bcast_S1x512_S8192x512_0_1 : (⟨S1x512, .f32⟩ : BufTy).Contents (Elt F) → (⟨S8192x512, .f32⟩ : BufTy).Contents (Elt F)),
    binary main_v17 main_v23 main_v24 (subf : (⟨S8192x512, .f32⟩ : BufTy).Contents (Elt F) → (⟨S8192x512, .f32⟩ : BufTy).Contents (Elt F) → (⟨S8192x512, .f32⟩ : BufTy).Contents (Elt F)),
    nullary main_cst_4 (constant S_ .f32 0x3727C5AC#32),
    unary main_cst_4 main_v25 (broadcastInDim S512 ![] bcast_S_S512 : (⟨S_, .f32⟩ : BufTy).Contents (Elt F) → (⟨S512, .f32⟩ : BufTy).Contents (Elt F)),
    binary main_v21 main_v25 main_v26 (addf : (⟨S512, .f32⟩ : BufTy).Contents (Elt F) → (⟨S512, .f32⟩ : BufTy).Contents (Elt F) → (⟨S512, .f32⟩ : BufTy).Contents (Elt F)),
    unary main_v26 main_v27 (Host.rsqrt : (⟨S512, .f32⟩ : BufTy).Contents (Elt F) → (⟨S512, .f32⟩ : BufTy).Contents (Elt F)),
    unary main_v27 main_v28 (broadcastInDim S1x512 ![1] bcast_S512_S1x512_1 : (⟨S512, .f32⟩ : BufTy).Contents (Elt F) → (⟨S1x512, .f32⟩ : BufTy).Contents (Elt F)),
    unary main_v28 main_v29 (broadcastInDim S8192x512 ![0, 1] bcast_S1x512_S8192x512_0_1 : (⟨S1x512, .f32⟩ : BufTy).Contents (Elt F) → (⟨S8192x512, .f32⟩ : BufTy).Contents (Elt F)),
    binary main_v24 main_v29 main_v30 (mulf : (⟨S8192x512, .f32⟩ : BufTy).Contents (Elt F) → (⟨S8192x512, .f32⟩ : BufTy).Contents (Elt F) → (⟨S8192x512, .f32⟩ : BufTy).Contents (Elt F)),
    unary main_arg5 main_v31 (broadcastInDim S1x512 ![1] bcast_S512_S1x512_1 : (⟨S512, .f32⟩ : BufTy).Contents (Elt F) → (⟨S1x512, .f32⟩ : BufTy).Contents (Elt F)),
    unary main_v31 main_v32 (broadcastInDim S8192x512 ![0, 1] bcast_S1x512_S8192x512_0_1 : (⟨S1x512, .f32⟩ : BufTy).Contents (Elt F) → (⟨S8192x512, .f32⟩ : BufTy).Contents (Elt F)),
    binary main_v30 main_v32 main_v33 (mulf : (⟨S8192x512, .f32⟩ : BufTy).Contents (Elt F) → (⟨S8192x512, .f32⟩ : BufTy).Contents (Elt F) → (⟨S8192x512, .f32⟩ : BufTy).Contents (Elt F)),
    unary main_arg6 main_v34 (broadcastInDim S1x512 ![1] bcast_S512_S1x512_1 : (⟨S512, .f32⟩ : BufTy).Contents (Elt F) → (⟨S1x512, .f32⟩ : BufTy).Contents (Elt F)),
    unary main_v34 main_v35 (broadcastInDim S8192x512 ![0, 1] bcast_S1x512_S8192x512_0_1 : (⟨S1x512, .f32⟩ : BufTy).Contents (Elt F) → (⟨S8192x512, .f32⟩ : BufTy).Contents (Elt F)),
    binary main_v33 main_v35 main_v36 (addf : (⟨S8192x512, .f32⟩ : BufTy).Contents (Elt F) → (⟨S8192x512, .f32⟩ : BufTy).Contents (Elt F) → (⟨S8192x512, .f32⟩ : BufTy).Contents (Elt F)),
    unary main_v36 main_v37 ((transpose S512x8192 [1, 0] · transposes_S8192x512_S512x8192_1_0) : (⟨S8192x512, .f32⟩ : BufTy).Contents (Elt F) → (⟨S512x8192, .f32⟩ : BufTy).Contents (Elt F)),
    binary main_v36 main_v37 main_v38 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)) ]

/-- @main's 71 operations, in order. -/
abbrev ops : List (HloOp τ sig (Elt F)) := ops1 ++ (ops2 ++ (ops3 ++ ops4))

set_option maxRecDepth 8192 in
/-- @main is that straight line: the outlined functions unfolded at their calls, the sequencing reassociated. -/
theorem main_eq (c : Dev nD) : main (F := F) c = seq ops := by
  simp only [ops, ops1, ops2, ops3, ops4, List.cons_append, List.nil_append, main, fn_relu.body, fn_var.body, fn_where.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub ..⟩
theorem ops2_sub : (ops2 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., nullary_bufs_sub ..⟩
theorem ops3_sub : (ops3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops4_sub : (ops4 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops1_sub op h, List.forall_iff_forall_mem.mp ops2_sub op h,
      List.forall_iff_forall_mem.mp ops3_sub op h, List.forall_iff_forall_mem.mp ops4_sub op h]

end Cert.ReferenceIdeal.RefRun

end
-- ==== Proof.RefRun1.lean ====
/-
  The first stretch of the reference's operations over any buffer contents: it leaves the support, as the stage
  function of the four arrays it reads, in its buffer, and the seven argument arrays as they were.
-/
import proofs.«118833_j481036337863_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem after1_support (V : Valuation τ sig (Elt F)) :
    after ops1 V (main_v15 : DevRef τ sig) = supportV (V (main_arg0 : DevRef τ sig)) (V (main_arg2 : DevRef τ sig)) (V (main_arg3 : DevRef τ sig)) (V (main_arg4 : DevRef τ sig)) := by
  after_results_simp
  rfl

theorem keep1_arg0 (V : Valuation τ sig (Elt F)) : after ops1 V (main_arg0 : DevRef τ sig) = V (main_arg0 : DevRef τ sig) := by
  after_results_simp

theorem keep1_arg1 (V : Valuation τ sig (Elt F)) : after ops1 V (main_arg1 : DevRef τ sig) = V (main_arg1 : DevRef τ sig) := by
  after_results_simp

theorem keep1_arg2 (V : Valuation τ sig (Elt F)) : after ops1 V (main_arg2 : DevRef τ sig) = V (main_arg2 : DevRef τ sig) := by
  after_results_simp

theorem keep1_arg3 (V : Valuation τ sig (Elt F)) : after ops1 V (main_arg3 : DevRef τ sig) = V (main_arg3 : DevRef τ sig) := by
  after_results_simp

theorem keep1_arg4 (V : Valuation τ sig (Elt F)) : after ops1 V (main_arg4 : DevRef τ sig) = V (main_arg4 : DevRef τ sig) := by
  after_results_simp

theorem keep1_arg5 (V : Valuation τ sig (Elt F)) : after ops1 V (main_arg5 : DevRef τ sig) = V (main_arg5 : DevRef τ sig) := by
  after_results_simp

theorem keep1_arg6 (V : Valuation τ sig (Elt F)) : after ops1 V (main_arg6 : DevRef τ sig) = V (main_arg6 : DevRef τ sig) := by
  after_results_simp

end Cert.ReferenceIdeal.RefRun

end
-- ==== Proof.RefRun2.lean ====
/-
  The second stretch over any buffer contents: it leaves the graph layer's output (the relu of the adjacency times the
  support), its column means and the correction constant in their buffers, and the seven argument arrays as they were.
-/
import proofs.«118833_j481036337863_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem after2_hid (V : Valuation τ sig (Elt F)) :
    after ops2 V (main_v17 : DevRef τ sig) = hidV (V (main_arg1 : DevRef τ sig)) (V (main_v15 : DevRef τ sig)) := by
  after_results_simp
  rfl

theorem after2_mean (V : Valuation τ sig (Elt F)) :
    after ops2 V (main_v20 : DevRef τ sig) = meanV (hidV (V (main_arg1 : DevRef τ sig)) (V (main_v15 : DevRef τ sig))) := by
  after_results_simp
  rfl

theorem after2_c (V : Valuation τ sig (Elt F)) :
    after ops2 V (main_c : DevRef τ sig) = constantI S_ 32 0#32 := by
  after_results_simp

theorem keep2_arg0 (V : Valuation τ sig (Elt F)) : after ops2 V (main_arg0 : DevRef τ sig) = V (main_arg0 : DevRef τ sig) := by
  after_results_simp

theorem keep2_arg1 (V : Valuation τ sig (Elt F)) : after ops2 V (main_arg1 : DevRef τ sig) = V (main_arg1 : DevRef τ sig) := by
  after_results_simp

theorem keep2_arg2 (V : Valuation τ sig (Elt F)) : after ops2 V (main_arg2 : DevRef τ sig) = V (main_arg2 : DevRef τ sig) := by
  after_results_simp

theorem keep2_arg3 (V : Valuation τ sig (Elt F)) : after ops2 V (main_arg3 : DevRef τ sig) = V (main_arg3 : DevRef τ sig) := by
  after_results_simp

theorem keep2_arg4 (V : Valuation τ sig (Elt F)) : after ops2 V (main_arg4 : DevRef τ sig) = V (main_arg4 : DevRef τ sig) := by
  after_results_simp

theorem keep2_arg5 (V : Valuation τ sig (Elt F)) : after ops2 V (main_arg5 : DevRef τ sig) = V (main_arg5 : DevRef τ sig) := by
  after_results_simp

theorem keep2_arg6 (V : Valuation τ sig (Elt F)) : after ops2 V (main_arg6 : DevRef τ sig) = V (main_arg6 : DevRef τ sig) := by
  after_results_simp

end Cert.ReferenceIdeal.RefRun

end
-- ==== Proof.RefRun3.lean ====
/-
  The third stretch over any buffer contents: the variance function leaves its result, the stage function of the graph
  layer's output and the correction, in its buffer; the graph layer's output, its column means and the seven argument
  arrays stay as they were.
-/
import proofs.«118833_j481036337863_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem after3_var (V : Valuation τ sig (Elt F)) :
    after ops3 V (main_v21 : DevRef τ sig) = varV (V (main_v17 : DevRef τ sig)) (V (main_c : DevRef τ sig)) := by
  after_results_simp
  rfl

theorem keep3_v17 (V : Valuation τ sig (Elt F)) : after ops3 V (main_v17 : DevRef τ sig) = V (main_v17 : DevRef τ sig) := by
  after_results_simp

theorem keep3_v20 (V : Valuation τ sig (Elt F)) : after ops3 V (main_v20 : DevRef τ sig) = V (main_v20 : DevRef τ sig) := by
  after_results_simp

theorem keep3_arg0 (V : Valuation τ sig (Elt F)) : after ops3 V (main_arg0 : DevRef τ sig) = V (main_arg0 : DevRef τ sig) := by
  after_results_simp

theorem keep3_arg1 (V : Valuation τ sig (Elt F)) : after ops3 V (main_arg1 : DevRef τ sig) = V (main_arg1 : DevRef τ sig) := by
  after_results_simp

theorem keep3_arg2 (V : Valuation τ sig (Elt F)) : after ops3 V (main_arg2 : DevRef τ sig) = V (main_arg2 : DevRef τ sig) := by
  after_results_simp

theorem keep3_arg3 (V : Valuation τ sig (Elt F)) : after ops3 V (main_arg3 : DevRef τ sig) = V (main_arg3 : DevRef τ sig) := by
  after_results_simp

theorem keep3_arg4 (V : Valuation τ sig (Elt F)) : after ops3 V (main_arg4 : DevRef τ sig) = V (main_arg4 : DevRef τ sig) := by
  after_results_simp

theorem keep3_arg5 (V : Valuation τ sig (Elt F)) : after ops3 V (main_arg5 : DevRef τ sig) = V (main_arg5 : DevRef τ sig) := by
  after_results_simp

theorem keep3_arg6 (V : Valuation τ sig (Elt F)) : after ops3 V (main_arg6 : DevRef τ sig) = V (main_arg6 : DevRef τ sig) := by
  after_results_simp

end Cert.ReferenceIdeal.RefRun

end
-- ==== Proof.RefRun4.lean ====
/-
  The last stretch over any buffer contents: the normalization and the inner-product decoder leave the result, the
  stage functions of the graph layer's output, its two column statistics and the two affine parameters, in the result
  buffer; the seven argument arrays stay as they were.
-/
import proofs.«118833_j481036337863_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem after4_out (V : Valuation τ sig (Elt F)) :
    after ops4 V (main_v38 : DevRef τ sig)
      = gramV (zV (V (main_v17 : DevRef τ sig)) (V (main_v20 : DevRef τ sig)) (V (main_v21 : DevRef τ sig)) (V (main_arg5 : DevRef τ sig)) (V (main_arg6 : DevRef τ sig))) := by
  after_results_simp
  rfl

theorem keep4_arg0 (V : Valuation τ sig (Elt F)) : after ops4 V (main_arg0 : DevRef τ sig) = V (main_arg0 : DevRef τ sig) := by
  after_results_simp

theorem keep4_arg1 (V : Valuation τ sig (Elt F)) : after ops4 V (main_arg1 : DevRef τ sig) = V (main_arg1 : DevRef τ sig) := by
  after_results_simp

theorem keep4_arg2 (V : Valuation τ sig (Elt F)) : after ops4 V (main_arg2 : DevRef τ sig) = V (main_arg2 : DevRef τ sig) := by
  after_results_simp

theorem keep4_arg3 (V : Valuation τ sig (Elt F)) : after ops4 V (main_arg3 : DevRef τ sig) = V (main_arg3 : DevRef τ sig) := by
  after_results_simp

theorem keep4_arg4 (V : Valuation τ sig (Elt F)) : after ops4 V (main_arg4 : DevRef τ sig) = V (main_arg4 : DevRef τ sig) := by
  after_results_simp

theorem keep4_arg5 (V : Valuation τ sig (Elt F)) : after ops4 V (main_arg5 : DevRef τ sig) = V (main_arg5 : DevRef τ sig) := by
  after_results_simp

theorem keep4_arg6 (V : Valuation τ sig (Elt F)) : after ops4 V (main_arg6 : DevRef τ sig) = V (main_arg6 : DevRef τ sig) := by
  after_results_simp

end Cert.ReferenceIdeal.RefRun

end
-- ==== Proof.RefRun.lean ====
/-
  The reference's run. The four stretches of its operations, each read over arbitrary buffer contents, compose: the
  result buffer ends at the stage functions' composition outV of the seven argument arrays, and every argument array
  ends as it began. Every weakly fair execution of @main terminates in such a state.
-/
import proofs.«118833_j481036337863_2_alg».proof.Proof.RefRun1
import proofs.«118833_j481036337863_2_alg».proof.Proof.RefRun2
import proofs.«118833_j481036337863_2_alg».proof.Proof.RefRun3
import proofs.«118833_j481036337863_2_alg».proof.Proof.RefRun4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two stretches run one after the other: the second's fold over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- After all 71 operations the result buffer holds outV of the argument arrays' contents. -/
theorem after_out (V : Valuation τ sig (Elt F)) :
    after ops V (main_v38 : DevRef τ sig)
      = outV (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) := by
  show after (ops1 ++ (ops2 ++ (ops3 ++ ops4))) V _ = _
  rw [after_app, after_app, after_app, after4_out, keep3_v17, keep3_v20, after3_var, keep3_arg5, keep3_arg6,
    after2_hid, after2_mean, after2_c, keep2_arg5, keep2_arg6, keep1_arg1, after1_support, keep1_arg5, keep1_arg6]
  rfl

theorem after_arg0 (V : Valuation τ sig (Elt F)) : after ops V (main_arg0 : DevRef τ sig) = V (main_arg0 : DevRef τ sig) := by
  show after (ops1 ++ (ops2 ++ (ops3 ++ ops4))) V _ = _
  rw [after_app, after_app, after_app, keep4_arg0, keep3_arg0, keep2_arg0, keep1_arg0]

theorem after_arg1 (V : Valuation τ sig (Elt F)) : after ops V (main_arg1 : DevRef τ sig) = V (main_arg1 : DevRef τ sig) := by
  show after (ops1 ++ (ops2 ++ (ops3 ++ ops4))) V _ = _
  rw [after_app, after_app, after_app, keep4_arg1, keep3_arg1, keep2_arg1, keep1_arg1]

theorem after_arg2 (V : Valuation τ sig (Elt F)) : after ops V (main_arg2 : DevRef τ sig) = V (main_arg2 : DevRef τ sig) := by
  show after (ops1 ++ (ops2 ++ (ops3 ++ ops4))) V _ = _
  rw [after_app, after_app, after_app, keep4_arg2, keep3_arg2, keep2_arg2, keep1_arg2]

theorem after_arg3 (V : Valuation τ sig (Elt F)) : after ops V (main_arg3 : DevRef τ sig) = V (main_arg3 : DevRef τ sig) := by
  show after (ops1 ++ (ops2 ++ (ops3 ++ ops4))) V _ = _
  rw [after_app, after_app, after_app, keep4_arg3, keep3_arg3, keep2_arg3, keep1_arg3]

theorem after_arg4 (V : Valuation τ sig (Elt F)) : after ops V (main_arg4 : DevRef τ sig) = V (main_arg4 : DevRef τ sig) := by
  show after (ops1 ++ (ops2 ++ (ops3 ++ ops4))) V _ = _
  rw [after_app, after_app, after_app, keep4_arg4, keep3_arg4, keep2_arg4, keep1_arg4]

theorem after_arg5 (V : Valuation τ sig (Elt F)) : after ops V (main_arg5 : DevRef τ sig) = V (main_arg5 : DevRef τ sig) := by
  show after (ops1 ++ (ops2 ++ (ops3 ++ ops4))) V _ = _
  rw [after_app, after_app, after_app, keep4_arg5, keep3_arg5, keep2_arg5, keep1_arg5]

theorem after_arg6 (V : Valuation τ sig (Elt F)) : after ops V (main_arg6 : DevRef τ sig) = V (main_arg6 : DevRef τ sig) := by
  show after (ops1 ++ (ops2 ++ (ops3 ++ ops4))) V _ = _
  rw [after_app, after_app, after_app, keep4_arg6, keep3_arg6, keep2_arg6, keep1_arg6]

/-- The result of the run on device c as a function of the launch memory: outV of the seven argument arrays. -/
def res_out (m : (ℓ : Loc nD τ sig) → Buf (Elt F) ℓ) (c : Dev nD) : FVec F S8192x8192 .f32 :=
  outV (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- On every device, for any float values, from any memory with zero counters: every weakly fair execution of @main
    terminates with the result buffer at res_out of the launch memory and the seven argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = res_out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v38).trans (after_out _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _)⟩)
    (run_seq scopedRefs_eq scopedSems_eq defs main (fun _ => ops) main_eq (fun _ => ops_sub) m ρ)

end Cert.ReferenceIdeal.RefRun

end
-- ==== Proof.RefReadGate.lean ====
/-
  The feature attention and the support of the reference read entry by entry at the ideal values: each stage function of
  arrays is, through the readers, the specification's function of the matrices of entries.

    hidden activations   relu of the product with the first weight: max (Σ_d x n d · w1 k d) 0
    scores               the product with the second weight
    row maximum          max (−∞) (the fold of max from −∞ over the row)
    shifted exponentials exp (score − row maximum)
    softmax              shifted exponential / (the row's sum of them, whose initial value is the word of 0)
    support              the features times the softmax, by the graph weight
-/
import proofs.«118833_j481036337863_2_alg».proof.Proof.RefReadLayout

noncomputable section

namespace Cert.ReferenceIdeal.RefRead

open Cert.ReferenceIdeal Cert.ReferenceIdeal.Gen Cert.ReferenceIdeal.RefRun Cert.Spec Idealize.ShloMosaic Idealize.ShloMosaic.ValueIdx

open scoped BigOperators

/-- The index with the row's coordinate inserted on the second axis of an [8192, 128] array. -/
theorem lift_row (hR : S8192x128.Reduces [1] S8192) (n : Fin 8192) (d : Fin 128) : hR.lift (ix1 n) d = ix2 n d := by
  funext a
  refine Fin.ext ?_
  match a with
  | ⟨0, _⟩ => rfl
  | ⟨1, _⟩ => rfl

theorem hattV_mat (x : FVec Ideal S8192x128 .f32) (w1 : FVec Ideal S512x128 .f32) : mat (hattV x w1) = hatt (mat x) (mat w1) := by
  funext n k
  show hattV x w1 (ix2 n k) = _
  unfold hattV
  rw [reluV_apply, dot_x_w1_apply]
  rfl

theorem logitV_mat (h : FVec Ideal S8192x512 .f32) (w2 : FVec Ideal S128x512 .f32) : mat (logitV h w2) = logit (mat h) (mat w2) := by
  funext n d
  show logitV h w2 (ix2 n d) = _
  unfold logitV
  rw [dot_h_w2_apply]
  rfl

/-- A row's maximum: the splat of −∞ against the reduction from −∞, the reduction a fold of max over the row. -/
theorem rowMaxV_apply (l : FVec Ideal S8192x128 .f32) (n : Fin 8192) : rowMaxV l (ix1 n) = rowMax (mat l n) := by
  have hR : S8192x128.Reduces [1] S8192 := by decide
  unfold rowMaxV
  rw [maximumf_apply, broadcastInDim_scalar_apply, constant_apply,
    Host.reduce_eq_fold_single FloatOps.maximumf l _ reducesTo_S8192x128_S8192_d1 hR h_S_ (ix1 n)]
  have e : (l ∘ hR.lift (ix1 n)) = mat l n := funext fun d => congrArg l (lift_row hR n d)
  rw [e]
  rfl

theorem expV_mat (l : FVec Ideal S8192x128 .f32) : mat (expV l) = expRow (mat l) := by
  funext n d
  show Ideal.exp (l (ix2 n d) - colsV (rowMaxV l) (ix2 n d)) = _
  rw [colsV_apply, rowMaxV_apply]
  rfl

theorem scoreV_mat (l : FVec Ideal S8192x128 .f32) : mat (scoreV l) = score (mat l) := by
  have hR : S8192x128.Reduces [1] S8192 := by decide
  funext n d
  show Ideal.div (expV l (ix2 n d)) (colsV (Host.reduceAdd (expV l) (constant S_ .f32 0x00000000#32) reducesTo_S8192x128_S8192_d1 h_S_) (ix2 n d)) = _
  rw [colsV_apply, hostReduceAdd_apply, Ideal.hostReduceAdd_single reducesTo_S8192x128_S8192_d1 hR, constant_apply,
    Ideal.ofBits_zero_f32, zero_add]
  unfold score
  rw [← expV_mat]
  refine congrArg₂ Ideal.div rfl (Finset.sum_congr rfl fun d' _ => ?_)
  exact congrArg (expV l) (lift_row hR n d')

theorem suppV_mat (x s : FVec Ideal S8192x128 .f32) (wg : FVec Ideal S128x512 .f32) :
    mat (suppV x s wg) = supp (cond (mat x) (mat s)) (mat wg) := by
  funext n k
  show suppV x s wg (ix2 n k) = _
  unfold suppV
  rw [dot_c_wg_apply]
  rfl

/-- The support as a function of the four arrays it reads. -/
theorem supportV_mat (x : FVec Ideal S8192x128 .f32) (w1 : FVec Ideal S512x128 .f32) (w2 wg : FVec Ideal S128x512 .f32) :
    mat (supportV x w1 w2 wg) = support (mat x) (mat w1) (mat w2) (mat wg) := by
  unfold supportV support
  rw [suppV_mat, scoreV_mat, logitV_mat, hattV_mat]

end Cert.ReferenceIdeal.RefRead

end
-- ==== Proof.RefReadOut.lean ====
/-
  The graph layer, the normalization and the inner-product decoder of the reference read entry by entry at the ideal
  values, and with them the whole result: the stage functions' composition, through the readers, is the
  specification's gram of znorm of hid, with the column statistics colMean and colVar of hid.
-/
import proofs.«118833_j481036337863_2_alg».proof.Proof.RefReadGate
import proofs.«118833_j481036337863_2_alg».proof.Proof.RefReadStats

noncomputable section

namespace Cert.ReferenceIdeal.RefRead

open Cert.ReferenceIdeal Cert.ReferenceIdeal.Gen Cert.ReferenceIdeal.RefRun Cert.Spec Idealize.ShloMosaic Idealize.ShloMosaic.ValueIdx

open scoped BigOperators

theorem hidV_mat (adj : FVec Ideal S8192x8192 .f32) (s : FVec Ideal S8192x512 .f32) : mat (hidV adj s) = hid (mat adj) (mat s) := by
  funext n k
  show hidV adj s (ix2 n k) = _
  unfold hidV
  rw [reluV_apply, dot_adj_s_apply]
  rfl

theorem zV_mat (h : FVec Ideal S8192x512 .f32) (mean var gamma beta : FVec Ideal S512 .f32) :
    mat (zV h mean var gamma beta) = znorm (mat h) (vec mean) (vec var) (vec gamma) (vec beta) := by
  funext n k
  show zV h mean var gamma beta (ix2 n k) = _
  unfold zV
  rw [addf_apply, mulf_apply, mulf_apply, subf_apply, rowsV_apply, rowsV_apply, rowsV_apply, rowsV_apply]
  show (h (ix2 n k) - mean (ix1 k))
      * Ideal.rsqrt (var (ix1 k) + broadcastInDim S512 ![] bcast_S_S512 (constant (F := Ideal) S_ .f32 0x3727C5AC#32) (ix1 k))
      * gamma (ix1 k) + beta (ix1 k) = _
  rw [broadcastInDim_scalar_apply, constant_apply]
  rfl

theorem gramV_mat (z : FVec Ideal S8192x512 .f32) : mat (gramV z) = gram (mat z) := by
  funext a b
  show gramV z (ix2 a b) = _
  unfold gramV
  rw [dot_z_zt_apply]
  refine Finset.sum_congr rfl fun k _ => ?_
  rw [transpose_ix2_apply]
  rfl

/-- The whole result, entry by entry. -/
theorem outV_mat (x : FVec Ideal S8192x128 .f32) (adj : FVec Ideal S8192x8192 .f32) (w1 : FVec Ideal S512x128 .f32)
    (w2 wg : FVec Ideal S128x512 .f32) (gamma beta : FVec Ideal S512 .f32) :
    mat (outV x adj w1 w2 wg gamma beta)
      = gram (znorm (hid (mat adj) (support (mat x) (mat w1) (mat w2) (mat wg)))
          (colMean (hid (mat adj) (support (mat x) (mat w1) (mat w2) (mat wg))))
          (colVar (hid (mat adj) (support (mat x) (mat w1) (mat w2) (mat wg)))) (vec gamma) (vec beta)) := by
  unfold outV
  rw [gramV_mat, zV_mat, meanV_vec, varV_vec, hidV_mat, supportV_mat]

end Cert.ReferenceIdeal.RefRead

end
-- ==== Proof.RefValue.lean ====
/-
  The reference's result, entry by entry: on each device the result array of the run, read at (a, b), is the
  specification's inner product of rows a and b of the normalized graph-layer output, the output and its two column
  statistics being the specification's functions of the matrices and vectors of the seven argument arrays' entries.
  The argument arrays are read by position: argument 0 the features, 1 the adjacency, 2 and 3 the two attention
  weights, 4 the graph weight, 5 and 6 the scale and the shift of the normalization.
-/
import proofs.«118833_j481036337863_2_alg».proof.Proof.RefRun
import proofs.«118833_j481036337863_2_alg».proof.Proof.RefReadOut

noncomputable section

namespace Cert.ReferenceIdeal.RefValue

open Cert.ReferenceIdeal Cert.ReferenceIdeal.Gen Cert.ReferenceIdeal.RefRun Cert.ReferenceIdeal.RefRead Cert.Spec
open Idealize.ShloMosaic Idealize.ShloMosaic.ValueIdx Idealize.ShloMosaic.TcCoe Idealize.SL.Sem

theorem res_out_eq (m : (ℓ : Loc nD τ sig) → Buf (Elt Ideal) ℓ) (c : Dev nD) (a b : Fin 8192) :
    res_out m c (ix2 a b)
      = gram (znorm (hid (mat (m ((c.tc : Thread nD τ).loc main_arg1) : FVec Ideal S8192x8192 .f32))
          (support (mat (m ((c.tc : Thread nD τ).loc main_arg0) : FVec Ideal S8192x128 .f32)) (mat (m ((c.tc : Thread nD τ).loc main_arg2) : FVec Ideal S512x128 .f32))
            (mat (m ((c.tc : Thread nD τ).loc main_arg3) : FVec Ideal S128x512 .f32)) (mat (m ((c.tc : Thread nD τ).loc main_arg4) : FVec Ideal S128x512 .f32))))
        (colMean (hid (mat (m ((c.tc : Thread nD τ).loc main_arg1) : FVec Ideal S8192x8192 .f32))
          (support (mat (m ((c.tc : Thread nD τ).loc main_arg0) : FVec Ideal S8192x128 .f32)) (mat (m ((c.tc : Thread nD τ).loc main_arg2) : FVec Ideal S512x128 .f32))
            (mat (m ((c.tc : Thread nD τ).loc main_arg3) : FVec Ideal S128x512 .f32)) (mat (m ((c.tc : Thread nD τ).loc main_arg4) : FVec Ideal S128x512 .f32)))))
        (colVar (hid (mat (m ((c.tc : Thread nD τ).loc main_arg1) : FVec Ideal S8192x8192 .f32))
          (support (mat (m ((c.tc : Thread nD τ).loc main_arg0) : FVec Ideal S8192x128 .f32)) (mat (m ((c.tc : Thread nD τ).loc main_arg2) : FVec Ideal S512x128 .f32))
            (mat (m ((c.tc : Thread nD τ).loc main_arg3) : FVec Ideal S128x512 .f32)) (mat (m ((c.tc : Thread nD τ).loc main_arg4) : FVec Ideal S128x512 .f32)))))
        (vec (m ((c.tc : Thread nD τ).loc main_arg5) : FVec Ideal S512 .f32)) (vec (m ((c.tc : Thread nD τ).loc main_arg6) : FVec Ideal S512 .f32))) a b :=
  congrFun (congrFun (outV_mat _ _ _ _ _ _ _) a) b

end Cert.ReferenceIdeal.RefValue

end
-- ==== Proof.Claims.lean ====
/-
  The five claims. The two kernel frames are the run of the three regions with each argument walked back to the launch
  memory, at the word-level reading and at the extended reals; the reference's frame is its run with the result dropped;
  the idealization rewrote nothing. For the equality of results: from memories that agree on the arguments, the kernel's
  result array and the reference's are, entry by entry, the same function of the argument arrays — the inner products of
  the rows of the normalized graph-layer output.
-/
import proofs.«118833_j481036337863_2_alg».proof.Defs
import proofs.«118833_j481036337863_2_alg».proof.Proof.Gen.Kernel
import proofs.«118833_j481036337863_2_alg».proof.Proof.Gen.KernelIdeal
import proofs.«118833_j481036337863_2_alg».proof.Proof.Gen.ReferenceIdeal
import proofs.«118833_j481036337863_2_alg».proof.Proof.Gen.Pre_finite_inputs
import proofs.«118833_j481036337863_2_alg».proof.Proof.WordLevel.Frame
import proofs.«118833_j481036337863_2_alg».proof.Proof.RunOut
import proofs.«118833_j481036337863_2_alg».proof.Proof.KernelValue
import proofs.«118833_j481036337863_2_alg».proof.Proof.RefValue

noncomputable section

namespace Cert.Proof.Claims

open Idealize.ShloMosaic Idealize.ShloMosaic.TcCoe Idealize.SL.Sem Idealize.ShloMosaic.ValueIdx

theorem frame_k : @Cert.frame_Kernel Cert.Kernel.Gen.facts Cert.Pre_finite_inputs.Gen.facts :=
  fun m ρ _ => Cert.Kernel.Run.frame (F := Bits) m ρ

theorem frame_ki : @Cert.frame_KernelIdeal Cert.KernelIdeal.Gen.facts Cert.Pre_finite_inputs.Gen.facts :=
  fun m ρ _ => Cert.KernelIdeal.Run.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run (F := Ideal) m ρ)

theorem preserves : Cert.preserves_Kernel_KernelIdeal := trivial

/-- Both runs end, the kernel's result array at the last contents of its chain and the reference's at its composed term;
    read at an entry (a, b), each is the specification's value at the launch memory's arguments, which agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Run.result m c, Cert.KernelIdeal.Run.run_out (F := Ideal) m ρ, ?_⟩
  refine (θ_run Cert.ReferenceIdeal.defs _ _).mono (fun _ h c => ⟨(h c).1.trans ?_, (h c).2⟩)
    (Cert.ReferenceIdeal.RefRun.run (F := Ideal) m' ρ')
  funext j
  obtain ⟨a, b, rfl⟩ : ∃ (a b : Fin 8192), j = ix2 a b := ⟨j 0, j 1, eq_ix2 j⟩
  refine (Cert.ReferenceIdeal.RefValue.res_out_eq m' c a b).trans ?_
  rw [(hagree c).1, (hagree c).2.1, (hagree c).2.2.1, (hagree c).2.2.2.1, (hagree c).2.2.2.2.1, (hagree c).2.2.2.2.2.1,
    (hagree c).2.2.2.2.2.2]
  exact (Cert.KernelIdeal.Value.kernel_out m c a b).symm

end Cert.Proof.Claims

end
-- ==== Proof.lean ====
/-
  The certificate: a kernel of three pipelined regions — an attention gate with the support product; the adjacency
  product accumulated over eight column blocks and rectified; the batch normalization with the inner-product decoder —
  against the same computation written with whole-array operations. Each program runs to the end from any memory,
  faults nowhere and leaves its arguments as launched; and at the extended reals, where a change of float format is the
  identity and a sum does not depend on how it is grouped, the two programs' results are equal entry by entry.
  The witnesses of the programs' stated side conditions come first; the five claims are proved in Proof/Claims.lean.
-/
import proofs.«118833_j481036337863_2_alg».proof.Defs
import proofs.«118833_j481036337863_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
